-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x64 : Shape := ⟨2, ![20000, 64]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  main_v88

def fn_part4 {F : FTy → Type} [FloatOps F] (main_arg18 : FVec F S128x128 .f32) (main_arg19 : FVec F S128x128 .f32) (main_arg20 : FVec F S128 .f32) (main_arg21 : FVec F S128x128 .f32) (main_v63 : IVec S_ 1) (main_v67 : IVec S_ 1) : IVec S_ 1 :=
  let main_v68 : IVec S_ 1 := andi main_v63 main_v67
  let main_v69 : FVec F S128x128 .f32 := Host.absf main_arg18
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg19
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg20
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg21
  let main_cst_32 : FVec F S_ .f32 := constant S_ .f32 0x7F800000#32
  fn_part5 (F := F) main_v83 main_v84 main_cst_32

def fn_part3 {F : FTy → Type} [FloatOps F] (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_v63 main_v67

def fn_part2 {F : FTy → Type} [FloatOps F] (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_arg21 main_v48 main_v49 main_v50

def fn_part1 {F : FTy → Type} [FloatOps F] (main_arg8 : FVec F S64x128 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg8
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S20000x64 .f32) (main_arg2 : IVec S2000000 32) (main_arg3 : IVec S2000000 32) (main_arg4 : IVec S500000 32) (main_arg5 : IVec S500000 32) (main_arg6 : FVec F S128x128 .f32) (main_arg7 : FVec F S128 .f32) (main_arg8 : FVec F S64x128 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128x128 .f32) (main_arg20 : FVec F S128 .f32) (main_arg21 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S20000x64 : Shape := ⟨2, ![20000, 64]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S64x128 : Shape := ⟨2, ![64, 128]⟩
abbrev S_ : Shape := ⟨0, ![]⟩
abbrev S20000 : Shape := ⟨1, ![20000]⟩
abbrev S2000000x1 : Shape := ⟨2, ![2000000, 1]⟩
abbrev S100000 : Shape := ⟨1, ![100000]⟩
abbrev S1x128 : Shape := ⟨2, ![1, 128]⟩
abbrev S4000x128 : Shape := ⟨2, ![4000, 128]⟩
abbrev S20000x128 : Shape := ⟨2, ![20000, 128]⟩
abbrev S4000x64 : Shape := ⟨2, ![4000, 64]⟩
abbrev S2000000x128 : Shape := ⟨2, ![2000000, 128]⟩
abbrev S20000x1 : Shape := ⟨2, ![20000, 1]⟩
abbrev S4000x1 : Shape := ⟨2, ![4000, 1]⟩
abbrev S4000 : Shape := ⟨1, ![4000]⟩
abbrev S100000x1 : Shape := ⟨2, ![100000, 1]⟩
abbrev S500000x1 : Shape := ⟨2, ![500000, 1]⟩
abbrev S500000x128 : Shape := ⟨2, ![500000, 128]⟩

abbrev nBuf : Space → Nat
  | .hbm => 139
  | .vmem => 56
  | .smem => 0
  | _ => 0

abbrev hbmTy0_0 (i : Nat) : BufTy := match i % 128 with
  | 0 => ⟨S100000x128, .f32⟩
  | 1 => ⟨S20000x64, .f32⟩
  | 2 => ⟨S2000000, .i32⟩
  | 3 => ⟨S2000000, .i32⟩
  | 4 => ⟨S500000, .i32⟩
  | 5 => ⟨S500000, .i32⟩
  | 6 => ⟨S128x128, .f32⟩
  | 7 => ⟨S128, .f32⟩
  | 8 => ⟨S64x128, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S_, .f32⟩
  | 23 => ⟨S2000000, .f32⟩
  | 24 => ⟨S_, .f32⟩
  | 25 => ⟨S20000, .f32⟩
  | 26 => ⟨S2000000x1, .i32⟩
  | 27 => ⟨S20000, .f32⟩
  | 28 => ⟨S_, .f32⟩
  | 29 => ⟨S20000, .f32⟩
  | 30 => ⟨S20000, .f32⟩
  | 31 => ⟨S_, .f32⟩
  | 32 => ⟨S20000, .f32⟩
  | 33 => ⟨S20000, .f32⟩
  | 34 => ⟨S_, .f32⟩
  | 35 => ⟨S100000, .f32⟩
  | 36 => ⟨S2000000x1, .i32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S1x128, .f32⟩
  | 45 => ⟨S100000x128, .bf16⟩
  | 46 => ⟨S1x128, .f32⟩
  | 47 => ⟨S20000x128, .bf16⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S2000000x128, .bf16⟩
  | 57 => ⟨S2000000x128, .f32⟩
  | 58 => ⟨S_, .f32⟩
  | 59 => ⟨S20000x128, .f32⟩
  | 60 => ⟨S2000000x1, .i32⟩
  | 61 => ⟨S20000x128, .f32⟩
  | 62 => ⟨S_, .i32⟩
  | 63 => ⟨S2000000, .i32⟩
  | 64 => ⟨S2000000, .i1⟩
  | 65 => ⟨S_, .i32⟩
  | 66 => ⟨S2000000, .i32⟩
  | 67 => ⟨S2000000, .i32⟩
  | 68 => ⟨S2000000, .i32⟩
  | 69 => ⟨S2000000x1, .i32⟩
  | 70 => ⟨S2000000x128, .bf16⟩
  | 71 => ⟨S2000000x128, .f32⟩
  | 72 => ⟨S_, .f32⟩
  | 73 => ⟨S100000x128, .f32⟩
  | 74 => ⟨S2000000x1, .i32⟩
  | 75 => ⟨S100000x128, .f32⟩
  | 76 => ⟨S20000x1, .f32⟩
  | 77 => ⟨S1x128, .f32⟩
  | 78 => ⟨S20000x128, .bf16⟩
  | 79 => ⟨S100000x1, .f32⟩
  | 80 => ⟨S1x128, .f32⟩
  | 81 => ⟨S100000x128, .bf16⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x128, .bf16⟩
  | 91 => ⟨S2000000x128, .f32⟩
  | 92 => ⟨S_, .f32⟩
  | 93 => ⟨S20000x128, .f32⟩
  | 94 => ⟨S2000000x1, .i32⟩
  | 95 => ⟨S20000x128, .f32⟩
  | 96 => ⟨S_, .i32⟩
  | 97 => ⟨S2000000, .i32⟩
  | 98 => ⟨S2000000, .i1⟩
  | 99 => ⟨S_, .i32⟩
  | 100 => ⟨S2000000, .i32⟩
  | 101 => ⟨S2000000, .i32⟩
  | 102 => ⟨S2000000, .i32⟩
  | 103 => ⟨S2000000x1, .i32⟩
  | 104 => ⟨S2000000x128, .bf16⟩
  | 105 => ⟨S2000000x128, .f32⟩
  | 106 => ⟨S_, .f32⟩
  | 107 => ⟨S100000x128, .f32⟩
  | 108 => ⟨S2000000x1, .i32⟩
  | 109 => ⟨S100000x128, .f32⟩
  | 110 => ⟨S20000x1, .f32⟩
  | 111 => ⟨S1x128, .f32⟩
  | 112 => ⟨S20000x128, .bf16⟩
  | 113 => ⟨S100000x1, .f32⟩
  | 114 => ⟨S1x128, .f32⟩
  | 115 => ⟨S100000x128, .bf16⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x128, .bf16⟩
  | 125 => ⟨S500000x128, .f32⟩
  | 126 => ⟨S_, .i32⟩
  | 127 => ⟨S500000, .i32⟩
  | _ => ⟨S100000x128, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x128, .bf16⟩
  | 7 => ⟨S500000x128, .f32⟩
  | 8 => ⟨S500000x128, .f32⟩
  | 9 => ⟨S_, .f32⟩
  | 10 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .bf16⟩
  | .local _ .vmem, ⟨5, _⟩ => ⟨S4000x128, .bf16⟩
  | .local _ .vmem, ⟨6, _⟩ => ⟨S4000x64, .f32⟩
  | .local _ .vmem, ⟨7, _⟩ => ⟨S4000x64, .f32⟩
  | .local _ .vmem, ⟨8, _⟩ => ⟨S64x128, .f32⟩
  | .local _ .vmem, ⟨9, _⟩ => ⟨S1x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S4000x128, .bf16⟩
  | .local _ .vmem, ⟨17, _⟩ => ⟨S4000x128, .bf16⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S4000x128, .bf16⟩
  | .local _ .vmem, ⟨28, _⟩ => ⟨S4000x128, .bf16⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S4000x128, .bf16⟩
  | .local _ .vmem, ⟨33, _⟩ => ⟨S4000x128, .bf16⟩
  | .local _ .vmem, ⟨34, _⟩ => ⟨S4000x128, .f32⟩
  | .local _ .vmem, ⟨35, _⟩ => ⟨S4000x128, .f32⟩
  | .local _ .vmem, ⟨36, _⟩ => ⟨S4000x1, .f32⟩
  | .local _ .vmem, ⟨37, _⟩ => ⟨S4000x1, .f32⟩
  | .local _ .vmem, ⟨38, _⟩ => ⟨S4000x128, .bf16⟩
  | .local _ .vmem, ⟨39, _⟩ => ⟨S4000x128, .bf16⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S4000x128, .bf16⟩
  | .local _ .vmem, ⟨44, _⟩ => ⟨S4000x128, .bf16⟩
  | .local _ .vmem, ⟨45, _⟩ => ⟨S4000x128, .f32⟩
  | .local _ .vmem, ⟨46, _⟩ => ⟨S4000x128, .f32⟩
  | .local _ .vmem, ⟨47, _⟩ => ⟨S4000x1, .f32⟩
  | .local _ .vmem, ⟨48, _⟩ => ⟨S4000x1, .f32⟩
  | .local _ .vmem, ⟨49, _⟩ => ⟨S4000x128, .bf16⟩
  | .local _ .vmem, ⟨50, _⟩ => ⟨S4000x128, .bf16⟩
  | .local _ .vmem, ⟨51, _⟩ => ⟨S128x128, .f32⟩
  | .local _ .vmem, ⟨52, _⟩ => ⟨S128x128, .f32⟩
  | .local _ .vmem, ⟨53, _⟩ => ⟨S1x128, .f32⟩
  | .local _ .vmem, ⟨54, _⟩ => ⟨S4000x128, .bf16⟩
  | .local _ .vmem, ⟨55, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_cst_2 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_4 : Ref sig .tc := ⟨.hbm, 38, rfl⟩
abbrev main_v11 : Ref sig .tc := ⟨.hbm, 39, rfl⟩
abbrev main_v12 : Ref sig .tc := ⟨.hbm, 40, rfl⟩
abbrev main_cst_5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_7 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_8 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_10 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_11 : Ref sig .tc := ⟨.hbm, 82, rfl⟩
abbrev main_v47 : Ref sig .tc := ⟨.hbm, 83, rfl⟩
abbrev main_v48 : Ref sig .tc := ⟨.hbm, 84, rfl⟩
abbrev main_c_12 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_13 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_14 : Ref sig .tc := ⟨.hbm, 96, rfl⟩
abbrev main_v58 : Ref sig .tc := ⟨.hbm, 97, rfl⟩
abbrev main_v59 : Ref sig .tc := ⟨.hbm, 98, rfl⟩
abbrev main_c_15 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_16 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_17 : Ref sig .tc := ⟨.hbm, 116, rfl⟩
abbrev main_v75 : Ref sig .tc := ⟨.hbm, 117, rfl⟩
abbrev main_v76 : Ref sig .tc := ⟨.hbm, 118, rfl⟩
abbrev main_c_18 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_19 : Ref sig .tc := ⟨.hbm, 126, rfl⟩
abbrev main_v83 : Ref sig .tc := ⟨.hbm, 127, rfl⟩
abbrev main_v84 : Ref sig .tc := ⟨.hbm, 128, rfl⟩
abbrev main_c_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_21 : Ref sig .tc := ⟨.hbm, 137, rfl⟩
abbrev main_v92 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  bcast_S_S2000000 : S_.BroadcastsInDim S2000000 (![] : Fin 0 → Fin S2000000.rank)
  bcast_S_S20000 : S_.BroadcastsInDim S20000 (![] : Fin 0 → Fin S20000.rank)
  bcast_S2000000_S2000000x1_0 : S2000000.BroadcastsInDim S2000000x1 (![0] : Fin 1 → Fin S2000000x1.rank)
  bcast_S_S100000 : S_.BroadcastsInDim S100000 (![] : Fin 0 → Fin S100000.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  inb_S4000x64_S4000x64_0_0 : ∀ a, (![0, 0] : Fin 2 → Nat) a + S4000x64.size a ≤ S4000x64.size a
  h_S4000x64 : 0 < S4000x64.numel
  inb_S64x128_S64x128_0_0 : ∀ a, (![0, 0] : Fin 2 → Nat) a + S64x128.size a ≤ S64x128.size a
  h_S64x128 : 0 < S64x128.numel
  bcast_S_S20000x128 : S_.BroadcastsInDim S20000x128 (![] : Fin 0 → Fin S20000x128.rank)
  bcast_S_S100000x128 : S_.BroadcastsInDim S100000x128 (![] : Fin 0 → Fin S100000x128.rank)
  shapeCasts_S20000_S20000x1 : S20000.ShapeCasts S20000x1
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  reduces_S4000x128_S4000 : S4000x128.Reduces [1] S4000
  shapeCasts_S4000_S4000x1 : S4000.ShapeCasts S4000x1
  shapeCasts_S100000_S100000x1 : S100000.ShapeCasts S100000x1
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  scatter_S20000_S2000000x1_S2000000_n_0_0_1_wf : ScatterDims.WF S20000 S2000000x1 S2000000 [] [0] [0] 1
  scatter_S100000_S2000000x1_S2000000_n_0_0_1_wf : ScatterDims.WF S100000 S2000000x1 S2000000 [] [0] [0] 1
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  gather_S100000x128_S500000x1_S500000x128_1_0_n_n_0_1_1128_wf : GatherDims.WF S100000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S20000x64.size a
  hwx1_0 : ∀ i : grid1.Coords, EltTy.bits .f32 = 32 ∨ (Rect.block (s := S20000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S20000x128.size a
  hwx1_3 : ∀ i : grid1.Coords, EltTy.bits .bf16 = 32 ∨ (Rect.block (s := S20000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S20000x1.size a
  hwx2_1 : ∀ i : grid2.Coords, EltTy.bits .f32 = 32 ∨ (Rect.block (s := S20000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S20000x128.size a
  hwx2_2 : ∀ i : grid2.Coords, EltTy.bits .bf16 = 32 ∨ (Rect.block (s := S20000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S20000x128.size a
  hwx2_6 : ∀ i : grid2.Coords, EltTy.bits .bf16 = 32 ∨ (Rect.block (s := S20000x128) S4000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .bf16 = 32 ∨ (Rect.block (s := S100000x128) S4000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .bf16 = 32 ∨ (Rect.block (s := S100000x128) S4000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S20000x1.size a
  hwx4_1 : ∀ i : grid4.Coords, EltTy.bits .f32 = 32 ∨ (Rect.block (s := S20000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S20000x128.size a
  hwx4_2 : ∀ i : grid4.Coords, EltTy.bits .bf16 = 32 ∨ (Rect.block (s := S20000x128) S4000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S20000x128.size a
  hwx4_6 : ∀ i : grid4.Coords, EltTy.bits .bf16 = 32 ∨ (Rect.block (s := S20000x128) S4000x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .bf16 = 32 ∨ (Rect.block (s := S100000x128) S4000x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .bf16 = 32 ∨ (Rect.block (s := S100000x128) S4000x128.size (cc5_transform_6 i) (hinb5_6 i)).WholeWords (EltTy.packing .bf16)

variable [Facts₀]

def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v40) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v57) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v68) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg21) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v73) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v74) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S20000x64 : Shape := ⟨2, ![20000, 64]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S64x128 : Shape := ⟨2, ![64, 128]⟩
abbrev S_ : Shape := ⟨0, ![]⟩
abbrev S20000 : Shape := ⟨1, ![20000]⟩
abbrev S2000000x1 : Shape := ⟨2, ![2000000, 1]⟩
abbrev S100000 : Shape := ⟨1, ![100000]⟩
abbrev S1x128 : Shape := ⟨2, ![1, 128]⟩
abbrev S20000x128 : Shape := ⟨2, ![20000, 128]⟩
abbrev S2000000x128 : Shape := ⟨2, ![2000000, 128]⟩
abbrev S20000x1 : Shape := ⟨2, ![20000, 1]⟩
abbrev S100000x1 : Shape := ⟨2, ![100000, 1]⟩
abbrev S500000x1 : Shape := ⟨2, ![500000, 1]⟩
abbrev S500000x128 : Shape := ⟨2, ![500000, 128]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S20000x64, .f32⟩
  | 2 => ⟨S2000000, .i32⟩
  | 3 => ⟨S2000000, .i32⟩
  | 4 => ⟨S500000, .i32⟩
  | 5 => ⟨S500000, .i32⟩
  | 6 => ⟨S128x128, .f32⟩
  | 7 => ⟨S128, .f32⟩
  | 8 => ⟨S64x128, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x128, .f32⟩
  | 22 => ⟨S_, .f32⟩
  | 23 => ⟨S2000000, .f32⟩
  | 24 => ⟨S_, .f32⟩
  | 25 => ⟨S20000, .f32⟩
  | 26 => ⟨S2000000x1, .i32⟩
  | 27 => ⟨S20000, .f32⟩
  | 28 => ⟨S_, .f32⟩
  | 29 => ⟨S20000, .f32⟩
  | 30 => ⟨S20000, .f32⟩
  | 31 => ⟨S_, .f32⟩
  | 32 => ⟨S20000, .f32⟩
  | 33 => ⟨S20000, .f32⟩
  | 34 => ⟨S_, .f32⟩
  | 35 => ⟨S100000, .f32⟩
  | 36 => ⟨S2000000x1, .i32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S100000x128, .f32⟩
  | 45 => ⟨S1x128, .f32⟩
  | 46 => ⟨S100000x128, .f32⟩
  | 47 => ⟨S100000x128, .f32⟩
  | 48 => ⟨S20000x128, .f32⟩
  | 49 => ⟨S1x128, .f32⟩
  | 50 => ⟨S20000x128, .f32⟩
  | 51 => ⟨S20000x128, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x128, .f32⟩
  | 61 => ⟨S_, .f32⟩
  | 62 => ⟨S20000x128, .f32⟩
  | 63 => ⟨S2000000x1, .i32⟩
  | 64 => ⟨S20000x128, .f32⟩
  | 65 => ⟨S20000x1, .f32⟩
  | 66 => ⟨S20000x128, .f32⟩
  | 67 => ⟨S20000x128, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x128, .f32⟩
  | 77 => ⟨S_, .f32⟩
  | 78 => ⟨S100000x128, .f32⟩
  | 79 => ⟨S2000000x1, .i32⟩
  | 80 => ⟨S100000x128, .f32⟩
  | 81 => ⟨S100000x1, .f32⟩
  | 82 => ⟨S100000x128, .f32⟩
  | 83 => ⟨S100000x128, .f32⟩
  | 84 => ⟨S20000x128, .f32⟩
  | 85 => ⟨S1x128, .f32⟩
  | 86 => ⟨S20000x128, .f32⟩
  | 87 => ⟨S20000x128, .f32⟩
  | 88 => ⟨S20000x128, .f32⟩
  | 89 => ⟨S20000x128, .f32⟩
  | 90 => ⟨S20000x128, .f32⟩
  | 91 => ⟨S_, .f32⟩
  | 92 => ⟨S20000, .f32⟩
  | 93 => ⟨S20000x1, .f32⟩
  | 94 => ⟨S20000x1, .f32⟩
  | 95 => ⟨S_, .f32⟩
  | 96 => ⟨S20000x1, .f32⟩
  | 97 => ⟨S20000x1, .f32⟩
  | 98 => ⟨S20000x128, .f32⟩
  | 99 => ⟨S20000x128, .f32⟩
  | 100 => ⟨S_, .f32⟩
  | 101 => ⟨S20000x128, .f32⟩
  | 102 => ⟨S20000x128, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S_, .f32⟩
  | 111 => ⟨S100000, .f32⟩
  | 112 => ⟨S100000x1, .f32⟩
  | 113 => ⟨S100000x1, .f32⟩
  | 114 => ⟨S_, .f32⟩
  | 115 => ⟨S100000x1, .f32⟩
  | 116 => ⟨S100000x1, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S100000x128, .f32⟩

abbrev hbmTy0_1 (i : Nat) : BufTy := match i % 128 with
  | 0 => ⟨S2000000, .i32⟩
  | 1 => ⟨S2000000x1, .i32⟩
  | 2 => ⟨S2000000x128, .f32⟩
  | 3 => ⟨S_, .f32⟩
  | 4 => ⟨S20000x128, .f32⟩
  | 5 => ⟨S2000000x1, .i32⟩
  | 6 => ⟨S20000x128, .f32⟩
  | 7 => ⟨S20000x1, .f32⟩
  | 8 => ⟨S20000x128, .f32⟩
  | 9 => ⟨S20000x128, .f32⟩
  | 10 => ⟨S_, .i32⟩
  | 11 => ⟨S2000000, .i32⟩
  | 12 => ⟨S2000000, .i1⟩
  | 13 => ⟨S_, .i32⟩
  | 14 => ⟨S2000000, .i32⟩
  | 15 => ⟨S2000000, .i32⟩
  | 16 => ⟨S2000000, .i32⟩
  | 17 => ⟨S2000000x1, .i32⟩
  | 18 => ⟨S2000000x128, .f32⟩
  | 19 => ⟨S_, .f32⟩
  | 20 => ⟨S100000x128, .f32⟩
  | 21 => ⟨S2000000x1, .i32⟩
  | 22 => ⟨S100000x128, .f32⟩
  | 23 => ⟨S100000x1, .f32⟩
  | 24 => ⟨S100000x128, .f32⟩
  | 25 => ⟨S100000x128, .f32⟩
  | 26 => ⟨S20000x128, .f32⟩
  | 27 => ⟨S1x128, .f32⟩
  | 28 => ⟨S20000x128, .f32⟩
  | 29 => ⟨S20000x128, .f32⟩
  | 30 => ⟨S20000x128, .f32⟩
  | 31 => ⟨S20000x128, .f32⟩
  | 32 => ⟨S20000x128, .f32⟩
  | 33 => ⟨S_, .f32⟩
  | 34 => ⟨S20000, .f32⟩
  | 35 => ⟨S20000x1, .f32⟩
  | 36 => ⟨S20000x1, .f32⟩
  | 37 => ⟨S_, .f32⟩
  | 38 => ⟨S20000x1, .f32⟩
  | 39 => ⟨S20000x1, .f32⟩
  | 40 => ⟨S20000x128, .f32⟩
  | 41 => ⟨S20000x128, .f32⟩
  | 42 => ⟨S100000x128, .f32⟩
  | 43 => ⟨S1x128, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S100000x128, .f32⟩
  | 57 => ⟨S100000x128, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x128, .f32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x128, .f32⟩
  | 76 => ⟨S500000x128, .f32⟩
  | 77 => ⟨S_, .f32⟩
  | 78 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_cst_2 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_4 : Ref sig .tc := ⟨.hbm, 38, rfl⟩
abbrev main_v11 : Ref sig .tc := ⟨.hbm, 39, rfl⟩
abbrev main_v12 : Ref sig .tc := ⟨.hbm, 40, rfl⟩
abbrev main_cst_5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_10 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call0_cst : Ref sig .tc := ⟨.hbm, 100, rfl⟩
abbrev main_call0_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_call1_cst : Ref sig .tc := ⟨.hbm, 119, rfl⟩
abbrev main_call1_v0 : Ref sig .tc := ⟨.hbm, 120, rfl⟩
abbrev main_v78 : Ref sig .tc := ⟨.hbm, 121, rfl⟩
abbrev main_c_15 : Ref sig .tc := ⟨.hbm, 122, rfl⟩
abbrev main_v79 : Ref sig .tc := ⟨.hbm, 123, rfl⟩
abbrev main_v80 : Ref sig .tc := ⟨.hbm, 124, rfl⟩
abbrev main_c_16 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_17 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_18 : Ref sig .tc := ⟨.hbm, 138, rfl⟩
abbrev main_v92 : Ref sig .tc := ⟨.hbm, 139, rfl⟩
abbrev main_v93 : Ref sig .tc := ⟨.hbm, 140, rfl⟩
abbrev main_c_19 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_20 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_21 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_22 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_23 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_24 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_c_25 : Ref sig .tc := ⟨.hbm, 186, rfl⟩
abbrev main_v133 : Ref sig .tc := ⟨.hbm, 187, rfl⟩
abbrev main_v134 : Ref sig .tc := ⟨.hbm, 188, rfl⟩
abbrev main_c_26 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_c_27 : Ref sig .tc := ⟨.hbm, 195, rfl⟩
abbrev main_v140 : Ref sig .tc := ⟨.hbm, 196, rfl⟩
abbrev main_v141 : Ref sig .tc := ⟨.hbm, 197, rfl⟩
abbrev main_c_28 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_29 : Ref sig .tc := ⟨.hbm, 205, rfl⟩
abbrev main_v148 : Ref sig .tc := ⟨.hbm, 206, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S20000 : S_.BroadcastsInDim S20000 (![] : Fin 0 → Fin S20000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S20000x128_S20000_d1 : S20000x128.ReducesTo [1] S20000
  h_S_ : 0 < S_.numel
  bcast_S_S20000x1 : S_.BroadcastsInDim S20000x1 (![] : Fin 0 → Fin S20000x1.rank)
  reducesTo_S100000x128_S100000_d1 : S100000x128.ReducesTo [1] S100000
  bcast_S_S100000x1 : S_.BroadcastsInDim S100000x1 (![] : Fin 0 → Fin S100000x1.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  scatter_S20000_S2000000x1_S2000000_n_0_0_1_wf : ScatterDims.WF S20000 S2000000x1 S2000000 [] [0] [0] 1
  scatter_S100000_S2000000x1_S2000000_n_0_0_1_wf : ScatterDims.WF S100000 S2000000x1 S2000000 [] [0] [0] 1
  dot_S100000x128_S128x128_S100000x128_1_0_0_1_n_n_wf : DotDims.WF S100000x128 S128x128 S100000x128 [1] [0] [0] [1] [] []
  dot_S20000x64_S64x128_S20000x128_1_0_0_1_n_n_wf : DotDims.WF S20000x64 S64x128 S20000x128 [1] [0] [0] [1] [] []
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  dot_S20000x128_S128x128_S20000x128_1_0_0_1_n_n_wf : DotDims.WF S20000x128 S128x128 S20000x128 [1] [0] [0] [1] [] []
  gather_S100000x128_S500000x1_S500000x128_1_0_n_n_0_1_1128_wf : GatherDims.WF S100000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]

variable [Facts₀]

def scatter_S20000_S2000000x1_S2000000_n_0_0_1 : ScatterDims S20000 S2000000x1 S2000000 where
  updateWindowDims := []
  insertedWindowDims := [0]
  scatterDimsToOperandDims := [0]
  indexVectorDim := 1
  wf := scatter_S20000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf

class Facts : Prop extends Facts₀ where

variable [Facts]
-- ==== Proof.KernelRun.lean ====
/-
  The idealized kernel program's run with its result named.

  The program is thirteen segments: seven stretches of host operations around six launch regions. The generated
  frame module folds the TensorCore's buffer contents through the segments — `W0` at launch, `W13` at the return —
  and proves that every weakly fair execution terminates with every unscoped buffer at its `W13` contents; it
  then keeps only the argument arrays. Here the same run is stated with the RESULT buffer kept as well: it ends
  at `W13 m ρ c main_v92`. What that array IS, as a function of the arguments, is the business of the modules
  that read the fold boundary by boundary.
-/
import proofs.«118754_j70248485094040_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting; the result buffer ends at the last
    fold boundary's contents and every argument array as launched. -/
theorem run : θ_run defs (onTc (τ := τ) (main (F := F))) ⟨m, fun _ => 0, ρ⟩ (fun r => ∀ c : Dev nD,
      r.2.mem ((c.tc : Thread nD τ).loc main_v92) = W13 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v92 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c)⟩)

end Cert.KernelIdeal.ValueRun

end
-- ==== Proof.KernelCarry.lean ====
/-
  Which buffers each segment of the idealized kernel program leaves alone.

  The generated frame module folds the TensorCore's buffer contents through the thirteen segments: `W0` at launch,
  `W(2k+1)` after host stretch `k` (region `k`'s entry), `W(2k+2)` after region `k`. Every buffer is written by
  exactly one operation or is exactly one region's output, so a buffer's contents at a boundary are its contents
  at the boundary right after its writer. This module states the two facts that make that walk mechanical:

  * a host stretch changes only the buffers its operations write (`written k`, read off the stretch);
  * a region changes only its output array: every other array of the region is an input window's, which the
    pipeline leaves as entered, and a buffer that is no array of the region is untouched.
-/
import proofs.«118754_j70248485094040_2_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## Host stretches -/

/-- The buffers host stretch 0's operations write. -/
abbrev written0 : List (Ref sig .tc) := [main_cst, main_v0, main_cst_0, main_v1, main_v2, main_v3, main_cst_1, main_v4, main_v5, main_cst_2, main_v6, main_v7, main_cst_3, main_v8, main_v9, main_v10, main_cst_4, main_v11, main_v12, main_cst_5, main_v13, main_v14, main_v15]
theorem hostOps0_writes : (hostOps0 : List (HloOp τ sig (Elt F))).Forall fun op => op.writes ⊆ ((written0).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Host stretch 0 leaves every other buffer as it found it. -/
theorem keepH0 (c : Dev nD) (b : Ref sig .tc) (hb : b ∉ written0) :
    W1 m ρ c (Proc.devRef .tc b) = W0 m ρ c (Proc.devRef .tc b) :=
  StableHlo.after_of_writes_sub hostOps0 _ (hostOps0_writes (F := F)) hb

/-- The buffers host stretch 1's operations write. -/
abbrev written1 : List (Ref sig .tc) := [main_v17]
theorem hostOps1_writes : (hostOps1 : List (HloOp τ sig (Elt F))).Forall fun op => op.writes ⊆ ((written1).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- Host stretch 1 leaves every other buffer as it found it. -/
theorem keepH1 (c : Dev nD) (b : Ref sig .tc) (hb : b ∉ written1) :
    W3 m ρ c (Proc.devRef .tc b) = W2 m ρ c (Proc.devRef .tc b) :=
  StableHlo.after_of_writes_sub hostOps1 _ (hostOps1_writes (F := F)) hb

/-- The buffers host stretch 2's operations write. -/
abbrev written2 : List (Ref sig .tc) := [main_c, main_v19, main_v20, main_c_6, main_v21, main_v22, main_v23, main_v24, main_v25, main_v26, main_cst_7, main_v27, main_v28, main_v29, main_c_8, main_v30, main_v31, main_c_9, main_v32, main_v33, main_v34, main_v35, main_v36, main_v37, main_cst_10, main_v38, main_v39, main_v40, main_v41, main_v42]
theorem hostOps2_writes : (hostOps2 : List (HloOp τ sig (Elt F))).Forall fun op => op.writes ⊆ ((written2).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Host stretch 2 leaves every other buffer as it found it. -/
theorem keepH2 (c : Dev nD) (b : Ref sig .tc) (hb : b ∉ written2) :
    W5 m ρ c (Proc.devRef .tc b) = W4 m ρ c (Proc.devRef .tc b) :=
  StableHlo.after_of_writes_sub hostOps2 _ (hostOps2_writes (F := F)) hb

/-- The buffers host stretch 3's operations write. -/
abbrev written3 : List (Ref sig .tc) := [main_v44, main_v45]
theorem hostOps3_writes : (hostOps3 : List (HloOp τ sig (Elt F))).Forall fun op => op.writes ⊆ ((written3).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Host stretch 3 leaves every other buffer as it found it. -/
theorem keepH3 (c : Dev nD) (b : Ref sig .tc) (hb : b ∉ written3) :
    W7 m ρ c (Proc.devRef .tc b) = W6 m ρ c (Proc.devRef .tc b) :=
  StableHlo.after_of_writes_sub hostOps3 _ (hostOps3_writes (F := F)) hb

/-- The buffers host stretch 4's operations write. -/
abbrev written4 : List (Ref sig .tc) := [main_c_11, main_v47, main_v48, main_c_12, main_v49, main_v50, main_v51, main_v52, main_v53, main_v54, main_cst_13, main_v55, main_v56, main_v57, main_c_14, main_v58, main_v59, main_c_15, main_v60, main_v61, main_v62, main_v63, main_v64, main_v65, main_cst_16, main_v66, main_v67, main_v68, main_v69, main_v70]
theorem hostOps4_writes : (hostOps4 : List (HloOp τ sig (Elt F))).Forall fun op => op.writes ⊆ ((written4).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Host stretch 4 leaves every other buffer as it found it. -/
theorem keepH4 (c : Dev nD) (b : Ref sig .tc) (hb : b ∉ written4) :
    W9 m ρ c (Proc.devRef .tc b) = W8 m ρ c (Proc.devRef .tc b) :=
  StableHlo.after_of_writes_sub hostOps4 _ (hostOps4_writes (F := F)) hb

/-- The buffers host stretch 5's operations write. -/
abbrev written5 : List (Ref sig .tc) := [main_v72, main_v73]
theorem hostOps5_writes : (hostOps5 : List (HloOp τ sig (Elt F))).Forall fun op => op.writes ⊆ ((written5).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Host stretch 5 leaves every other buffer as it found it. -/
theorem keepH5 (c : Dev nD) (b : Ref sig .tc) (hb : b ∉ written5) :
    W11 m ρ c (Proc.devRef .tc b) = W10 m ρ c (Proc.devRef .tc b) :=
  StableHlo.after_of_writes_sub hostOps5 _ (hostOps5_writes (F := F)) hb

/-- The buffers host stretch 6's operations write. -/
abbrev written6 : List (Ref sig .tc) := [main_c_17, main_v75, main_v76, main_c_18, main_v77, main_v78, main_v79, main_v80, main_v81, main_v82, main_c_19, main_v83, main_v84, main_c_20, main_v85, main_v86, main_v87, main_v88, main_v89, main_v90, main_v91, main_cst_21, main_v92]
theorem hostOps6_writes : (hostOps6 : List (HloOp τ sig (Elt F))).Forall fun op => op.writes ⊆ ((written6).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- Host stretch 6 leaves every other buffer as it found it. -/
theorem keepH6 (c : Dev nD) (b : Ref sig .tc) (hb : b ∉ written6) :
    W13 m ρ c (Proc.devRef .tc b) = W12 m ρ c (Proc.devRef .tc b) :=
  StableHlo.after_of_writes_sub hostOps6 _ (hostOps6_writes (F := F)) hb

/-! ## Regions -/

/-- Region 0 changes only its output array `main_v16`. -/
theorem keepR0 (c : Dev nD) (b : Ref sig .tc) (hb : b ≠ main_v16) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      fin_cases w <;> first | rfl | exact absurd rfl hb
    exact (W2_arr m ρ c w).trans (((dat0 (V1 m ρ) c).arrAt_in w hin _).trans (A_eq0 (V1 m ρ) c w))
  · exact W2_of_ne m ρ c b fun w e => h ⟨w, e⟩
/-- Region 0's output array at its exit is what the pipeline's write-backs leave. -/
theorem outR0 (c : Dev nD) :
    W2 m ρ c (Proc.devRef .tc main_v16) = (dat0 (V1 m ρ) c).arrAt 3 cfg0.N :=
  W2_arr m ρ c 3

/-- Region 1 changes only its output array `main_v18`. -/
theorem keepR1 (c : Dev nD) (b : Ref sig .tc) (hb : b ≠ main_v18) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      fin_cases w <;> first | rfl | exact absurd rfl hb
    exact (W4_arr m ρ c w).trans (((dat1 (V3 m ρ) c).arrAt_in w hin _).trans (A_eq1 (V3 m ρ) c w))
  · exact W4_of_ne m ρ c b fun w e => h ⟨w, e⟩
/-- Region 1's output array at its exit is what the pipeline's write-backs leave. -/
theorem outR1 (c : Dev nD) :
    W4 m ρ c (Proc.devRef .tc main_v18) = (dat1 (V3 m ρ) c).arrAt 3 cfg1.N :=
  W4_arr m ρ c 3

/-- Region 2 changes only its output array `main_v43`. -/
theorem keepR2 (c : Dev nD) (b : Ref sig .tc) (hb : b ≠ main_v43) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      fin_cases w <;> first | rfl | exact absurd rfl hb
    exact (W6_arr m ρ c w).trans (((dat2 (V5 m ρ) c).arrAt_in w hin _).trans (A_eq2 (V5 m ρ) c w))
  · exact W6_of_ne m ρ c b fun w e => h ⟨w, e⟩
/-- Region 2's output array at its exit is what the pipeline's write-backs leave. -/
theorem outR2 (c : Dev nD) :
    W6 m ρ c (Proc.devRef .tc main_v43) = (dat2 (V5 m ρ) c).arrAt 6 cfg2.N :=
  W6_arr m ρ c 6

/-- Region 3 changes only its output array `main_v46`. -/
theorem keepR3 (c : Dev nD) (b : Ref sig .tc) (hb : b ≠ main_v46) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      fin_cases w <;> first | rfl | exact absurd rfl hb
    exact (W8_arr m ρ c w).trans (((dat3 (V7 m ρ) c).arrAt_in w hin _).trans (A_eq3 (V7 m ρ) c w))
  · exact W8_of_ne m ρ c b fun w e => h ⟨w, e⟩
/-- Region 3's output array at its exit is what the pipeline's write-backs leave. -/
theorem outR3 (c : Dev nD) :
    W8 m ρ c (Proc.devRef .tc main_v46) = (dat3 (V7 m ρ) c).arrAt 6 cfg3.N :=
  W8_arr m ρ c 6

/-- Region 4 changes only its output array `main_v71`. -/
theorem keepR4 (c : Dev nD) (b : Ref sig .tc) (hb : b ≠ main_v71) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      fin_cases w <;> first | rfl | exact absurd rfl hb
    exact (W10_arr m ρ c w).trans (((dat4 (V9 m ρ) c).arrAt_in w hin _).trans (A_eq4 (V9 m ρ) c w))
  · exact W10_of_ne m ρ c b fun w e => h ⟨w, e⟩
/-- Region 4's output array at its exit is what the pipeline's write-backs leave. -/
theorem outR4 (c : Dev nD) :
    W10 m ρ c (Proc.devRef .tc main_v71) = (dat4 (V9 m ρ) c).arrAt 6 cfg4.N :=
  W10_arr m ρ c 6

/-- Region 5 changes only its output array `main_v74`. -/
theorem keepR5 (c : Dev nD) (b : Ref sig .tc) (hb : b ≠ main_v74) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      fin_cases w <;> first | rfl | exact absurd rfl hb
    exact (W12_arr m ρ c w).trans (((dat5 (V11 m ρ) c).arrAt_in w hin _).trans (A_eq5 (V11 m ρ) c w))
  · exact W12_of_ne m ρ c b fun w e => h ⟨w, e⟩
/-- Region 5's output array at its exit is what the pipeline's write-backs leave. -/
theorem outR5 (c : Dev nD) :
    W12 m ρ c (Proc.devRef .tc main_v74) = (dat5 (V11 m ρ) c).arrAt 6 cfg5.N :=
  W12_arr m ρ c 6

end Cert.KernelIdeal.Carry

end
-- ==== Proof.LibColumnCast.lean ====
/-
  A vector and a one-column matrix hold the same entries: the shape casts between [a] and [a, 1], read at an index.
  (The casts a row sum kept as a column meets: the sum is taken as a vector, stored as a column, and read back as a vector.)
-/
import Idealize.ShloMosaic.Lib.ValueLayout
import Idealize.ShloMosaic.Lib.Pipeline.Value

namespace Cert.LibColumnCast

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.KernelHost.lean ====
/-
  What the host stretches of the idealized kernel program compute, read against the plain formulation's own terms.

  Between its six launch regions the program runs the same host operations as the plain formulation: the
  neighbour counts and their clamped reciprocals, the gather of the source rows along the edges and their
  scatter-add into the destination rows, reshapes of a bias to one row and of a reciprocal count to one column,
  and at the end the gather of the labelled pairs' rows, their product and its row sum. Each lemma here reads
  one buffer at one fold boundary as the corresponding term of the plain formulation applied to the launch
  arguments, GIVEN that the dense stage feeding it already agrees (the hypotheses named `h16`, `h18`, …: the
  projection and combine outputs). A change of float format on the way (the rows are stored narrow and widened
  after the gather) is the identity on extended reals, so the two sides' terms are the same term.
-/
import proofs.«118754_j70248485094040_2_alg».proof.Proof.KernelCarry
import proofs.«118754_j70248485094040_2_alg».proof.Proof.Gen.ReferenceIdeal.Read
import proofs.«118754_j70248485094040_2_alg».proof.Proof.LibColumnCast
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.ValueIdx Idealize.ShloMosaic.StableHlo

open Cert.ReferenceIdeal.Read (val_main_v7 val_main_v14 val_main_v18 val_main_v22 val_main_v32 val_main_v45 val_main_v63 val_main_v78 val_main_v88 val_main_v101 val_main_v118 val_main_v132 val_main_v148)

variable (m : (ℓ : Loc nD τ sig) → Buf (Elt Ideal) ℓ) (ρ : Dev nD → PrngReg) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)
abbrev a18 := m ((c : Thread nD τ).loc main_arg18)
abbrev a19 := m ((c : Thread nD τ).loc main_arg19)
abbrev a20 := m ((c : Thread nD τ).loc main_arg20)
abbrev a21 := m ((c : Thread nD τ).loc main_arg21)

/-! ## Boundary 1: the reciprocal counts, and region 0's operands -/

/-- The clamped reciprocal of the number of edges into each of the 20000 nodes. -/
theorem inv_p : W1 m ρ c (Proc.devRef .tc main_v7) = val_main_v7 (F := Ideal) (a3 m c) := by
  show StableHlo.after hostOps0 (W0 m ρ c) (Proc.devRef .tc main_v7) = _
  after_results_simp
  rfl
/-- The clamped reciprocal of the number of edges out of each of the 100000 nodes. -/
theorem inv_t : W1 m ρ c (Proc.devRef .tc main_v14) = val_main_v14 (F := Ideal) (a2 m c) := by
  show StableHlo.after hostOps0 (W0 m ρ c) (Proc.devRef .tc main_v14) = _
  after_results_simp
  rfl
/-- The bias of the stage entered at boundary 1, reshaped to one row, read at a column. -/
theorem bias_r0 (j : Fin 128) : V1 m ρ c main_v15 (ix2 (0 : Fin 1) j) = a7 m c (ix1 j) := by
  show StableHlo.after hostOps0 (W0 m ρ c) (Proc.devRef .tc main_v15) (ix2 (0 : Fin 1) j) = _
  after_results_simp
  rw [show W0 m ρ c (Proc.devRef .tc main_arg7) = a7 m c from rfl]
  exact shapeCast_a_1a_apply _ _ 0 j
theorem arg0_at1 : V1 m ρ c main_arg0 = a0 m c := (Carry.keepH0 m ρ c main_arg0 (by decide))
theorem arg6_at1 : V1 m ρ c main_arg6 = a6 m c := (Carry.keepH0 m ρ c main_arg6 (by decide))

/-! ## Boundary 3: region 1's operands -/

/-- The bias of the stage entered at boundary 3, reshaped to one row, read at a column. -/
theorem bias_r1 (j : Fin 128) : V3 m ρ c main_v17 (ix2 (0 : Fin 1) j) = a9 m c (ix1 j) := by
  show StableHlo.after hostOps1 (W2 m ρ c) (Proc.devRef .tc main_v17) (ix2 (0 : Fin 1) j) = _
  after_results_simp
  rw [show W2 m ρ c (Proc.devRef .tc main_arg9) = a9 m c from ((Carry.keepR0 m ρ c main_arg9 (by decide)).trans (Carry.keepH0 m ρ c main_arg9 (by decide)))]
  exact shapeCast_a_1a_apply _ _ 0 j
theorem arg1_at3 : V3 m ρ c main_arg1 = a1 m c := ((Carry.keepH1 m ρ c main_arg1 (by decide)).trans ((Carry.keepR0 m ρ c main_arg1 (by decide)).trans (Carry.keepH0 m ρ c main_arg1 (by decide))))
theorem arg8_at3 : V3 m ρ c main_arg8 = a8 m c := ((Carry.keepH1 m ρ c main_arg8 (by decide)).trans ((Carry.keepR0 m ρ c main_arg8 (by decide)).trans (Carry.keepH0 m ρ c main_arg8 (by decide))))

/-! ## Boundary 5: the first layer's neighbour sums, and region 2's operands -/

/-- The first layer's unscaled neighbour sum into the 20000 nodes: rows of the 100000-node projection gathered along the edges and scatter-added. -/
theorem agg_p1 (h16 : W2 m ρ c (Proc.devRef .tc main_v16) = val_main_v18 (F := Ideal) (a0 m c) (a6 m c) (a7 m c)) :
    V5 m ρ c main_v29 = val_main_v32 (F := Ideal) (a0 m c) (a2 m c) (a3 m c) (a6 m c) (a7 m c) := by
  show StableHlo.after hostOps2 (W4 m ρ c) (Proc.devRef .tc main_v29) = _
  after_results_simp
  rw [show W4 m ρ c (Proc.devRef .tc main_arg3) = a3 m c from ((Carry.keepR1 m ρ c main_arg3 (by decide)).trans ((Carry.keepH1 m ρ c main_arg3 (by decide)).trans ((Carry.keepR0 m ρ c main_arg3 (by decide)).trans (Carry.keepH0 m ρ c main_arg3 (by decide))))),
      show W4 m ρ c (Proc.devRef .tc main_arg2) = a2 m c from ((Carry.keepR1 m ρ c main_arg2 (by decide)).trans ((Carry.keepH1 m ρ c main_arg2 (by decide)).trans ((Carry.keepR0 m ρ c main_arg2 (by decide)).trans (Carry.keepH0 m ρ c main_arg2 (by decide))))),
      show W4 m ρ c (Proc.devRef .tc main_v16) = _ from (((Carry.keepR1 m ρ c main_v16 (by decide)).trans (Carry.keepH1 m ρ c main_v16 (by decide)))).trans h16]
  rfl
/-- The first layer's unscaled neighbour sum into the 100000 nodes, along the reversed edges. -/
theorem agg_t1 (h18 : W4 m ρ c (Proc.devRef .tc main_v18) = val_main_v22 (F := Ideal) (a1 m c) (a8 m c) (a9 m c)) :
    V5 m ρ c main_v40 = val_main_v45 (F := Ideal) (a1 m c) (a2 m c) (a3 m c) (a8 m c) (a9 m c) := by
  show StableHlo.after hostOps2 (W4 m ρ c) (Proc.devRef .tc main_v40) = _
  after_results_simp
  rw [show W4 m ρ c (Proc.devRef .tc main_arg3) = a3 m c from ((Carry.keepR1 m ρ c main_arg3 (by decide)).trans ((Carry.keepH1 m ρ c main_arg3 (by decide)).trans ((Carry.keepR0 m ρ c main_arg3 (by decide)).trans (Carry.keepH0 m ρ c main_arg3 (by decide))))),
      show W4 m ρ c (Proc.devRef .tc main_arg2) = a2 m c from ((Carry.keepR1 m ρ c main_arg2 (by decide)).trans ((Carry.keepH1 m ρ c main_arg2 (by decide)).trans ((Carry.keepR0 m ρ c main_arg2 (by decide)).trans (Carry.keepH0 m ρ c main_arg2 (by decide))))),
      show W4 m ρ c (Proc.devRef .tc main_v18) = _ from (rfl).trans h18]
  rfl
/-- The reciprocal neighbour count of the stage entered at boundary 5, reshaped to one column, read at a row. -/
theorem inv_r2 (i : Fin 20000) : V5 m ρ c main_v41 (ix2 i (0 : Fin 1)) = val_main_v7 (F := Ideal) (a3 m c) (ix1 i) := by
  show StableHlo.after hostOps2 (W4 m ρ c) (Proc.devRef .tc main_v41) (ix2 i (0 : Fin 1)) = _
  after_results_simp
  rw [show W4 m ρ c (Proc.devRef .tc main_v7) = val_main_v7 (F := Ideal) (a3 m c) from (((Carry.keepR1 m ρ c main_v7 (by decide)).trans ((Carry.keepH1 m ρ c main_v7 (by decide)).trans (Carry.keepR0 m ρ c main_v7 (by decide))))).trans (inv_p m ρ c)]
  exact Cert.LibColumnCast.shapeCast_a_a1_apply _ _ i 0
/-- The bias of the stage entered at boundary 5, reshaped to one row, read at a column. -/
theorem bias_r2 (j : Fin 128) : V5 m ρ c main_v42 (ix2 (0 : Fin 1) j) = a11 m c (ix1 j) := by
  show StableHlo.after hostOps2 (W4 m ρ c) (Proc.devRef .tc main_v42) (ix2 (0 : Fin 1) j) = _
  after_results_simp
  rw [show W4 m ρ c (Proc.devRef .tc main_arg11) = a11 m c from ((Carry.keepR1 m ρ c main_arg11 (by decide)).trans ((Carry.keepH1 m ρ c main_arg11 (by decide)).trans ((Carry.keepR0 m ρ c main_arg11 (by decide)).trans (Carry.keepH0 m ρ c main_arg11 (by decide)))))]
  exact shapeCast_a_1a_apply _ _ 0 j
/-- Region 2's own rows are the 20000-node projection. -/
theorem own_r2 (h18 : W4 m ρ c (Proc.devRef .tc main_v18) = val_main_v22 (F := Ideal) (a1 m c) (a8 m c) (a9 m c)) : V5 m ρ c main_v18 = val_main_v22 (F := Ideal) (a1 m c) (a8 m c) (a9 m c) :=
  ((Carry.keepH2 m ρ c main_v18 (by decide))).trans h18
theorem arg10_at5 : V5 m ρ c main_arg10 = a10 m c := ((Carry.keepH2 m ρ c main_arg10 (by decide)).trans ((Carry.keepR1 m ρ c main_arg10 (by decide)).trans ((Carry.keepH1 m ρ c main_arg10 (by decide)).trans ((Carry.keepR0 m ρ c main_arg10 (by decide)).trans (Carry.keepH0 m ρ c main_arg10 (by decide))))))
theorem arg12_at5 : V5 m ρ c main_arg12 = a12 m c := ((Carry.keepH2 m ρ c main_arg12 (by decide)).trans ((Carry.keepR1 m ρ c main_arg12 (by decide)).trans ((Carry.keepH1 m ρ c main_arg12 (by decide)).trans ((Carry.keepR0 m ρ c main_arg12 (by decide)).trans (Carry.keepH0 m ρ c main_arg12 (by decide))))))

/-! ## Boundary 7: region 3's operands -/

/-- The reciprocal neighbour count of the stage entered at boundary 7, reshaped to one column, read at a row. -/
theorem inv_r3 (i : Fin 100000) : V7 m ρ c main_v44 (ix2 i (0 : Fin 1)) = val_main_v14 (F := Ideal) (a2 m c) (ix1 i) := by
  show StableHlo.after hostOps3 (W6 m ρ c) (Proc.devRef .tc main_v44) (ix2 i (0 : Fin 1)) = _
  after_results_simp
  rw [show W6 m ρ c (Proc.devRef .tc main_v14) = val_main_v14 (F := Ideal) (a2 m c) from (((Carry.keepR2 m ρ c main_v14 (by decide)).trans ((Carry.keepH2 m ρ c main_v14 (by decide)).trans ((Carry.keepR1 m ρ c main_v14 (by decide)).trans ((Carry.keepH1 m ρ c main_v14 (by decide)).trans (Carry.keepR0 m ρ c main_v14 (by decide))))))).trans (inv_t m ρ c)]
  exact Cert.LibColumnCast.shapeCast_a_a1_apply _ _ i 0
/-- The bias of the stage entered at boundary 7, reshaped to one row, read at a column. -/
theorem bias_r3 (j : Fin 128) : V7 m ρ c main_v45 (ix2 (0 : Fin 1) j) = a14 m c (ix1 j) := by
  show StableHlo.after hostOps3 (W6 m ρ c) (Proc.devRef .tc main_v45) (ix2 (0 : Fin 1) j) = _
  after_results_simp
  rw [show W6 m ρ c (Proc.devRef .tc main_arg14) = a14 m c from ((Carry.keepR2 m ρ c main_arg14 (by decide)).trans ((Carry.keepH2 m ρ c main_arg14 (by decide)).trans ((Carry.keepR1 m ρ c main_arg14 (by decide)).trans ((Carry.keepH1 m ρ c main_arg14 (by decide)).trans ((Carry.keepR0 m ρ c main_arg14 (by decide)).trans (Carry.keepH0 m ρ c main_arg14 (by decide)))))))]
  exact shapeCast_a_1a_apply _ _ 0 j
/-- Region 3's neighbour sum is the one computed before region 2. -/
theorem agg_r3 (h18 : W4 m ρ c (Proc.devRef .tc main_v18) = val_main_v22 (F := Ideal) (a1 m c) (a8 m c) (a9 m c)) : V7 m ρ c main_v40 = val_main_v45 (F := Ideal) (a1 m c) (a2 m c) (a3 m c) (a8 m c) (a9 m c) :=
  (((Carry.keepH3 m ρ c main_v40 (by decide)).trans (Carry.keepR2 m ρ c main_v40 (by decide)))).trans (agg_t1 m ρ c h18)
/-- Region 3's own rows are the 100000-node projection. -/
theorem own_r3 (h16 : W2 m ρ c (Proc.devRef .tc main_v16) = val_main_v18 (F := Ideal) (a0 m c) (a6 m c) (a7 m c)) : V7 m ρ c main_v16 = val_main_v18 (F := Ideal) (a0 m c) (a6 m c) (a7 m c) :=
  (((Carry.keepH3 m ρ c main_v16 (by decide)).trans ((Carry.keepR2 m ρ c main_v16 (by decide)).trans ((Carry.keepH2 m ρ c main_v16 (by decide)).trans ((Carry.keepR1 m ρ c main_v16 (by decide)).trans (Carry.keepH1 m ρ c main_v16 (by decide))))))).trans h16
theorem arg13_at7 : V7 m ρ c main_arg13 = a13 m c := ((Carry.keepH3 m ρ c main_arg13 (by decide)).trans ((Carry.keepR2 m ρ c main_arg13 (by decide)).trans ((Carry.keepH2 m ρ c main_arg13 (by decide)).trans ((Carry.keepR1 m ρ c main_arg13 (by decide)).trans ((Carry.keepH1 m ρ c main_arg13 (by decide)).trans ((Carry.keepR0 m ρ c main_arg13 (by decide)).trans (Carry.keepH0 m ρ c main_arg13 (by decide))))))))
theorem arg15_at7 : V7 m ρ c main_arg15 = a15 m c := ((Carry.keepH3 m ρ c main_arg15 (by decide)).trans ((Carry.keepR2 m ρ c main_arg15 (by decide)).trans ((Carry.keepH2 m ρ c main_arg15 (by decide)).trans ((Carry.keepR1 m ρ c main_arg15 (by decide)).trans ((Carry.keepH1 m ρ c main_arg15 (by decide)).trans ((Carry.keepR0 m ρ c main_arg15 (by decide)).trans (Carry.keepH0 m ρ c main_arg15 (by decide))))))))

/-! ## Boundary 9: the second layer's neighbour sums, and region 4's operands -/

/-- The second layer's unscaled neighbour sum into the 20000 nodes, from the first layer's 100000-node output. -/
theorem agg_p2 (h46 : W8 m ρ c (Proc.devRef .tc main_v46) = val_main_v78 (F := Ideal) (a0 m c) (a1 m c) (a2 m c) (a3 m c) (a6 m c) (a7 m c) (a8 m c) (a9 m c) (a13 m c) (a14 m c) (a15 m c)) :
    V9 m ρ c main_v57 = val_main_v88 (F := Ideal) (a0 m c) (a1 m c) (a2 m c) (a3 m c) (a6 m c) (a7 m c) (a8 m c) (a9 m c) (a13 m c) (a14 m c) (a15 m c) := by
  show StableHlo.after hostOps4 (W8 m ρ c) (Proc.devRef .tc main_v57) = _
  after_results_simp
  rw [show W8 m ρ c (Proc.devRef .tc main_arg3) = a3 m c from ((Carry.keepR3 m ρ c main_arg3 (by decide)).trans ((Carry.keepH3 m ρ c main_arg3 (by decide)).trans ((Carry.keepR2 m ρ c main_arg3 (by decide)).trans ((Carry.keepH2 m ρ c main_arg3 (by decide)).trans ((Carry.keepR1 m ρ c main_arg3 (by decide)).trans ((Carry.keepH1 m ρ c main_arg3 (by decide)).trans ((Carry.keepR0 m ρ c main_arg3 (by decide)).trans (Carry.keepH0 m ρ c main_arg3 (by decide))))))))),
      show W8 m ρ c (Proc.devRef .tc main_arg2) = a2 m c from ((Carry.keepR3 m ρ c main_arg2 (by decide)).trans ((Carry.keepH3 m ρ c main_arg2 (by decide)).trans ((Carry.keepR2 m ρ c main_arg2 (by decide)).trans ((Carry.keepH2 m ρ c main_arg2 (by decide)).trans ((Carry.keepR1 m ρ c main_arg2 (by decide)).trans ((Carry.keepH1 m ρ c main_arg2 (by decide)).trans ((Carry.keepR0 m ρ c main_arg2 (by decide)).trans (Carry.keepH0 m ρ c main_arg2 (by decide))))))))),
      show W8 m ρ c (Proc.devRef .tc main_v46) = _ from (rfl).trans h46]
  rfl
/-- The second layer's unscaled neighbour sum into the 100000 nodes, from the first layer's 20000-node output. -/
theorem agg_t2 (h43 : W6 m ρ c (Proc.devRef .tc main_v43) = val_main_v63 (F := Ideal) (a0 m c) (a1 m c) (a2 m c) (a3 m c) (a6 m c) (a7 m c) (a8 m c) (a9 m c) (a10 m c) (a11 m c) (a12 m c)) :
    V9 m ρ c main_v68 = val_main_v101 (F := Ideal) (a0 m c) (a1 m c) (a2 m c) (a3 m c) (a6 m c) (a7 m c) (a8 m c) (a9 m c) (a10 m c) (a11 m c) (a12 m c) := by
  show StableHlo.after hostOps4 (W8 m ρ c) (Proc.devRef .tc main_v68) = _
  after_results_simp
  rw [show W8 m ρ c (Proc.devRef .tc main_arg3) = a3 m c from ((Carry.keepR3 m ρ c main_arg3 (by decide)).trans ((Carry.keepH3 m ρ c main_arg3 (by decide)).trans ((Carry.keepR2 m ρ c main_arg3 (by decide)).trans ((Carry.keepH2 m ρ c main_arg3 (by decide)).trans ((Carry.keepR1 m ρ c main_arg3 (by decide)).trans ((Carry.keepH1 m ρ c main_arg3 (by decide)).trans ((Carry.keepR0 m ρ c main_arg3 (by decide)).trans (Carry.keepH0 m ρ c main_arg3 (by decide))))))))),
      show W8 m ρ c (Proc.devRef .tc main_arg2) = a2 m c from ((Carry.keepR3 m ρ c main_arg2 (by decide)).trans ((Carry.keepH3 m ρ c main_arg2 (by decide)).trans ((Carry.keepR2 m ρ c main_arg2 (by decide)).trans ((Carry.keepH2 m ρ c main_arg2 (by decide)).trans ((Carry.keepR1 m ρ c main_arg2 (by decide)).trans ((Carry.keepH1 m ρ c main_arg2 (by decide)).trans ((Carry.keepR0 m ρ c main_arg2 (by decide)).trans (Carry.keepH0 m ρ c main_arg2 (by decide))))))))),
      show W8 m ρ c (Proc.devRef .tc main_v43) = _ from (((Carry.keepR3 m ρ c main_v43 (by decide)).trans (Carry.keepH3 m ρ c main_v43 (by decide)))).trans h43]
  rfl
/-- The reciprocal neighbour count of the stage entered at boundary 9, reshaped to one column, read at a row. -/
theorem inv_r4 (i : Fin 20000) : V9 m ρ c main_v69 (ix2 i (0 : Fin 1)) = val_main_v7 (F := Ideal) (a3 m c) (ix1 i) := by
  show StableHlo.after hostOps4 (W8 m ρ c) (Proc.devRef .tc main_v69) (ix2 i (0 : Fin 1)) = _
  after_results_simp
  rw [show W8 m ρ c (Proc.devRef .tc main_v7) = val_main_v7 (F := Ideal) (a3 m c) from (((Carry.keepR3 m ρ c main_v7 (by decide)).trans ((Carry.keepH3 m ρ c main_v7 (by decide)).trans ((Carry.keepR2 m ρ c main_v7 (by decide)).trans ((Carry.keepH2 m ρ c main_v7 (by decide)).trans ((Carry.keepR1 m ρ c main_v7 (by decide)).trans ((Carry.keepH1 m ρ c main_v7 (by decide)).trans (Carry.keepR0 m ρ c main_v7 (by decide))))))))).trans (inv_p m ρ c)]
  exact Cert.LibColumnCast.shapeCast_a_a1_apply _ _ i 0
/-- The bias of the stage entered at boundary 9, reshaped to one row, read at a column. -/
theorem bias_r4 (j : Fin 128) : V9 m ρ c main_v70 (ix2 (0 : Fin 1) j) = a17 m c (ix1 j) := by
  show StableHlo.after hostOps4 (W8 m ρ c) (Proc.devRef .tc main_v70) (ix2 (0 : Fin 1) j) = _
  after_results_simp
  rw [show W8 m ρ c (Proc.devRef .tc main_arg17) = a17 m c from ((Carry.keepR3 m ρ c main_arg17 (by decide)).trans ((Carry.keepH3 m ρ c main_arg17 (by decide)).trans ((Carry.keepR2 m ρ c main_arg17 (by decide)).trans ((Carry.keepH2 m ρ c main_arg17 (by decide)).trans ((Carry.keepR1 m ρ c main_arg17 (by decide)).trans ((Carry.keepH1 m ρ c main_arg17 (by decide)).trans ((Carry.keepR0 m ρ c main_arg17 (by decide)).trans (Carry.keepH0 m ρ c main_arg17 (by decide)))))))))]
  exact shapeCast_a_1a_apply _ _ 0 j
/-- Region 4's own rows are the first layer's 20000-node output. -/
theorem own_r4 (h43 : W6 m ρ c (Proc.devRef .tc main_v43) = val_main_v63 (F := Ideal) (a0 m c) (a1 m c) (a2 m c) (a3 m c) (a6 m c) (a7 m c) (a8 m c) (a9 m c) (a10 m c) (a11 m c) (a12 m c)) : V9 m ρ c main_v43 = val_main_v63 (F := Ideal) (a0 m c) (a1 m c) (a2 m c) (a3 m c) (a6 m c) (a7 m c) (a8 m c) (a9 m c) (a10 m c) (a11 m c) (a12 m c) :=
  (((Carry.keepH4 m ρ c main_v43 (by decide)).trans ((Carry.keepR3 m ρ c main_v43 (by decide)).trans (Carry.keepH3 m ρ c main_v43 (by decide))))).trans h43
theorem arg16_at9 : V9 m ρ c main_arg16 = a16 m c := ((Carry.keepH4 m ρ c main_arg16 (by decide)).trans ((Carry.keepR3 m ρ c main_arg16 (by decide)).trans ((Carry.keepH3 m ρ c main_arg16 (by decide)).trans ((Carry.keepR2 m ρ c main_arg16 (by decide)).trans ((Carry.keepH2 m ρ c main_arg16 (by decide)).trans ((Carry.keepR1 m ρ c main_arg16 (by decide)).trans ((Carry.keepH1 m ρ c main_arg16 (by decide)).trans ((Carry.keepR0 m ρ c main_arg16 (by decide)).trans (Carry.keepH0 m ρ c main_arg16 (by decide))))))))))
theorem arg18_at9 : V9 m ρ c main_arg18 = a18 m c := ((Carry.keepH4 m ρ c main_arg18 (by decide)).trans ((Carry.keepR3 m ρ c main_arg18 (by decide)).trans ((Carry.keepH3 m ρ c main_arg18 (by decide)).trans ((Carry.keepR2 m ρ c main_arg18 (by decide)).trans ((Carry.keepH2 m ρ c main_arg18 (by decide)).trans ((Carry.keepR1 m ρ c main_arg18 (by decide)).trans ((Carry.keepH1 m ρ c main_arg18 (by decide)).trans ((Carry.keepR0 m ρ c main_arg18 (by decide)).trans (Carry.keepH0 m ρ c main_arg18 (by decide))))))))))

/-! ## Boundary 11: region 5's operands -/

/-- The reciprocal neighbour count of the stage entered at boundary 11, reshaped to one column, read at a row. -/
theorem inv_r5 (i : Fin 100000) : V11 m ρ c main_v72 (ix2 i (0 : Fin 1)) = val_main_v14 (F := Ideal) (a2 m c) (ix1 i) := by
  show StableHlo.after hostOps5 (W10 m ρ c) (Proc.devRef .tc main_v72) (ix2 i (0 : Fin 1)) = _
  after_results_simp
  rw [show W10 m ρ c (Proc.devRef .tc main_v14) = val_main_v14 (F := Ideal) (a2 m c) from (((Carry.keepR4 m ρ c main_v14 (by decide)).trans ((Carry.keepH4 m ρ c main_v14 (by decide)).trans ((Carry.keepR3 m ρ c main_v14 (by decide)).trans ((Carry.keepH3 m ρ c main_v14 (by decide)).trans ((Carry.keepR2 m ρ c main_v14 (by decide)).trans ((Carry.keepH2 m ρ c main_v14 (by decide)).trans ((Carry.keepR1 m ρ c main_v14 (by decide)).trans ((Carry.keepH1 m ρ c main_v14 (by decide)).trans (Carry.keepR0 m ρ c main_v14 (by decide))))))))))).trans (inv_t m ρ c)]
  exact Cert.LibColumnCast.shapeCast_a_a1_apply _ _ i 0
/-- The bias of the stage entered at boundary 11, reshaped to one row, read at a column. -/
theorem bias_r5 (j : Fin 128) : V11 m ρ c main_v73 (ix2 (0 : Fin 1) j) = a20 m c (ix1 j) := by
  show StableHlo.after hostOps5 (W10 m ρ c) (Proc.devRef .tc main_v73) (ix2 (0 : Fin 1) j) = _
  after_results_simp
  rw [show W10 m ρ c (Proc.devRef .tc main_arg20) = a20 m c from ((Carry.keepR4 m ρ c main_arg20 (by decide)).trans ((Carry.keepH4 m ρ c main_arg20 (by decide)).trans ((Carry.keepR3 m ρ c main_arg20 (by decide)).trans ((Carry.keepH3 m ρ c main_arg20 (by decide)).trans ((Carry.keepR2 m ρ c main_arg20 (by decide)).trans ((Carry.keepH2 m ρ c main_arg20 (by decide)).trans ((Carry.keepR1 m ρ c main_arg20 (by decide)).trans ((Carry.keepH1 m ρ c main_arg20 (by decide)).trans ((Carry.keepR0 m ρ c main_arg20 (by decide)).trans (Carry.keepH0 m ρ c main_arg20 (by decide)))))))))))]
  exact shapeCast_a_1a_apply _ _ 0 j
/-- Region 5's neighbour sum is the one computed before region 4. -/
theorem agg_r5 (h43 : W6 m ρ c (Proc.devRef .tc main_v43) = val_main_v63 (F := Ideal) (a0 m c) (a1 m c) (a2 m c) (a3 m c) (a6 m c) (a7 m c) (a8 m c) (a9 m c) (a10 m c) (a11 m c) (a12 m c)) : V11 m ρ c main_v68 = val_main_v101 (F := Ideal) (a0 m c) (a1 m c) (a2 m c) (a3 m c) (a6 m c) (a7 m c) (a8 m c) (a9 m c) (a10 m c) (a11 m c) (a12 m c) :=
  (((Carry.keepH5 m ρ c main_v68 (by decide)).trans (Carry.keepR4 m ρ c main_v68 (by decide)))).trans (agg_t2 m ρ c h43)
/-- Region 5's own rows are the first layer's 100000-node output. -/
theorem own_r5 (h46 : W8 m ρ c (Proc.devRef .tc main_v46) = val_main_v78 (F := Ideal) (a0 m c) (a1 m c) (a2 m c) (a3 m c) (a6 m c) (a7 m c) (a8 m c) (a9 m c) (a13 m c) (a14 m c) (a15 m c)) : V11 m ρ c main_v46 = val_main_v78 (F := Ideal) (a0 m c) (a1 m c) (a2 m c) (a3 m c) (a6 m c) (a7 m c) (a8 m c) (a9 m c) (a13 m c) (a14 m c) (a15 m c) :=
  (((Carry.keepH5 m ρ c main_v46 (by decide)).trans ((Carry.keepR4 m ρ c main_v46 (by decide)).trans (Carry.keepH4 m ρ c main_v46 (by decide))))).trans h46
theorem arg19_at11 : V11 m ρ c main_arg19 = a19 m c := ((Carry.keepH5 m ρ c main_arg19 (by decide)).trans ((Carry.keepR4 m ρ c main_arg19 (by decide)).trans ((Carry.keepH4 m ρ c main_arg19 (by decide)).trans ((Carry.keepR3 m ρ c main_arg19 (by decide)).trans ((Carry.keepH3 m ρ c main_arg19 (by decide)).trans ((Carry.keepR2 m ρ c main_arg19 (by decide)).trans ((Carry.keepH2 m ρ c main_arg19 (by decide)).trans ((Carry.keepR1 m ρ c main_arg19 (by decide)).trans ((Carry.keepH1 m ρ c main_arg19 (by decide)).trans ((Carry.keepR0 m ρ c main_arg19 (by decide)).trans (Carry.keepH0 m ρ c main_arg19 (by decide))))))))))))
theorem arg21_at11 : V11 m ρ c main_arg21 = a21 m c := ((Carry.keepH5 m ρ c main_arg21 (by decide)).trans ((Carry.keepR4 m ρ c main_arg21 (by decide)).trans ((Carry.keepH4 m ρ c main_arg21 (by decide)).trans ((Carry.keepR3 m ρ c main_arg21 (by decide)).trans ((Carry.keepH3 m ρ c main_arg21 (by decide)).trans ((Carry.keepR2 m ρ c main_arg21 (by decide)).trans ((Carry.keepH2 m ρ c main_arg21 (by decide)).trans ((Carry.keepR1 m ρ c main_arg21 (by decide)).trans ((Carry.keepH1 m ρ c main_arg21 (by decide)).trans ((Carry.keepR0 m ρ c main_arg21 (by decide)).trans (Carry.keepH0 m ρ c main_arg21 (by decide))))))))))))

/-! ## Boundary 13: the score of each labelled pair -/

/-- The result: the rows of the two second-layer outputs gathered at the labelled pairs, multiplied entry by entry
    and summed along each row. -/
theorem score (h71 : W10 m ρ c (Proc.devRef .tc main_v71) = val_main_v118 (F := Ideal) (a0 m c) (a1 m c) (a2 m c) (a3 m c) (a6 m c) (a7 m c) (a8 m c) (a9 m c) (a10 m c) (a11 m c) (a12 m c) (a13 m c) (a14 m c) (a15 m c) (a16 m c) (a17 m c) (a18 m c))
    (h74 : W12 m ρ c (Proc.devRef .tc main_v74) = val_main_v132 (F := Ideal) (a0 m c) (a1 m c) (a2 m c) (a3 m c) (a6 m c) (a7 m c) (a8 m c) (a9 m c) (a10 m c) (a11 m c) (a12 m c) (a13 m c) (a14 m c) (a15 m c) (a19 m c) (a20 m c) (a21 m c)) :
    W13 m ρ c (Proc.devRef .tc main_v92) = val_main_v148 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) := by
  show StableHlo.after hostOps6 (W12 m ρ c) (Proc.devRef .tc main_v92) = _
  after_results_simp
  rw [show W12 m ρ c (Proc.devRef .tc main_arg4) = a4 m c from ((Carry.keepR5 m ρ c main_arg4 (by decide)).trans ((Carry.keepH5 m ρ c main_arg4 (by decide)).trans ((Carry.keepR4 m ρ c main_arg4 (by decide)).trans ((Carry.keepH4 m ρ c main_arg4 (by decide)).trans ((Carry.keepR3 m ρ c main_arg4 (by decide)).trans ((Carry.keepH3 m ρ c main_arg4 (by decide)).trans ((Carry.keepR2 m ρ c main_arg4 (by decide)).trans ((Carry.keepH2 m ρ c main_arg4 (by decide)).trans ((Carry.keepR1 m ρ c main_arg4 (by decide)).trans ((Carry.keepH1 m ρ c main_arg4 (by decide)).trans ((Carry.keepR0 m ρ c main_arg4 (by decide)).trans (Carry.keepH0 m ρ c main_arg4 (by decide))))))))))))),
      show W12 m ρ c (Proc.devRef .tc main_arg5) = a5 m c from ((Carry.keepR5 m ρ c main_arg5 (by decide)).trans ((Carry.keepH5 m ρ c main_arg5 (by decide)).trans ((Carry.keepR4 m ρ c main_arg5 (by decide)).trans ((Carry.keepH4 m ρ c main_arg5 (by decide)).trans ((Carry.keepR3 m ρ c main_arg5 (by decide)).trans ((Carry.keepH3 m ρ c main_arg5 (by decide)).trans ((Carry.keepR2 m ρ c main_arg5 (by decide)).trans ((Carry.keepH2 m ρ c main_arg5 (by decide)).trans ((Carry.keepR1 m ρ c main_arg5 (by decide)).trans ((Carry.keepH1 m ρ c main_arg5 (by decide)).trans ((Carry.keepR0 m ρ c main_arg5 (by decide)).trans (Carry.keepH0 m ρ c main_arg5 (by decide))))))))))))),
      show W12 m ρ c (Proc.devRef .tc main_v74) = _ from h74,
      show W12 m ρ c (Proc.devRef .tc main_v71) = _ from (((Carry.keepR5 m ρ c main_v71 (by decide)).trans (Carry.keepH5 m ρ c main_v71 (by decide)))).trans h71]
  unfold Cert.ReferenceIdeal.Read.val_main_v148 Cert.ReferenceIdeal.Read.val_main_v147 Cert.ReferenceIdeal.Read.val_main_v139 Cert.ReferenceIdeal.Read.val_main_v138 Cert.ReferenceIdeal.Read.val_main_v137 Cert.ReferenceIdeal.Read.val_main_v134 Cert.ReferenceIdeal.Read.val_main_v133 Cert.ReferenceIdeal.Read.val_main_c_25 Cert.ReferenceIdeal.Read.val_main_v136 Cert.ReferenceIdeal.Read.val_main_v135 Cert.ReferenceIdeal.Read.val_main_c_26 Cert.ReferenceIdeal.Read.val_main_v146 Cert.ReferenceIdeal.Read.val_main_v145 Cert.ReferenceIdeal.Read.val_main_v144 Cert.ReferenceIdeal.Read.val_main_v141 Cert.ReferenceIdeal.Read.val_main_v140 Cert.ReferenceIdeal.Read.val_main_c_27 Cert.ReferenceIdeal.Read.val_main_v143 Cert.ReferenceIdeal.Read.val_main_v142 Cert.ReferenceIdeal.Read.val_main_c_28 Cert.ReferenceIdeal.Read.val_main_cst_29
  generalize val_main_v132 (F := Ideal) (a0 m c) (a1 m c) (a2 m c) (a3 m c) (a6 m c) (a7 m c) (a8 m c) (a9 m c) (a10 m c) (a11 m c) (a12 m c) (a13 m c) (a14 m c) (a15 m c) (a19 m c) (a20 m c) (a21 m c) = zt
  generalize val_main_v118 (F := Ideal) (a0 m c) (a1 m c) (a2 m c) (a3 m c) (a6 m c) (a7 m c) (a8 m c) (a9 m c) (a10 m c) (a11 m c) (a12 m c) (a13 m c) (a14 m c) (a15 m c) (a16 m c) (a17 m c) (a18 m c) = zp
  rfl

end Cert.KernelIdeal.HostValue

end
-- ==== Proof.StageSpec.lean ====
/-
  The dense stages of the two-layer bipartite graph network, as plain functions of matrices of extended reals.

  A matrix is a curried function `Fin M → Fin N → EReal`; `mat` and `vec` read an array of a literal
  two- or one-axis shape that way. The network has two kinds of dense stage:

  * the input projection `lin x w b`: entry (i, j) is `∑ k, x i k · w k j + b j`;
  * the neighbourhood combine: with `agg` the UNSCALED sum of the neighbours' rows, `invc` the reciprocal
    of the (clamped) neighbour count, `h` the node's own row,
      `pre` entry (i, j) = (∑ k, (agg i k · invc i) · wl k j) + (∑ k, h i k · wr k j) + b j,
    then each row divided by the larger of its Euclidean norm and the shared literal 1e-12 (`l2n`), then, in the
    first layer only, clamped below at zero (`relu`).

  Sums are finite sums in the extended reals; no law used later needs a finite entry, only that
  addition there is commutative and associative.
-/
import Idealize.ShloMosaic.PureOps.Ideal
import Idealize.ShloMosaic.Lib.ValueIdx

noncomputable section

namespace Cert.StageSpec

open Idealize.ShloMosaic Idealize.ShloMosaic.ValueIdx

/-- A two-axis array read as a matrix. -/
abbrev mat {A B : Nat} (x : (⟨2, ![A, B]⟩ : Shape).Idx → EReal) : Fin A → Fin B → EReal := fun i k => x (ix2 i k)

/-- A one-axis array read as a vector. -/
abbrev vec {A : Nat} (x : (⟨1, ![A]⟩ : Shape).Idx → EReal) : Fin A → EReal := fun i => x (ix1 i)

/-- The shared literal: the f32 nearest to 1e-12, kept as its bit pattern (it is the same word on both sides
    and is never evaluated). -/
abbrev eps : EReal := Ideal.ofBits .f32 0x2B8CBCCC#32

/-- The input projection: `x · w + b`, the bias added along rows. -/
def lin {M K N : Nat} (x : Fin M → Fin K → EReal) (w : Fin K → Fin N → EReal) (b : Fin N → EReal) :
    Fin M → Fin N → EReal :=
  fun i j => (∑ k, x i k * w k j) + b j

/-- The combine stage before normalisation: the neighbour sum scaled row by row by `invc`, times `wl`, plus the
    node's own row times `wr`, plus the bias. -/
def pre {M H : Nat} (agg : Fin M → Fin H → EReal) (invc : Fin M → EReal) (h : Fin M → Fin H → EReal)
    (wl wr : Fin H → Fin H → EReal) (b : Fin H → EReal) : Fin M → Fin H → EReal :=
  fun i j => ((∑ k, (agg i k * invc i) * wl k j) + (∑ k, h i k * wr k j)) + b j

/-- Each row divided by the larger of its Euclidean norm and `eps`. -/
def l2n {M H : Nat} (y : Fin M → Fin H → EReal) : Fin M → Fin H → EReal :=
  fun i j => Ideal.div (y i j) (max (Ideal.sqrt (∑ j', y i j' * y i j')) eps)

/-- Clamp below at zero. -/
def relu {M H : Nat} (y : Fin M → Fin H → EReal) : Fin M → Fin H → EReal :=
  fun i j => max (y i j) 0

/-- First-layer combine: normalise, then clamp. -/
def comb1 {M H : Nat} (agg : Fin M → Fin H → EReal) (invc : Fin M → EReal) (h : Fin M → Fin H → EReal)
    (wl wr : Fin H → Fin H → EReal) (b : Fin H → EReal) : Fin M → Fin H → EReal :=
  relu (l2n (pre agg invc h wl wr b))

/-- Second-layer combine: normalise only. -/
def comb2 {M H : Nat} (agg : Fin M → Fin H → EReal) (invc : Fin M → EReal) (h : Fin M → Fin H → EReal)
    (wl wr : Fin H → Fin H → EReal) (b : Fin H → EReal) : Fin M → Fin H → EReal :=
  l2n (pre agg invc h wl wr b)

/-- The same pre-normalisation entry with the bias added before the second product — the order the plain
    formulation adds in. Addition of extended reals is commutative and associative, so nothing about
    finiteness is needed. -/
theorem pre_eq_bias_first {M H : Nat} (agg : Fin M → Fin H → EReal) (invc : Fin M → EReal) (h : Fin M → Fin H → EReal)
    (wl wr : Fin H → Fin H → EReal) (b : Fin H → EReal) (i : Fin M) (j : Fin H) :
    pre agg invc h wl wr b i j = ((∑ k, (agg i k * invc i) * wl k j) + b j) + (∑ k, h i k * wr k j) := by
  unfold pre
  exact add_right_comm _ _ _

end Cert.StageSpec

end
-- ==== Proof.LinRegion.lean ====
/-
  The two input projections of the network, read off the kernel program: after each of the two projection
  regions its output array is, entry by entry, the matrix product of the region's row-indexed operand with its
  weight matrix plus the bias row.

  Per grid point the body multiplies a block of 4000 rows by the whole weight matrix (a product into a zero
  accumulator, so just the sum over the contraction index), adds the one-row bias broadcast over the rows, and
  stores the block. The row blocks tile the output array, point t holding rows 4000·t … 4000·t + 3999, so the
  whole array is the same formula at every index. The bias enters through a hypothesis on the one-row array
  the region finds; nothing is assumed about the other contents of memory.
-/
import proofs.«118754_j70248485094040_2_alg».proof.Proof.StageSpec
import proofs.«118754_j70248485094040_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.LinRegion

open Cert.KernelIdeal Cert.KernelIdeal.Gen Idealize.ShloMosaic Idealize.ShloMosaic.TcCoe Idealize.ShloMosaic.ValueIdx Cert.StageSpec

/-- The all-zero offset of a whole-block load or store, in the form the library's lemmas take. -/
theorem zero_offset : (![0, 0] : Fin 2 → Nat) = fun _ => 0 := funext fun a => by fin_cases a <;> rfl

/-- The projection as a function on a two-axis array's indices: entry (i 0, i 1) of x · w + b. -/
abbrev linArr {M K : Nat} (x : (⟨2, ![M, K]⟩ : Shape).Idx → EReal) (w : (⟨2, ![K, 128]⟩ : Shape).Idx → EReal) (b : Fin 128 → EReal) :
    (⟨2, ![M, 128]⟩ : Shape).Idx → EReal :=
  fun i => lin (mat x) (mat w) b (i 0) (i 1)

/-! ## The body's arithmetic at an index: a [4000,128] block times the [128,128] weights -/

/-- The left operand's index at output index i and contraction index c keeps i's row. -/
theorem lhs128_row (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The right operand's index at output index i and contraction index c keeps i's column. -/
theorem rhs128_col (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into the zero accumulator, at (p, q): the sum over the one contraction index k of
    a(p,k) · w(k,q). -/
theorem matmul128_apply (a : FVec Ideal S4000x128 .bf16) (w : FVec Ideal S128x128 .bf16) (p : Fin 4000) (q : Fin 128) :
    FloatOps.matmul dot_S4000x128_S128x128_S4000x128_1_0_0_1_n_n none a w (constant (F := Ideal) S4000x128 .f32 0x00000000#32) (ix2 p q)
      = ∑ k : Fin 128, a (ix2 p k) * w (ix2 k q) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun ax => Fin.ext (by
    match ax with
    | ⟨0, _⟩ => exact lhs128_row _ _
    | ⟨1, _⟩ => exact (dot_S4000x128_S128x128_S4000x128_1_0_0_1_n_n.lhsIdx_val_of_single rfl _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun ax => Fin.ext (by
    match ax with
    | ⟨0, _⟩ => exact (dot_S4000x128_S128x128_S4000x128_1_0_0_1_n_n.rhsIdx_val_of_single rfl _ _).trans hk
    | ⟨1, _⟩ => exact rhs128_col _ _)
  rw [el, er]

/-- The payload at (p, q): the product's entry plus entry q of the one-row bias block (the casts between
    float formats are the identity on extended reals; the bias row is cast to its own shape and broadcast
    over the 4000 rows). -/
theorem pay0_apply (x0 : Vec Ideal S4000x128 .f32) (x1 : Vec Ideal S128x128 .f32) (x2 : Vec Ideal S1x128 .f32) (p : Fin 4000) (q : Fin 128) :
    k0_pay1 (F := Ideal) x0 x1 x2 (ix2 p q) = (∑ k : Fin 128, x0 (ix2 p k) * x1 (ix2 k q)) + x2 (ix2 (0 : Fin 1) q) := by
  unfold k0_pay1
  show FloatOps.matmul dot_S4000x128_S128x128_S4000x128_1_0_0_1_n_n none (truncf .bf16 x0 bitsLt_bf16_f32) (truncf .bf16 x1 bitsLt_bf16_f32) (constant (F := Ideal) S4000x128 .f32 0x00000000#32) (ix2 p q)
      + broadcastTo S4000x128 (shapeCast S1x128 x2 shapeCasts_S1x128_S1x128) broadcasts_S1x128_S4000x128 (ix2 p q) = _
  exact congrArg₂ (· + ·) (matmul128_apply _ _ p q)
    ((broadcastTo_1b_ab_apply _ broadcasts_S1x128_S4000x128 p q).trans (congrFun (shapeCast_self x2 shapeCasts_S1x128_S1x128) _))

/-! ## The body's arithmetic at an index: a [4000,64] block times the [64,128] weights -/

/-- The left operand's index at output index i and contraction index c keeps i's row. -/
theorem lhs64_row (i : S4000x128.Idx) (c : dot_S4000x64_S64x128_S4000x128_1_0_0_1_n_n.contr.Idx) :
    (dot_S4000x64_S64x128_S4000x128_1_0_0_1_n_n.lhsIdx i c 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl

/-- The right operand's index at output index i and contraction index c keeps i's column. -/
theorem rhs64_col (i : S4000x128.Idx) (c : dot_S4000x64_S64x128_S4000x128_1_0_0_1_n_n.contr.Idx) :
    (dot_S4000x64_S64x128_S4000x128_1_0_0_1_n_n.rhsIdx i c 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The product into the zero accumulator, at (p, q): the sum over the one contraction index k of
    a(p,k) · w(k,q). -/
theorem matmul64_apply (a : FVec Ideal S4000x64 .bf16) (w : FVec Ideal S64x128 .bf16) (p : Fin 4000) (q : Fin 128) :
    FloatOps.matmul dot_S4000x64_S64x128_S4000x128_1_0_0_1_n_n none a w (constant (F := Ideal) S4000x128 .f32 0x00000000#32) (ix2 p q)
      = ∑ k : Fin 64, a (ix2 p k) * w (ix2 k q) := by
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun ax => Fin.ext (by
    match ax with
    | ⟨0, _⟩ => exact lhs64_row _ _
    | ⟨1, _⟩ => exact (dot_S4000x64_S64x128_S4000x128_1_0_0_1_n_n.lhsIdx_val_of_single rfl _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun ax => Fin.ext (by
    match ax with
    | ⟨0, _⟩ => exact (dot_S4000x64_S64x128_S4000x128_1_0_0_1_n_n.rhsIdx_val_of_single rfl _ _).trans hk
    | ⟨1, _⟩ => exact rhs64_col _ _)
  rw [el, er]

/-- The payload at (p, q): the product's entry plus entry q of the one-row bias block (the casts between
    float formats are the identity on extended reals; the bias row is cast to its own shape and broadcast
    over the 4000 rows). -/
theorem pay1_apply (x0 : Vec Ideal S4000x64 .f32) (x1 : Vec Ideal S64x128 .f32) (x2 : Vec Ideal S1x128 .f32) (p : Fin 4000) (q : Fin 128) :
    k1_pay1 (F := Ideal) x0 x1 x2 (ix2 p q) = (∑ k : Fin 64, x0 (ix2 p k) * x1 (ix2 k q)) + x2 (ix2 (0 : Fin 1) q) := by
  unfold k1_pay1
  show FloatOps.matmul dot_S4000x64_S64x128_S4000x128_1_0_0_1_n_n none (truncf .bf16 x0 bitsLt_bf16_f32) (truncf .bf16 x1 bitsLt_bf16_f32) (constant (F := Ideal) S4000x128 .f32 0x00000000#32) (ix2 p q)
      + broadcastTo S4000x128 (shapeCast S1x128 x2 shapeCasts_S1x128_S1x128) broadcasts_S1x128_S4000x128 (ix2 p q) = _
  exact congrArg₂ (· + ·) (matmul64_apply _ _ p q)
    ((broadcastTo_1b_ab_apply _ broadcasts_S1x128_S4000x128 p q).trans (congrFun (shapeCast_self x2 shapeCasts_S1x128_S1x128) _))

/-! ## From the blocks to the array: region 0 -/

/-- The printed index maps, decided over the 25 grid points: the row-indexed windows sit at row block t, the weight
    and bias windows at the origin. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the projection of the arrays the region finds. -/
theorem flushed0_eq (V : (c : Dev nD) → (b : Ref sig .tc) → Buf (Elt Ideal) ((c : Thread nD τ).loc b)) (c : Dev nD) (b : Fin 128 → EReal)
    (hb : ∀ j : Fin 128, V c main_v15 (ix2 (0 : Fin 1) j) = b j) (t : Fin cfg0.N) :
    (dat0 (F := Ideal) V c).flushed 3 t
      = ((cfg0.win 3).blk t).view.read (Elt Ideal) (linArr (V c main_arg0) (V c main_arg6) b) := by
  show (cfg0.win 3).cut (grid0.coords t) ((dat0 V c).after 3 t) = _
  rw [after0_3]
  unfold out0_3
  rw [View.canon_unit_zero zero_offset]
  simp only [View.ld_unit_zero (S := S4000x128) zero_offset, View.ld_unit_zero (S := S128x128) zero_offset, View.ld_unit_zero (S := S1x128) zero_offset]
  obtain ⟨e00, e01, e10, e11, e20, e21, e30, e31⟩ := index_facts0 t
  refine funext fun (j : S4000x128.Idx) => ?_
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q)
    = linArr (V c main_arg0) (V c main_arg6) b (((cfg0.win 3).blk t).view.emb (ix2 p q))
  refine (pay0_apply (iblk0 V c 0 t) (iblk0 V c 1 t) (iblk0 V c 2 t) p q).trans ?_
  have ht : t.val < 25 := t.isLt
  -- the row of the array that row p of block t is
  let row : Fin 100000 := ⟨t.val * 4000 + p.val, by have := p.isLt; omega⟩
  have hout : ((cfg0.win 3).blk t).view.emb (ix2 p q) = ix2 row q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  have hx : ∀ k : Fin 128, iblk0 V c 0 t (ix2 p k) = V c main_arg0 (ix2 row k) := by
    intro k
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  have hw : ∀ k : Fin 128, iblk0 V c 1 t (ix2 k q) = V c main_arg6 (ix2 k q) := by
    intro k
    show V c main_arg6 (((cfg0.win 1).blk t).view.emb (ix2 k q)) = _
    refine congrArg (V c main_arg6) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have hbias : iblk0 V c 2 t (ix2 (0 : Fin 1) q) = b q := by
    refine Eq.trans ?_ (hb q)
    show V c main_v15 (((cfg0.win 2).blk t).view.emb (ix2 (0 : Fin 1) q)) = _
    refine congrArg (V c main_v15) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  rw [hout, hbias]
  show _ = lin (mat (V c main_arg0)) (mat (V c main_arg6)) b row q
  unfold lin
  exact congrArg (· + b q) (Finset.sum_congr rfl fun k _ => by rw [hx k, hw k])

/-- An index of the array is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v16).slice (win0_3.rect t)).set ↔ _
  rw [View.set_slice_whole, Rect.mem_set_unit]
  exact Iff.rfl

/-- The row blocks tile the array: row r is in the block of point r / 4000, and every point writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, htv⟩ : ∃ t : Fin cfg0.N, t.val = (i 0).val / 4000 := ⟨⟨(i 0).val / 4000, by show _ < 25; omega⟩, rfl⟩
  obtain ⟨-, -, -, -, -, -, e30, e31⟩ := index_facts0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The region's output array after the region, entry by entry: the projection of the arrays it finds. -/
theorem lin0_value (V : (c : Dev nD) → (b : Ref sig .tc) → Buf (Elt Ideal) ((c : Thread nD τ).loc b)) (c : Dev nD) (b : Fin 128 → EReal)
    (hb : ∀ j : Fin 128, V c main_v15 (ix2 (0 : Fin 1) j) = b j) (i : Fin 100000) (j : Fin 128) :
    (dat0 (F := Ideal) V c).arrAt 3 cfg0.N (ix2 i j) = lin (mat (V c main_arg0)) (mat (V c main_arg6)) b i j :=
  congrFun ((dat0 (F := Ideal) V c).arrAt_eq_of_cover 3 (linArr (V c main_arg0) (V c main_arg6) b)
    (fun t _ => flushed0_eq V c b hb t) cover0) (ix2 i j)

/-! ## From the blocks to the array: region 1 -/

/-- The printed index maps, decided over the 5 grid points: the row-indexed windows sit at row block t, the weight
    and bias windows at the origin. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the projection of the arrays the region finds. -/
theorem flushed1_eq (V : (c : Dev nD) → (b : Ref sig .tc) → Buf (Elt Ideal) ((c : Thread nD τ).loc b)) (c : Dev nD) (b : Fin 128 → EReal)
    (hb : ∀ j : Fin 128, V c main_v17 (ix2 (0 : Fin 1) j) = b j) (t : Fin cfg1.N) :
    (dat1 (F := Ideal) V c).flushed 3 t
      = ((cfg1.win 3).blk t).view.read (Elt Ideal) (linArr (V c main_arg1) (V c main_arg8) b) := by
  show (cfg1.win 3).cut (grid1.coords t) ((dat1 V c).after 3 t) = _
  rw [after1_3]
  unfold out1_3
  rw [View.canon_unit_zero zero_offset]
  simp only [View.ld_unit_zero (S := S4000x64) zero_offset, View.ld_unit_zero (S := S64x128) zero_offset, View.ld_unit_zero (S := S1x128) zero_offset]
  obtain ⟨e00, e01, e10, e11, e20, e21, e30, e31⟩ := index_facts1 t
  refine funext fun (j : S4000x128.Idx) => ?_
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (ix2 p q)
    = linArr (V c main_arg1) (V c main_arg8) b (((cfg1.win 3).blk t).view.emb (ix2 p q))
  refine (pay1_apply (iblk1 V c 0 t) (iblk1 V c 1 t) (iblk1 V c 2 t) p q).trans ?_
  have ht : t.val < 5 := t.isLt
  -- the row of the array that row p of block t is
  let row : Fin 20000 := ⟨t.val * 4000 + p.val, by have := p.isLt; omega⟩
  have hout : ((cfg1.win 3).blk t).view.emb (ix2 p q) = ix2 row q := by
    funext a; apply Fin.ext
    match a with
    | ⟨0, _⟩ => show win1_3.index t (0 : Fin 2) * 4000 + 1 * p.val = t.val * 4000 + p.val; omega
    | ⟨1, _⟩ => show win1_3.index t (1 : Fin 2) * 128 + 1 * q.val = q.val; omega
  have hx : ∀ k : Fin 64, iblk1 V c 0 t (ix2 p k) = V c main_arg1 (ix2 row k) := by
    intro k
    show V c main_arg1 (((cfg1.win 0).blk t).view.emb (ix2 p k)) = _
    refine congrArg (V c main_arg1) (funext fun a => Fin.ext ?_)
    match a with
    | ⟨0, _⟩ => show win1_0.index t (0 : Fin 2) * 4000 + 1 * p.val = t.val * 4000 + p.val; omega
    | ⟨1, _⟩ => show win1_0.index t (1 : Fin 2) * 64 + 1 * k.val = k.val; omega
  have hw : ∀ k : Fin 64, iblk1 V c 1 t (ix2 k q) = V c main_arg8 (ix2 k q) := by
    intro k
    show V c main_arg8 (((cfg1.win 1).blk t).view.emb (ix2 k q)) = _
    refine congrArg (V c main_arg8) (funext fun a => Fin.ext ?_)
    match a with
    | ⟨0, _⟩ => show win1_1.index t (0 : Fin 2) * 64 + 1 * k.val = k.val; omega
    | ⟨1, _⟩ => show win1_1.index t (1 : Fin 2) * 128 + 1 * q.val = q.val; omega
  have hbias : iblk1 V c 2 t (ix2 (0 : Fin 1) q) = b q := by
    refine Eq.trans ?_ (hb q)
    show V c main_v17 (((cfg1.win 2).blk t).view.emb (ix2 (0 : Fin 1) q)) = _
    refine congrArg (V c main_v17) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  rw [hout, hbias]
  show _ = lin (mat (V c main_arg1)) (mat (V c main_arg8)) b row q
  unfold lin
  exact congrArg (· + b q) (Finset.sum_congr rfl fun k _ => by rw [hx k, hw k])

/-- An index of the array is in point t's block iff each coordinate is in the block's range on its axis. -/
theorem mem_blk1 (t : Fin cfg1.N) (i : S20000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v18).slice (win1_3.rect t)).set ↔ _
  rw [View.set_slice_whole, Rect.mem_set_unit]
  exact Iff.rfl

/-- The row blocks tile the array: row r is in the block of point r / 4000, and every point writes back. -/
theorem cover1 (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  obtain ⟨t, htv⟩ : ∃ t : Fin cfg1.N, t.val = (i 0).val / 4000 := ⟨⟨(i 0).val / 4000, by show _ < 5; omega⟩, rfl⟩
  obtain ⟨-, -, -, -, -, -, e30, e31⟩ := index_facts1 t
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- The region's output array after the region, entry by entry: the projection of the arrays it finds. -/
theorem lin1_value (V : (c : Dev nD) → (b : Ref sig .tc) → Buf (Elt Ideal) ((c : Thread nD τ).loc b)) (c : Dev nD) (b : Fin 128 → EReal)
    (hb : ∀ j : Fin 128, V c main_v17 (ix2 (0 : Fin 1) j) = b j) (i : Fin 20000) (j : Fin 128) :
    (dat1 (F := Ideal) V c).arrAt 3 cfg1.N (ix2 i j) = lin (mat (V c main_arg1)) (mat (V c main_arg8)) b i j :=
  congrFun ((dat1 (F := Ideal) V c).arrAt_eq_of_cover 3 (linArr (V c main_arg1) (V c main_arg8) b)
    (fun t _ => flushed1_eq V c b hb t) cover1) (ix2 i j)

end Cert.KernelIdeal.LinRegion

end
-- ==== Proof.CombRegionBlock.lean ====
/-
  The combine stage on ONE block of 4000 rows, entry by entry.

  The block-level arithmetic scales the neighbour sum row by row by the reciprocal count, multiplies by the
  left weights, adds the node's own rows times the right weights and then the bias row, and divides each
  row by the larger of its Euclidean norm and the shared small literal; in the first layer the result is
  then clamped below at zero. Read at an entry (p, q) this is the stage specification's comb1 / comb2
  of the blocks read as matrices: every step is pointwise except the two products (a sum over the
  contracted axis), the row sum of squares (a sum over the lane axis) and the column / row broadcasts.
-/
import proofs.«118754_j70248485094040_2_alg».proof.Proof.StageSpec
import proofs.«118754_j70248485094040_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.StageValue

open Cert.KernelIdeal Cert.KernelIdeal.Gen Idealize.ShloMosaic Idealize.ShloMosaic.ValueIdx Cert.StageSpec

/-- The left operand's index of the block product keeps the output's row … -/
theorem blockDot_lhs_row (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- … and the right operand's index keeps the output's column. -/
theorem blockDot_rhs_col (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The block product into a zero accumulator, at entry (p, q): the sum over the contracted axis. -/
theorem blockProduct_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k :=
    funext fun a => Fin.ext (by
      match a with
      | ⟨0, _⟩ => exact blockDot_lhs_row (ix2 p q) _
      | ⟨1, _⟩ =>
        exact (dot_S4000x128_S128x128_S4000x128_1_0_0_1_n_n.lhsIdx_val_of_single rfl (ix2 p q) _).trans hk)
  have er : dot_S4000x128_S128x128_S4000x128_1_0_0_1_n_n.rhsIdx (ix2 p q)
      ((contrEquiv1 dot_S4000x128_S128x128_S4000x128_1_0_0_1_n_n 128 rfl rfl).symm k) = ix2 k q :=
    funext fun a => Fin.ext (by
      match a with
      | ⟨0, _⟩ =>
        exact (dot_S4000x128_S128x128_S4000x128_1_0_0_1_n_n.rhsIdx_val_of_single rfl (ix2 p q) _).trans hk
      | ⟨1, _⟩ => exact blockDot_rhs_col (ix2 p q) _)
  rw [el, er]

/-- A column [4000, 1] broadcast along rows reads, at (p, q), the column at p. -/
theorem columnBroadcast_apply {α : Type} (v : S4000x1.Idx → α) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) fun ax => ?_
  match ax with
  | ⟨0, _⟩ =>
    show p.val = if (4000 : Nat) = 1 then 0 else p.val
    rw [if_neg (by decide)]
  | ⟨1, _⟩ => rfl

/-- The bias row [1, 128] broadcast over the rows reads, at (p, q), the row at q. -/
theorem rowBroadcast_apply {α : Type} (v : S1x128.Idx → α) (p : Fin 4000) (q : Fin 128) :
    broadcastTo S4000x128 v broadcasts_S1x128_S4000x128 (ix2 p q) = v (ix2 (0 : Fin 1) q) :=
  broadcastTo_1b_ab_apply v broadcasts_S1x128_S4000x128 p q

/-- The lane sum of a block at row p: the sum over the 128 lanes. -/
theorem laneSum_apply (src : FVec Ideal S4000x128 .f32) (hφ : FKind.Formats .f32)
    (hacc : (0x00000000#32 : BitVec 32) = FKind.add.neutral .f32 hφ) (p : Fin 4000) :
    multiReduction .add [1] S4000 src 0x00000000#32 reduces_S4000x128_S4000 hφ hacc (ix1 p)
      = ∑ k : Fin 128, src (ix2 p k) := by
  refine (Ideal.multiReduction_add_single src 0x00000000#32 reduces_S4000x128_S4000 hφ hacc (ix1 p)).trans ?_
  refine Finset.sum_congr rfl fun k _ => congrArg src ?_
  funext a
  apply Fin.ext
  match a with
  | ⟨0, _⟩ => rfl
  | ⟨1, _⟩ => rfl

/-- A vector [4000] recast as a column [4000, 1] reads, at (p, 0), the vector at p. -/
theorem columnCast_apply {α : Type} (v : S4000.Idx → α) (p : Fin 4000) :
    shapeCast S4000x1 v shapeCasts_S4000_S4000x1 (ix2 p (0 : Fin 1)) = v (ix1 p) :=
  shapeCast_apply v shapeCasts_S4000_S4000x1 _ _ (by
    rw [Shape.rowMajor_val_two, Shape.rowMajor_val_one]
    show p.val = p.val * 1 + 0
    omega)

/-- The block before normalisation: the scaled neighbour sum times the left weights, plus the own rows times the
    right weights, plus the bias row. -/
def preBlock (x0 : Vec Ideal S4000x128 .f32) (x1 : Vec Ideal S4000x1 .f32) (x2 : Vec Ideal S4000x128 .bf16)
    (x3 x4 : Vec Ideal S128x128 .f32) (x5 : Vec Ideal S1x128 .f32) : FVec Ideal S4000x128 .f32 :=
  addf
    (addf
      (matmul dot_S4000x128_S128x128_S4000x128_1_0_0_1_n_n none
        (truncf .bf16 (mulf (shapeCast S4000x128 x0 shapeCasts_S4000x128_S4000x128)
          (broadcastTo S4000x128 (shapeCast S4000x1 x1 shapeCasts_S4000x1_S4000x1) broadcasts_S4000x1_S4000x128)) bitsLt_bf16_f32)
        (truncf .bf16 x3 bitsLt_bf16_f32) (constant S4000x128 .f32 0x00000000#32))
      (matmul dot_S4000x128_S128x128_S4000x128_1_0_0_1_n_n none
        (shapeCast S4000x128 x2 shapeCasts_S4000x128_S4000x128 : FVec Ideal S4000x128 .bf16)
        (truncf .bf16 x4 bitsLt_bf16_f32) (constant S4000x128 .f32 0x00000000#32)))
    (broadcastTo S4000x128 (shapeCast S1x128 x5 shapeCasts_S1x128_S1x128) broadcasts_S1x128_S4000x128)

/-- Entry (p, q) of the block before normalisation is the specification's. -/
theorem preBlock_apply (x0 : Vec Ideal S4000x128 .f32) (x1 : Vec Ideal S4000x1 .f32) (x2 : Vec Ideal S4000x128 .bf16)
    (x3 x4 : Vec Ideal S128x128 .f32) (x5 : Vec Ideal S1x128 .f32) (p : Fin 4000) (q : Fin 128) :
    preBlock x0 x1 x2 x3 x4 x5 (ix2 p q)
      = pre (mat x0) (fun r => x1 (ix2 r (0 : Fin 1))) (mat x2) (mat x3) (mat x4) (fun c => x5 (ix2 (0 : Fin 1) c)) p q := by
  unfold preBlock pre
  refine (addf_apply _ _ _).trans ?_
  refine congrArg₂ HAdd.hAdd ((addf_apply _ _ _).trans (congrArg₂ HAdd.hAdd ?_ ?_)) ?_
  · refine (blockProduct_apply _ _ p q).trans ?_
    refine Finset.sum_congr rfl fun k _ => ?_
    refine congrArg₂ HMul.hMul ?_ rfl
    show (shapeCast S4000x128 x0 shapeCasts_S4000x128_S4000x128 (ix2 p k) : EReal)
        * broadcastTo S4000x128 (shapeCast S4000x1 x1 shapeCasts_S4000x1_S4000x1) broadcasts_S4000x1_S4000x128 (ix2 p k)
      = x0 (ix2 p k) * x1 (ix2 p (0 : Fin 1))
    rw [shapeCast_self, shapeCast_self, columnBroadcast_apply]
  · refine (blockProduct_apply _ _ p q).trans ?_
    refine Finset.sum_congr rfl fun k _ => ?_
    rw [shapeCast_self]
    rfl
  · refine (rowBroadcast_apply _ p q).trans ?_
    rw [shapeCast_self]

/-- The normalised block: each row of the block before normalisation divided by the larger of its norm and the
    small literal. -/
def normBlock (x0 : Vec Ideal S4000x128 .f32) (x1 : Vec Ideal S4000x1 .f32) (x2 : Vec Ideal S4000x128 .bf16)
    (x3 x4 : Vec Ideal S128x128 .f32) (x5 : Vec Ideal S1x128 .f32) : FVec Ideal S4000x128 .f32 :=
  (divf (preBlock x0 x1 x2 x3 x4 x5)
          (broadcastTo S4000x128 (maximumf (sqrt (shapeCast S4000x1
            (multiReduction .add [1] S4000 (mulf (preBlock x0 x1 x2 x3 x4 x5) (preBlock x0 x1 x2 x3 x4 x5)) 0x00000000#32 reduces_S4000x128_S4000 (.inl rfl) rfl)
            shapeCasts_S4000_S4000x1)) (broadcast S4000x1 (Scalar.ofBits .f32 0x2B8CBCCC#32))) broadcasts_S4000x1_S4000x128))

/-- Entry (p, q) of the normalised block is the specification's second-layer combine. -/
theorem normBlock_apply (x0 : Vec Ideal S4000x128 .f32) (x1 : Vec Ideal S4000x1 .f32) (x2 : Vec Ideal S4000x128 .bf16)
    (x3 x4 : Vec Ideal S128x128 .f32) (x5 : Vec Ideal S1x128 .f32) (p : Fin 4000) (q : Fin 128) :
    normBlock x0 x1 x2 x3 x4 x5 (ix2 p q) = comb2 (mat x0) (fun r => x1 (ix2 r (0 : Fin 1))) (mat x2) (mat x3) (mat x4) (fun c => x5 (ix2 (0 : Fin 1) c)) p q := by
  unfold normBlock comb2 l2n
  refine (divf_apply _ _ _).trans ?_
  refine congrArg₂ Ideal.div (preBlock_apply x0 x1 x2 x3 x4 x5 p q) ?_
  refine (columnBroadcast_apply _ p q).trans ?_
  refine congrArg₂ max (congrArg Ideal.sqrt ?_) rfl
  refine (columnCast_apply _ p).trans ?_
  refine (laneSum_apply _ _ _ p).trans ?_
  refine Finset.sum_congr rfl fun k _ => ?_
  exact congrArg₂ HMul.hMul (preBlock_apply x0 x1 x2 x3 x4 x5 p k) (preBlock_apply x0 x1 x2 x3 x4 x5 p k)

/-- The first-layer block (launch 2) at entry (p, q): the normalised block clamped below at zero. -/
theorem k2_pay1_apply (x0 : Vec Ideal S4000x128 .f32) (x1 : Vec Ideal S4000x1 .f32) (x2 : Vec Ideal S4000x128 .bf16)
    (x3 x4 : Vec Ideal S128x128 .f32) (x5 : Vec Ideal S1x128 .f32) (p : Fin 4000) (q : Fin 128) :
    k2_pay1 (F := Ideal) x0 x1 x2 x3 x4 x5 (ix2 p q) = comb1 (mat x0) (fun r => x1 (ix2 r (0 : Fin 1))) (mat x2) (mat x3) (mat x4) (fun c => x5 (ix2 (0 : Fin 1) c)) p q := by
  have e : k2_pay1 (F := Ideal) x0 x1 x2 x3 x4 x5
      = truncf .bf16 (maximumf (normBlock x0 x1 x2 x3 x4 x5) (broadcast S4000x128 (Scalar.ofBits .f32 0x00000000#32))) bitsLt_bf16_f32 := rfl
  rw [e]
  show max (normBlock x0 x1 x2 x3 x4 x5 (ix2 p q)) (Ideal.ofBits .f32 0x00000000#32) = _
  rw [normBlock_apply, Ideal.ofBits_zero_f32]
  rfl

/-- The first-layer block (launch 3) at entry (p, q): the normalised block clamped below at zero. -/
theorem k3_pay1_apply (x0 : Vec Ideal S4000x128 .f32) (x1 : Vec Ideal S4000x1 .f32) (x2 : Vec Ideal S4000x128 .bf16)
    (x3 x4 : Vec Ideal S128x128 .f32) (x5 : Vec Ideal S1x128 .f32) (p : Fin 4000) (q : Fin 128) :
    k3_pay1 (F := Ideal) x0 x1 x2 x3 x4 x5 (ix2 p q) = comb1 (mat x0) (fun r => x1 (ix2 r (0 : Fin 1))) (mat x2) (mat x3) (mat x4) (fun c => x5 (ix2 (0 : Fin 1) c)) p q := by
  have e : k3_pay1 (F := Ideal) x0 x1 x2 x3 x4 x5
      = truncf .bf16 (maximumf (normBlock x0 x1 x2 x3 x4 x5) (broadcast S4000x128 (Scalar.ofBits .f32 0x00000000#32))) bitsLt_bf16_f32 := rfl
  rw [e]
  show max (normBlock x0 x1 x2 x3 x4 x5 (ix2 p q)) (Ideal.ofBits .f32 0x00000000#32) = _
  rw [normBlock_apply, Ideal.ofBits_zero_f32]
  rfl

/-- The second-layer block (launch 4) at entry (p, q): the normalised block. -/
theorem k4_pay1_apply (x0 : Vec Ideal S4000x128 .f32) (x1 : Vec Ideal S4000x1 .f32) (x2 : Vec Ideal S4000x128 .bf16)
    (x3 x4 : Vec Ideal S128x128 .f32) (x5 : Vec Ideal S1x128 .f32) (p : Fin 4000) (q : Fin 128) :
    k4_pay1 (F := Ideal) x0 x1 x2 x3 x4 x5 (ix2 p q) = comb2 (mat x0) (fun r => x1 (ix2 r (0 : Fin 1))) (mat x2) (mat x3) (mat x4) (fun c => x5 (ix2 (0 : Fin 1) c)) p q := by
  have e : k4_pay1 (F := Ideal) x0 x1 x2 x3 x4 x5
      = truncf .bf16 (normBlock x0 x1 x2 x3 x4 x5) bitsLt_bf16_f32 := rfl
  rw [e]
  exact normBlock_apply x0 x1 x2 x3 x4 x5 p q

/-- The second-layer block (launch 5) at entry (p, q): the normalised block. -/
theorem k5_pay1_apply (x0 : Vec Ideal S4000x128 .f32) (x1 : Vec Ideal S4000x1 .f32) (x2 : Vec Ideal S4000x128 .bf16)
    (x3 x4 : Vec Ideal S128x128 .f32) (x5 : Vec Ideal S1x128 .f32) (p : Fin 4000) (q : Fin 128) :
    k5_pay1 (F := Ideal) x0 x1 x2 x3 x4 x5 (ix2 p q) = comb2 (mat x0) (fun r => x1 (ix2 r (0 : Fin 1))) (mat x2) (mat x3) (mat x4) (fun c => x5 (ix2 (0 : Fin 1) c)) p q := by
  have e : k5_pay1 (F := Ideal) x0 x1 x2 x3 x4 x5
      = truncf .bf16 (normBlock x0 x1 x2 x3 x4 x5) bitsLt_bf16_f32 := rfl
  rw [e]
  exact normBlock_apply x0 x1 x2 x3 x4 x5 p q

end Cert.KernelIdeal.StageValue

end
-- ==== Proof.CombRegionNarrow.lean ====
/-
  From blocks to arrays: each combine launch leaves, in its output array, the stage specification's combine of
  its input arrays, row by row.

  Every launch walks its rows in blocks of 4000: grid point t reads rows 4000·t … 4000·t + 3999 of the
  neighbour sum, the reciprocal count and the own rows, the two weight matrices and the bias whole, and writes
  the same rows of the output. The combine stage is row-local (an output row depends on the same row of the
  row-indexed inputs only), so block t of the output is block t of the whole-array combine; the blocks tile the
  array (row i lies in block i / 4000).
-/
import proofs.«118754_j70248485094040_2_alg».proof.Proof.CombRegionBlock

set_option maxRecDepth 16384

noncomputable section

namespace Cert.KernelIdeal.StageValue

open Cert.KernelIdeal Cert.KernelIdeal.Gen Idealize.ShloMosaic Idealize.ShloMosaic.ValueIdx Cert.StageSpec
open Idealize.ShloMosaic.TcCoe Idealize.SL.Sem
open Idealize.ShloMosaic.Pipeline (Dat Cfg Window)

/-- The zero offset of a whole-block access. -/
theorem zeroOffset : (![0, 0] : Fin 2 → Nat) = fun _ => 0 := funext fun a => by fin_cases a <;> rfl

/-- The combine stage is row-local: entry (i, j) reads row i of the three row-indexed inputs only (and all of the
    weights and the bias), so two sets of inputs that agree there give the same entry. -/
theorem comb2_row_congr {M M' H : Nat} {agg : Fin M → Fin H → EReal} {agg' : Fin M' → Fin H → EReal}
    {invc : Fin M → EReal} {invc' : Fin M' → EReal} {h : Fin M → Fin H → EReal} {h' : Fin M' → Fin H → EReal}
    {wl wl' wr wr' : Fin H → Fin H → EReal} {b b' : Fin H → EReal} {i : Fin M} {i' : Fin M'}
    (ha : ∀ k, agg i k = agg' i' k) (hc : invc i = invc' i') (hh : ∀ k, h i k = h' i' k)
    (hwl : ∀ k j, wl k j = wl' k j) (hwr : ∀ k j, wr k j = wr' k j) (hb : ∀ j, b j = b' j) (j : Fin H) :
    comb2 agg invc h wl wr b i j = comb2 agg' invc' h' wl' wr' b' i' j := by
  unfold comb2 l2n pre
  simp only [ha, hc, hh, hwl, hwr, hb]

/-- The same for the first-layer stage: the clamp is entrywise. -/
theorem comb1_row_congr {M M' H : Nat} {agg : Fin M → Fin H → EReal} {agg' : Fin M' → Fin H → EReal}
    {invc : Fin M → EReal} {invc' : Fin M' → EReal} {h : Fin M → Fin H → EReal} {h' : Fin M' → Fin H → EReal}
    {wl wl' wr wr' : Fin H → Fin H → EReal} {b b' : Fin H → EReal} {i : Fin M} {i' : Fin M'}
    (ha : ∀ k, agg i k = agg' i' k) (hc : invc i = invc' i') (hh : ∀ k, h i k = h' i' k)
    (hwl : ∀ k j, wl k j = wl' k j) (hwr : ∀ k j, wr k j = wr' k j) (hb : ∀ j, b j = b' j) (j : Fin H) :
    comb1 agg invc h wl wr b i j = comb1 agg' invc' h' wl' wr' b' i' j := by
  unfold comb1 relu l2n pre
  simp only [ha, hc, hh, hwl, hwr, hb]

/-! ## Launch 2: rows of main_v43 -/

/-- The block indices of launch 2, at each of its 5 grid points: the three row-indexed inputs and the
    output sit at block row t and block column 0; the weights and the bias are the one whole block. -/
theorem blockIndex2 : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row p of block t is row 4000·t + p of the array. -/
def blockRow2 (t : Fin cfg2.N) (p : Fin 4000) : Fin 20000 :=
  ⟨4000 * t.val + p.val, by have := t.isLt; have := p.isLt; have h : cfg2.N = 5 := rfl; omega⟩

/-- The whole-array function launch 2 computes. -/
abbrev stage2 (V : (c : Dev nD) → (b : Ref sig .tc) → Buf (Elt Ideal) ((c : Thread nD τ).loc b)) (c : Dev nD)
    (invc : Fin 20000 → EReal) (b : Fin 128 → EReal) : S20000x128.Idx → EReal :=
  fun i => comb1 (mat (V c main_v29)) invc (mat (V c main_v18)) (mat (V c main_arg10)) (mat (V c main_arg12)) b (i 0) (i 1)

/-- What grid point t writes back is block t of that function. -/
theorem flushed2_eq (V : (c : Dev nD) → (b : Ref sig .tc) → Buf (Elt Ideal) ((c : Thread nD τ).loc b)) (c : Dev nD)
    (invc : Fin 20000 → EReal) (b : Fin 128 → EReal)
    (hinv : ∀ i : Fin 20000, V c main_v41 (ix2 i (0 : Fin 1)) = invc i) (hb : ∀ j : Fin 128, V c main_v42 (ix2 (0 : Fin 1) j) = b j)
    (t : Fin cfg2.N) :
    (dat2 (F := Ideal) V c).flushed 6 t = ((cfg2.win 6).blk t).view.read (Elt Ideal) (stage2 V c invc b) := by
  show (cfg2.win 6).cut (grid2.coords t) ((dat2 (F := Ideal) V c).after 6 t) = _
  rw [after2_6]
  unfold out2_6
  rw [View.canon_unit_zero zeroOffset]
  simp only [View.ld_unit_zero (S := S4000x128) zeroOffset, View.ld_unit_zero (S := S4000x1) zeroOffset,
    View.ld_unit_zero (S := S128x128) zeroOffset, View.ld_unit_zero (S := S1x128) zeroOffset]
  obtain ⟨e60, e61, e00, e01, e10, e11, e20, e21, e30, e31, e40, e41, e50, e51⟩ := blockIndex2 t
  funext j
  obtain ⟨p, q, rfl⟩ : ∃ (p : Fin 4000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = stage2 V c invc b (((cfg2.win 6).blk t).view.emb (ix2 p q))
  refine (k2_pay1_apply (iblk2 V c 0 t) (iblk2 V c 1 t) (iblk2 V c 2 t) (iblk2 V c 3 t) (iblk2 V c 4 t) (iblk2 V c 5 t) p q).trans ?_
  have hout : ((cfg2.win 6).blk t).view.emb (ix2 p q) = ix2 (blockRow2 t p) q := by
    funext a; apply Fin.ext
    match a with
    | ⟨0, _⟩ => show win2_6.index t (0 : Fin 2) * 4000 + 1 * p.val = 4000 * t.val + p.val; omega
    | ⟨1, _⟩ => show win2_6.index t (1 : Fin 2) * 128 + 1 * q.val = q.val; omega
  refine Eq.trans ?_ (congrArg (stage2 V c invc b) hout).symm
  show comb1 _ _ _ _ _ _ p q
    = comb1 (mat (V c main_v29)) invc (mat (V c main_v18)) (mat (V c main_arg10)) (mat (V c main_arg12)) b (blockRow2 t p) q
  refine comb1_row_congr ?_ ?_ ?_ ?_ ?_ ?_ q
  · intro k
    show V c main_v29 (((cfg2.win 0).blk t).view.emb (ix2 p k)) = V c main_v29 (ix2 (blockRow2 t p) k)
    refine congrArg (V c main_v29) ?_
    funext a; apply Fin.ext
    match a with
    | ⟨0, _⟩ => show win2_0.index t (0 : Fin 2) * 4000 + 1 * p.val = 4000 * t.val + p.val; omega
    | ⟨1, _⟩ => show win2_0.index t (1 : Fin 2) * 128 + 1 * k.val = k.val; omega
  · show V c main_v41 (((cfg2.win 1).blk t).view.emb (ix2 p (0 : Fin 1))) = invc (blockRow2 t p)
    refine Eq.trans (congrArg (V c main_v41) ?_) (hinv (blockRow2 t p))
    funext a; apply Fin.ext
    match a with
    | ⟨0, _⟩ => show win2_1.index t (0 : Fin 2) * 4000 + 1 * p.val = 4000 * t.val + p.val; omega
    | ⟨1, _⟩ => show win2_1.index t (1 : Fin 2) * 1 + 1 * (0 : Fin 1).val = (0 : Fin 1).val; omega
  · intro k
    show V c main_v18 (((cfg2.win 2).blk t).view.emb (ix2 p k)) = V c main_v18 (ix2 (blockRow2 t p) k)
    refine congrArg (V c main_v18) ?_
    funext a; apply Fin.ext
    match a with
    | ⟨0, _⟩ => show win2_2.index t (0 : Fin 2) * 4000 + 1 * p.val = 4000 * t.val + p.val; omega
    | ⟨1, _⟩ => show win2_2.index t (1 : Fin 2) * 128 + 1 * k.val = k.val; omega
  · intro k j
    show V c main_arg10 (((cfg2.win 3).blk t).view.emb (ix2 k j)) = V c main_arg10 (ix2 k j)
    refine congrArg (V c main_arg10) ?_
    generalize (ix2 k j : S128x128.Idx) = y
    funext a; apply Fin.ext
    match a with
    | ⟨0, _⟩ => show win2_3.index t (0 : Fin 2) * 128 + 1 * (y 0).val = (y 0).val; omega
    | ⟨1, _⟩ => show win2_3.index t (1 : Fin 2) * 128 + 1 * (y 1).val = (y 1).val; omega
  · intro k j
    show V c main_arg12 (((cfg2.win 4).blk t).view.emb (ix2 k j)) = V c main_arg12 (ix2 k j)
    refine congrArg (V c main_arg12) ?_
    generalize (ix2 k j : S128x128.Idx) = y
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  · intro j
    show V c main_v42 (((cfg2.win 5).blk t).view.emb (ix2 (0 : Fin 1) j)) = b j
    refine Eq.trans (congrArg (V c main_v42) ?_) (hb j)
    generalize (ix2 (0 : Fin 1) j : S1x128.Idx) = y
    funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega

/-- An index of main_v43 lies in block t exactly when each coordinate lies in the block's range on its axis. -/
theorem mem_block2 (t : Fin cfg2.N) (i : S20000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v43).slice (win2_6.rect t)).set ↔ _
  rw [View.set_slice_whole, Rect.mem_set_unit]
  exact Iff.rfl

/-- The blocks tile the array: row i lies in block i / 4000, and every point writes its block back. -/
theorem cover2 (i : S20000x128.Idx) :
    ∃ t : Fin cfg2.N, (cfg2.win 6).flush t = true ∧ i ∈ ((cfg2.win 6).blk t).view.set := by
  have hi0 : (i 0).val < 20000 := (i 0).isLt
  have hi1 : (i 1).val < 128 := (i 1).isLt
  have hN : cfg2.N = 5 := rfl
  let t : Fin cfg2.N := ⟨(i 0).val / 4000, by omega⟩
  have ht : t.val = (i 0).val / 4000 := rfl
  obtain ⟨e60, e61, _⟩ := blockIndex2 t
  refine ⟨t, flush2_6 t, ?_⟩
  rw [mem_block2]
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 128 ≤ (i 1).val ∧ (i 1).val < win2_6.index t (1 : Fin 2) * 128 + 128
    omega

/-- The output array of launch 2, entry by entry: the stage specification's combine of the arrays the launch finds. -/
theorem comb2_value (V : (c : Dev nD) → (b : Ref sig .tc) → Buf (Elt Ideal) ((c : Thread nD τ).loc b)) (c : Dev nD)
    (invc : Fin 20000 → EReal) (b : Fin 128 → EReal)
    (hinv : ∀ i : Fin 20000, V c main_v41 (ix2 i (0 : Fin 1)) = invc i) (hb : ∀ j : Fin 128, V c main_v42 (ix2 (0 : Fin 1) j) = b j)
    (i : Fin 20000) (j : Fin 128) :
    (dat2 (F := Ideal) V c).arrAt 6 cfg2.N (ix2 i j)
      = comb1 (mat (V c main_v29)) invc (mat (V c main_v18)) (mat (V c main_arg10)) (mat (V c main_arg12)) b i j :=
  congrFun ((dat2 (F := Ideal) V c).arrAt_eq_of_cover 6 (stage2 V c invc b)
    (fun t _ => flushed2_eq V c invc b hinv hb t) cover2) (ix2 i j)

/-! ## Launch 4: rows of main_v71 -/

/-- The block indices of launch 4, at each of its 5 grid points: the three row-indexed inputs and the
    output sit at block row t and block column 0; the weights and the bias are the one whole block. -/
theorem blockIndex4 : ∀ t : Fin cfg4.N,
    win4_6.index t (0 : Fin 2) = t.val ∧ win4_6.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row p of block t is row 4000·t + p of the array. -/
def blockRow4 (t : Fin cfg4.N) (p : Fin 4000) : Fin 20000 :=
  ⟨4000 * t.val + p.val, by have := t.isLt; have := p.isLt; have h : cfg4.N = 5 := rfl; omega⟩

/-- The whole-array function launch 4 computes. -/
abbrev stage4 (V : (c : Dev nD) → (b : Ref sig .tc) → Buf (Elt Ideal) ((c : Thread nD τ).loc b)) (c : Dev nD)
    (invc : Fin 20000 → EReal) (b : Fin 128 → EReal) : S20000x128.Idx → EReal :=
  fun i => comb2 (mat (V c main_v57)) invc (mat (V c main_v43)) (mat (V c main_arg16)) (mat (V c main_arg18)) b (i 0) (i 1)

/-- What grid point t writes back is block t of that function. -/
theorem flushed4_eq (V : (c : Dev nD) → (b : Ref sig .tc) → Buf (Elt Ideal) ((c : Thread nD τ).loc b)) (c : Dev nD)
    (invc : Fin 20000 → EReal) (b : Fin 128 → EReal)
    (hinv : ∀ i : Fin 20000, V c main_v69 (ix2 i (0 : Fin 1)) = invc i) (hb : ∀ j : Fin 128, V c main_v70 (ix2 (0 : Fin 1) j) = b j)
    (t : Fin cfg4.N) :
    (dat4 (F := Ideal) V c).flushed 6 t = ((cfg4.win 6).blk t).view.read (Elt Ideal) (stage4 V c invc b) := by
  show (cfg4.win 6).cut (grid4.coords t) ((dat4 (F := Ideal) V c).after 6 t) = _
  rw [after4_6]
  unfold out4_6
  rw [View.canon_unit_zero zeroOffset]
  simp only [View.ld_unit_zero (S := S4000x128) zeroOffset, View.ld_unit_zero (S := S4000x1) zeroOffset,
    View.ld_unit_zero (S := S128x128) zeroOffset, View.ld_unit_zero (S := S1x128) zeroOffset]
  obtain ⟨e60, e61, e00, e01, e10, e11, e20, e21, e30, e31, e40, e41, e50, e51⟩ := blockIndex4 t
  funext j
  obtain ⟨p, q, rfl⟩ : ∃ (p : Fin 4000) (q : Fin 128), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (ix2 p q)
    = stage4 V c invc b (((cfg4.win 6).blk t).view.emb (ix2 p q))
  refine (k4_pay1_apply (iblk4 V c 0 t) (iblk4 V c 1 t) (iblk4 V c 2 t) (iblk4 V c 3 t) (iblk4 V c 4 t) (iblk4 V c 5 t) p q).trans ?_
  have hout : ((cfg4.win 6).blk t).view.emb (ix2 p q) = ix2 (blockRow4 t p) q := by
    funext a; apply Fin.ext
    match a with
    | ⟨0, _⟩ => show win4_6.index t (0 : Fin 2) * 4000 + 1 * p.val = 4000 * t.val + p.val; omega
    | ⟨1, _⟩ => show win4_6.index t (1 : Fin 2) * 128 + 1 * q.val = q.val; omega
  refine Eq.trans ?_ (congrArg (stage4 V c invc b) hout).symm
  show comb2 _ _ _ _ _ _ p q
    = comb2 (mat (V c main_v57)) invc (mat (V c main_v43)) (mat (V c main_arg16)) (mat (V c main_arg18)) b (blockRow4 t p) q
  refine comb2_row_congr ?_ ?_ ?_ ?_ ?_ ?_ q
  · intro k
    show V c main_v57 (((cfg4.win 0).blk t).view.emb (ix2 p k)) = V c main_v57 (ix2 (blockRow4 t p) k)
    refine congrArg (V c main_v57) ?_
    funext a; apply Fin.ext
    match a with
    | ⟨0, _⟩ => show win4_0.index t (0 : Fin 2) * 4000 + 1 * p.val = 4000 * t.val + p.val; omega
    | ⟨1, _⟩ => show win4_0.index t (1 : Fin 2) * 128 + 1 * k.val = k.val; omega
  · show V c main_v69 (((cfg4.win 1).blk t).view.emb (ix2 p (0 : Fin 1))) = invc (blockRow4 t p)
    refine Eq.trans (congrArg (V c main_v69) ?_) (hinv (blockRow4 t p))
    funext a; apply Fin.ext
    match a with
    | ⟨0, _⟩ => show win4_1.index t (0 : Fin 2) * 4000 + 1 * p.val = 4000 * t.val + p.val; omega
    | ⟨1, _⟩ => show win4_1.index t (1 : Fin 2) * 1 + 1 * (0 : Fin 1).val = (0 : Fin 1).val; omega
  · intro k
    show V c main_v43 (((cfg4.win 2).blk t).view.emb (ix2 p k)) = V c main_v43 (ix2 (blockRow4 t p) k)
    refine congrArg (V c main_v43) ?_
    funext a; apply Fin.ext
    match a with
    | ⟨0, _⟩ => show win4_2.index t (0 : Fin 2) * 4000 + 1 * p.val = 4000 * t.val + p.val; omega
    | ⟨1, _⟩ => show win4_2.index t (1 : Fin 2) * 128 + 1 * k.val = k.val; omega
  · intro k j
    show V c main_arg16 (((cfg4.win 3).blk t).view.emb (ix2 k j)) = V c main_arg16 (ix2 k j)
    refine congrArg (V c main_arg16) ?_
    generalize (ix2 k j : S128x128.Idx) = y
    funext a; apply Fin.ext
    match a with
    | ⟨0, _⟩ => show win4_3.index t (0 : Fin 2) * 128 + 1 * (y 0).val = (y 0).val; omega
    | ⟨1, _⟩ => show win4_3.index t (1 : Fin 2) * 128 + 1 * (y 1).val = (y 1).val; omega
  · intro k j
    show V c main_arg18 (((cfg4.win 4).blk t).view.emb (ix2 k j)) = V c main_arg18 (ix2 k j)
    refine congrArg (V c main_arg18) ?_
    generalize (ix2 k j : S128x128.Idx) = y
    funext a; apply Fin.ext
    match a with
    | ⟨0, _⟩ => show win4_4.index t (0 : Fin 2) * 128 + 1 * (y 0).val = (y 0).val; omega
    | ⟨1, _⟩ => show win4_4.index t (1 : Fin 2) * 128 + 1 * (y 1).val = (y 1).val; omega
  · intro j
    show V c main_v70 (((cfg4.win 5).blk t).view.emb (ix2 (0 : Fin 1) j)) = b j
    refine Eq.trans (congrArg (V c main_v70) ?_) (hb j)
    generalize (ix2 (0 : Fin 1) j : S1x128.Idx) = y
    funext a; apply Fin.ext
    match a with
    | ⟨0, _⟩ => show win4_5.index t (0 : Fin 2) * 1 + 1 * (y 0).val = (y 0).val; omega
    | ⟨1, _⟩ => show win4_5.index t (1 : Fin 2) * 128 + 1 * (y 1).val = (y 1).val; omega

/-- An index of main_v71 lies in block t exactly when each coordinate lies in the block's range on its axis. -/
theorem mem_block4 (t : Fin cfg4.N) (i : S20000x128.Idx) :
    i ∈ ((cfg4.win 6).blk t).view.set ↔ ∀ a : Fin 2, win4_6.index t a * S4000x128.size a ≤ (i a).val
      ∧ (i a).val < win4_6.index t a * S4000x128.size a + S4000x128.size a := by
  show i ∈ ((View.whole main_v71).slice (win4_6.rect t)).set ↔ _
  rw [View.set_slice_whole, Rect.mem_set_unit]
  exact Iff.rfl

/-- The blocks tile the array: row i lies in block i / 4000, and every point writes its block back. -/
theorem cover4 (i : S20000x128.Idx) :
    ∃ t : Fin cfg4.N, (cfg4.win 6).flush t = true ∧ i ∈ ((cfg4.win 6).blk t).view.set := by
  have hi0 : (i 0).val < 20000 := (i 0).isLt
  have hi1 : (i 1).val < 128 := (i 1).isLt
  have hN : cfg4.N = 5 := rfl
  let t : Fin cfg4.N := ⟨(i 0).val / 4000, by omega⟩
  have ht : t.val = (i 0).val / 4000 := rfl
  obtain ⟨e60, e61, _⟩ := blockIndex4 t
  refine ⟨t, flush4_6 t, ?_⟩
  rw [mem_block4]
  intro a
  match a with
  | ⟨0, _⟩ =>
    show win4_6.index t (0 : Fin 2) * 4000 ≤ (i 0).val ∧ (i 0).val < win4_6.index t (0 : Fin 2) * 4000 + 4000
    omega
  | ⟨1, _⟩ =>
    show win4_6.index t (1 : Fin 2) * 128 ≤ (i 1).val ∧ (i 1).val < win4_6.index t (1 : Fin 2) * 128 + 128
    omega

/-- The output array of launch 4, entry by entry: the stage specification's combine of the arrays the launch finds. -/
theorem comb4_value (V : (c : Dev nD) → (b : Ref sig .tc) → Buf (Elt Ideal) ((c : Thread nD τ).loc b)) (c : Dev nD)
    (invc : Fin 20000 → EReal) (b : Fin 128 → EReal)
    (hinv : ∀ i : Fin 20000, V c main_v69 (ix2 i (0 : Fin 1)) = invc i) (hb : ∀ j : Fin 128, V c main_v70 (ix2 (0 : Fin 1) j) = b j)
    (i : Fin 20000) (j : Fin 128) :
    (dat4 (F := Ideal) V c).arrAt 6 cfg4.N (ix2 i j)
      = comb2 (mat (V c main_v57)) invc (mat (V c main_v43)) (mat (V c main_arg16)) (mat (V c main_arg18)) b i j :=
  congrFun ((dat4 (F := Ideal) V c).arrAt_eq_of_cover 6 (stage4 V c invc b)
    (fun t _ => flushed4_eq V c invc b hinv hb t) cover4) (ix2 i j)

end Cert.KernelIdeal.StageValue

end
-- ==== Proof.CombRegionWide.lean ====
/-
  The two wide combine stages (the ones over the 100000-row side), read off the kernel program: after each of
  these regions its output array is, entry by entry, the stage specification's combine of the arrays the region
  finds.

  Entry (i, j) of a combine depends on row i of the neighbour sum, on the reciprocal count of row i, on row i of
  the node's own features, and on the whole of the two weight matrices and the bias row: the row sum of squares
  inside the normalisation ranges over one row only. So a block of 4000 rows of the result is the combine of the
  matching blocks of the three row-indexed operands, and since the row blocks tile the output array (point t
  holds rows 4000·t … 4000·t + 3999) the whole array is the combine of the whole operands. The reciprocal
  count and the bias enter through hypotheses on the one-column and one-row arrays the region finds.
-/
import proofs.«118754_j70248485094040_2_alg».proof.Proof.StageSpec
import proofs.«118754_j70248485094040_2_alg».proof.Proof.Gen.KernelIdeal.Frame
import proofs.«118754_j70248485094040_2_alg».proof.Proof.CombRegionBlock
import Idealize.ShloMosaic.Lib.ValueIdx
import Idealize.ShloMosaic.Lib.Pipeline.Value

set_option maxRecDepth 16384

noncomputable section

namespace Cert.KernelIdeal.CombWide

open Cert.KernelIdeal Cert.KernelIdeal.Gen Idealize.ShloMosaic Idealize.ShloMosaic.TcCoe Idealize.ShloMosaic.ValueIdx Cert.StageSpec

/-- The all-zero offset of a whole-block load or store, in the form the library's lemmas take. -/
theorem zero_offset : (![0, 0] : Fin 2 → Nat) = fun _ => 0 := funext fun a => by fin_cases a <;> rfl

/-! ## A combine's entry depends on one row of the row-indexed operands -/

/-- The pre-normalisation entry (i, j) from row i of the neighbour sum and of the own features and the count
    of row i: two operand families that agree there (and in the weights and bias) give the same entry. -/
theorem pre_row {M M' H : Nat} (agg : Fin M → Fin H → EReal) (invc : Fin M → EReal) (h : Fin M → Fin H → EReal)
    (wl wr : Fin H → Fin H → EReal) (b : Fin H → EReal)
    (agg' : Fin M' → Fin H → EReal) (invc' : Fin M' → EReal) (h' : Fin M' → Fin H → EReal)
    (wl' wr' : Fin H → Fin H → EReal) (b' : Fin H → EReal) (i : Fin M) (i' : Fin M')
    (hagg : ∀ k, agg i k = agg' i' k) (hinv : invc i = invc' i') (hh : ∀ k, h i k = h' i' k)
    (hwl : ∀ k j, wl k j = wl' k j) (hwr : ∀ k j, wr k j = wr' k j) (hb : ∀ j, b j = b' j) (j : Fin H) :
    pre agg invc h wl wr b i j = pre agg' invc' h' wl' wr' b' i' j := by
  unfold pre
  rw [hinv, hb j]
  exact congrArg (· + b' j) (congrArg₂ (· + ·)
    (Finset.sum_congr rfl fun k _ => by rw [hagg k, hwl k j])
    (Finset.sum_congr rfl fun k _ => by rw [hh k, hwr k j]))

/-- Normalising a row uses that row only. -/
theorem l2n_row {M M' H : Nat} (y : Fin M → Fin H → EReal) (y' : Fin M' → Fin H → EReal) (i : Fin M) (i' : Fin M')
    (hy : ∀ j, y i j = y' i' j) (j : Fin H) : l2n y i j = l2n y' i' j := by
  unfold l2n
  rw [hy j]
  exact congrArg (fun s => Ideal.div (y' i' j) (max (Ideal.sqrt s) eps)) (Finset.sum_congr rfl fun k _ => by rw [hy k])

/-- The second-layer combine's entry (i, j) from row i. -/
theorem comb2_row {M M' H : Nat} (agg : Fin M → Fin H → EReal) (invc : Fin M → EReal) (h : Fin M → Fin H → EReal)
    (wl wr : Fin H → Fin H → EReal) (b : Fin H → EReal)
    (agg' : Fin M' → Fin H → EReal) (invc' : Fin M' → EReal) (h' : Fin M' → Fin H → EReal)
    (wl' wr' : Fin H → Fin H → EReal) (b' : Fin H → EReal) (i : Fin M) (i' : Fin M')
    (hagg : ∀ k, agg i k = agg' i' k) (hinv : invc i = invc' i') (hh : ∀ k, h i k = h' i' k)
    (hwl : ∀ k j, wl k j = wl' k j) (hwr : ∀ k j, wr k j = wr' k j) (hb : ∀ j, b j = b' j) (j : Fin H) :
    comb2 agg invc h wl wr b i j = comb2 agg' invc' h' wl' wr' b' i' j := by
  unfold comb2
  exact l2n_row _ _ i i' (fun j' => pre_row agg invc h wl wr b agg' invc' h' wl' wr' b' i i' hagg hinv hh hwl hwr hb j') j

/-- The first-layer combine's entry (i, j) from row i. -/
theorem comb1_row {M M' H : Nat} (agg : Fin M → Fin H → EReal) (invc : Fin M → EReal) (h : Fin M → Fin H → EReal)
    (wl wr : Fin H → Fin H → EReal) (b : Fin H → EReal)
    (agg' : Fin M' → Fin H → EReal) (invc' : Fin M' → EReal) (h' : Fin M' → Fin H → EReal)
    (wl' wr' : Fin H → Fin H → EReal) (b' : Fin H → EReal) (i : Fin M) (i' : Fin M')
    (hagg : ∀ k, agg i k = agg' i' k) (hinv : invc i = invc' i') (hh : ∀ k, h i k = h' i' k)
    (hwl : ∀ k j, wl k j = wl' k j) (hwr : ∀ k j, wr k j = wr' k j) (hb : ∀ j, b j = b' j) (j : Fin H) :
    comb1 agg invc h wl wr b i j = comb1 agg' invc' h' wl' wr' b' i' j := by
  unfold comb1 relu
  exact congrArg (max · 0)
    (l2n_row _ _ i i' (fun j' => pre_row agg invc h wl wr b agg' invc' h' wl' wr' b' i i' hagg hinv hh hwl hwr hb j') j)

/-- The first-layer combine as a function on the output array's indices. -/
abbrev combArr1 (agg : S100000x128.Idx → EReal) (invc : Fin 100000 → EReal) (h : S100000x128.Idx → EReal)
    (wl wr : S128x128.Idx → EReal) (b : Fin 128 → EReal) : S100000x128.Idx → EReal :=
  fun i => comb1 (mat agg) invc (mat h) (mat wl) (mat wr) b (i 0) (i 1)

/-- The second-layer combine as a function on the output array's indices. -/
abbrev combArr2 (agg : S100000x128.Idx → EReal) (invc : Fin 100000 → EReal) (h : S100000x128.Idx → EReal)
    (wl wr : S128x128.Idx → EReal) (b : Fin 128 → EReal) : S100000x128.Idx → EReal :=
  fun i => comb2 (mat agg) invc (mat h) (mat wl) (mat wr) b (i 0) (i 1)

/-! ## From the blocks to the array: region 3 -/

/-- The printed index maps, decided over the 25 grid points: the row-indexed windows (neighbour sum, count, own
    rows, output) sit at row block t, the weight and bias windows at the origin. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of the combine of the arrays the region finds. -/
theorem flushed3_eq (V : (c : Dev nD) → (b : Ref sig .tc) → Buf (Elt Ideal) ((c : Thread nD τ).loc b)) (c : Dev nD)
    (invc : Fin 100000 → EReal) (b : Fin 128 → EReal)
    (hinv : ∀ i : Fin 100000, V c main_v44 (ix2 i (0 : Fin 1)) = invc i)
    (hb : ∀ j : Fin 128, V c main_v45 (ix2 (0 : Fin 1) j) = b j) (t : Fin cfg3.N) :
    (dat3 (F := Ideal) V c).flushed 6 t
      = ((cfg3.win 6).blk t).view.read (Elt Ideal)
          (combArr1 (V c main_v40) invc (V c main_v16) (V c main_arg13) (V c main_arg15) b) := by
  show (cfg3.win 6).cut (grid3.coords t) ((dat3 V c).after 6 t) = _
  rw [after3_6]
  unfold out3_6
  rw [View.canon_unit_zero zero_offset]
  simp only [View.ld_unit_zero (S := S4000x128) zero_offset, View.ld_unit_zero (S := S4000x1) zero_offset,
    View.ld_unit_zero (S := S128x128) zero_offset, View.ld_unit_zero (S := S1x128) zero_offset]
  obtain ⟨e00, e01, e10, e11, e20, e21, e30, e31, e40, e41, e50, e51, e60, e61⟩ := index_facts3 t
  refine funext fun (j : S4000x128.Idx) => ?_
  obtain ⟨p, q, rfl⟩ : ∃ (p : Fin 4000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 p q)
    = combArr1 (V c main_v40) invc (V c main_v16) (V c main_arg13) (V c main_arg15) b (((cfg3.win 6).blk t).view.emb (ix2 p q))
  refine (StageValue.k3_pay1_apply (iblk3 V c 0 t) (iblk3 V c 1 t) (iblk3 V c 2 t) (iblk3 V c 3 t) (iblk3 V c 4 t) (iblk3 V c 5 t) p q).trans ?_
  have ht : t.val < 25 := t.isLt
  -- the row of the array that row p of block t is
  let row : Fin 100000 := ⟨t.val * 4000 + p.val, by have := p.isLt; omega⟩
  have hout : ((cfg3.win 6).blk t).view.emb (ix2 p q) = ix2 row q := by
    funext a; apply Fin.ext
    match a with
    | ⟨0, _⟩ => show win3_6.index t (0 : Fin 2) * 4000 + 1 * p.val = t.val * 4000 + p.val; omega
    | ⟨1, _⟩ => show win3_6.index t (1 : Fin 2) * 128 + 1 * q.val = q.val; omega
  have hagg : ∀ k : Fin 128, iblk3 V c 0 t (ix2 p k) = V c main_v40 (ix2 row k) := by
    intro k
    show V c main_v40 (((cfg3.win 0).blk t).view.emb (ix2 p k)) = _
    refine congrArg (V c main_v40) (funext fun a => Fin.ext ?_)
    match a with
    | ⟨0, _⟩ => show win3_0.index t (0 : Fin 2) * 4000 + 1 * p.val = t.val * 4000 + p.val; omega
    | ⟨1, _⟩ => show win3_0.index t (1 : Fin 2) * 128 + 1 * k.val = k.val; omega
  have hcnt : iblk3 V c 1 t (ix2 p (0 : Fin 1)) = invc row := by
    refine Eq.trans ?_ (hinv row)
    show V c main_v44 (((cfg3.win 1).blk t).view.emb (ix2 p (0 : Fin 1))) = _
    refine congrArg (V c main_v44) (funext fun a => Fin.ext ?_)
    match a with
    | ⟨0, _⟩ => show win3_1.index t (0 : Fin 2) * 4000 + 1 * p.val = t.val * 4000 + p.val; omega
    | ⟨1, _⟩ => show win3_1.index t (1 : Fin 2) * 1 + 1 * 0 = 0; omega
  have hown : ∀ k : Fin 128, iblk3 V c 2 t (ix2 p k) = V c main_v16 (ix2 row k) := by
    intro k
    show V c main_v16 (((cfg3.win 2).blk t).view.emb (ix2 p k)) = _
    refine congrArg (V c main_v16) (funext fun a => Fin.ext ?_)
    match a with
    | ⟨0, _⟩ => show win3_2.index t (0 : Fin 2) * 4000 + 1 * p.val = t.val * 4000 + p.val; omega
    | ⟨1, _⟩ => show win3_2.index t (1 : Fin 2) * 128 + 1 * k.val = k.val; omega
  have hwl : ∀ (k j : Fin 128), iblk3 V c 3 t (ix2 k j) = V c main_arg13 (ix2 k j) := by
    intro k j
    show V c main_arg13 (((cfg3.win 3).blk t).view.emb (ix2 k j)) = _
    refine congrArg (V c main_arg13) (funext fun a => Fin.ext ?_)
    match a with
    | ⟨0, _⟩ => show win3_3.index t (0 : Fin 2) * 128 + 1 * k.val = k.val; omega
    | ⟨1, _⟩ => show win3_3.index t (1 : Fin 2) * 128 + 1 * j.val = j.val; omega
  have hwr : ∀ (k j : Fin 128), iblk3 V c 4 t (ix2 k j) = V c main_arg15 (ix2 k j) := by
    intro k j
    show V c main_arg15 (((cfg3.win 4).blk t).view.emb (ix2 k j)) = _
    refine congrArg (V c main_arg15) (funext fun a => Fin.ext ?_)
    match a with
    | ⟨0, _⟩ => show win3_4.index t (0 : Fin 2) * 128 + 1 * k.val = k.val; omega
    | ⟨1, _⟩ => show win3_4.index t (1 : Fin 2) * 128 + 1 * j.val = j.val; omega
  have hbias : ∀ j : Fin 128, iblk3 V c 5 t (ix2 (0 : Fin 1) j) = b j := by
    intro j
    refine Eq.trans ?_ (hb j)
    show V c main_v45 (((cfg3.win 5).blk t).view.emb (ix2 (0 : Fin 1) j)) = _
    refine congrArg (V c main_v45) (funext fun a => Fin.ext ?_)
    match a with
    | ⟨0, _⟩ => show win3_5.index t (0 : Fin 2) * 1 + 1 * 0 = 0; omega
    | ⟨1, _⟩ => show win3_5.index t (1 : Fin 2) * 128 + 1 * j.val = j.val; omega
  rw [hout]
  exact comb1_row (mat (iblk3 V c 0 t)) (fun r => iblk3 V c 1 t (ix2 r (0 : Fin 1))) (mat (iblk3 V c 2 t))
    (mat (iblk3 V c 3 t)) (mat (iblk3 V c 4 t)) (fun c' => iblk3 V c 5 t (ix2 (0 : Fin 1) c'))
    (mat (V c main_v40)) invc (mat (V c main_v16)) (mat (V c main_arg13)) (mat (V c main_arg15)) b p row
    hagg hcnt hown hwl hwr hbias q

/-- An index of the array is in point t's block iff each coordinate is in the block's range on its axis. -/
theorem mem_blk3 (t : Fin cfg3.N) (i : S100000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v46).slice (win3_6.rect t)).set ↔ _
  rw [View.set_slice_whole, Rect.mem_set_unit]
  exact Iff.rfl

/-- The row blocks tile the array: row r is in the block of point r / 4000, and every point writes back. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, htv⟩ : ∃ t : Fin cfg3.N, t.val = (i 0).val / 4000 := ⟨⟨(i 0).val / 4000, by show _ < 25; omega⟩, rfl⟩
  obtain ⟨-, -, -, -, -, -, -, -, -, -, -, -, e60, e61⟩ := index_facts3 t
  refine ⟨t, flush3_6 t, ?_⟩
  rw [mem_blk3]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 128 ≤ (i 1).val ∧ (i 1).val < win3_6.index t (1 : Fin 2) * 128 + 128; omega

/-- The region's output array after the region, entry by entry: the combine of the arrays it finds. -/
theorem comb3_value (V : (c : Dev nD) → (b : Ref sig .tc) → Buf (Elt Ideal) ((c : Thread nD τ).loc b)) (c : Dev nD)
    (invc : Fin 100000 → EReal) (b : Fin 128 → EReal)
    (hinv : ∀ i : Fin 100000, V c main_v44 (ix2 i (0 : Fin 1)) = invc i)
    (hb : ∀ j : Fin 128, V c main_v45 (ix2 (0 : Fin 1) j) = b j) (i : Fin 100000) (j : Fin 128) :
    (dat3 (F := Ideal) V c).arrAt 6 cfg3.N (ix2 i j)
      = comb1 (mat (V c main_v40)) invc (mat (V c main_v16)) (mat (V c main_arg13)) (mat (V c main_arg15)) b i j :=
  congrFun ((dat3 (F := Ideal) V c).arrAt_eq_of_cover 6
    (combArr1 (V c main_v40) invc (V c main_v16) (V c main_arg13) (V c main_arg15) b)
    (fun t _ => flushed3_eq V c invc b hinv hb t) cover3) (ix2 i j)

/-! ## From the blocks to the array: region 5 -/

/-- The printed index maps, decided over the 25 grid points: the row-indexed windows (neighbour sum, count, own
    rows, output) sit at row block t, the weight and bias windows at the origin. -/
theorem index_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What point t writes back is block t of the combine of the arrays the region finds. -/
theorem flushed5_eq (V : (c : Dev nD) → (b : Ref sig .tc) → Buf (Elt Ideal) ((c : Thread nD τ).loc b)) (c : Dev nD)
    (invc : Fin 100000 → EReal) (b : Fin 128 → EReal)
    (hinv : ∀ i : Fin 100000, V c main_v72 (ix2 i (0 : Fin 1)) = invc i)
    (hb : ∀ j : Fin 128, V c main_v73 (ix2 (0 : Fin 1) j) = b j) (t : Fin cfg5.N) :
    (dat5 (F := Ideal) V c).flushed 6 t
      = ((cfg5.win 6).blk t).view.read (Elt Ideal)
          (combArr2 (V c main_v68) invc (V c main_v46) (V c main_arg19) (V c main_arg21) b) := by
  show (cfg5.win 6).cut (grid5.coords t) ((dat5 V c).after 6 t) = _
  rw [after5_6]
  unfold out5_6
  rw [View.canon_unit_zero zero_offset]
  simp only [View.ld_unit_zero (S := S4000x128) zero_offset, View.ld_unit_zero (S := S4000x1) zero_offset,
    View.ld_unit_zero (S := S128x128) zero_offset, View.ld_unit_zero (S := S1x128) zero_offset]
  obtain ⟨e00, e01, e10, e11, e20, e21, e30, e31, e40, e41, e50, e51, e60, e61⟩ := index_facts5 t
  refine funext fun (j : S4000x128.Idx) => ?_
  obtain ⟨p, q, rfl⟩ : ∃ (p : Fin 4000) (q : Fin 128), j = ix2 p q := ⟨j 0, j 1, eq_ix2 j⟩
  show k5_pay1 (F := Ideal) (iblk5 V c 0 t) (iblk5 V c 1 t) (iblk5 V c 2 t) (iblk5 V c 3 t) (iblk5 V c 4 t) (iblk5 V c 5 t) (ix2 p q)
    = combArr2 (V c main_v68) invc (V c main_v46) (V c main_arg19) (V c main_arg21) b (((cfg5.win 6).blk t).view.emb (ix2 p q))
  refine (StageValue.k5_pay1_apply (iblk5 V c 0 t) (iblk5 V c 1 t) (iblk5 V c 2 t) (iblk5 V c 3 t) (iblk5 V c 4 t) (iblk5 V c 5 t) p q).trans ?_
  have ht : t.val < 25 := t.isLt
  -- the row of the array that row p of block t is
  let row : Fin 100000 := ⟨t.val * 4000 + p.val, by have := p.isLt; omega⟩
  have hout : ((cfg5.win 6).blk t).view.emb (ix2 p q) = ix2 row q := by
    funext a; apply Fin.ext
    match a with
    | ⟨0, _⟩ => show win5_6.index t (0 : Fin 2) * 4000 + 1 * p.val = t.val * 4000 + p.val; omega
    | ⟨1, _⟩ => show win5_6.index t (1 : Fin 2) * 128 + 1 * q.val = q.val; omega
  have hagg : ∀ k : Fin 128, iblk5 V c 0 t (ix2 p k) = V c main_v68 (ix2 row k) := by
    intro k
    show V c main_v68 (((cfg5.win 0).blk t).view.emb (ix2 p k)) = _
    refine congrArg (V c main_v68) (funext fun a => Fin.ext ?_)
    match a with
    | ⟨0, _⟩ => show win5_0.index t (0 : Fin 2) * 4000 + 1 * p.val = t.val * 4000 + p.val; omega
    | ⟨1, _⟩ => show win5_0.index t (1 : Fin 2) * 128 + 1 * k.val = k.val; omega
  have hcnt : iblk5 V c 1 t (ix2 p (0 : Fin 1)) = invc row := by
    refine Eq.trans ?_ (hinv row)
    show V c main_v72 (((cfg5.win 1).blk t).view.emb (ix2 p (0 : Fin 1))) = _
    refine congrArg (V c main_v72) (funext fun a => Fin.ext ?_)
    match a with
    | ⟨0, _⟩ => show win5_1.index t (0 : Fin 2) * 4000 + 1 * p.val = t.val * 4000 + p.val; omega
    | ⟨1, _⟩ => show win5_1.index t (1 : Fin 2) * 1 + 1 * 0 = 0; omega
  have hown : ∀ k : Fin 128, iblk5 V c 2 t (ix2 p k) = V c main_v46 (ix2 row k) := by
    intro k
    show V c main_v46 (((cfg5.win 2).blk t).view.emb (ix2 p k)) = _
    refine congrArg (V c main_v46) (funext fun a => Fin.ext ?_)
    match a with
    | ⟨0, _⟩ => show win5_2.index t (0 : Fin 2) * 4000 + 1 * p.val = t.val * 4000 + p.val; omega
    | ⟨1, _⟩ => show win5_2.index t (1 : Fin 2) * 128 + 1 * k.val = k.val; omega
  have hwl : ∀ (k j : Fin 128), iblk5 V c 3 t (ix2 k j) = V c main_arg19 (ix2 k j) := by
    intro k j
    show V c main_arg19 (((cfg5.win 3).blk t).view.emb (ix2 k j)) = _
    refine congrArg (V c main_arg19) (funext fun a => Fin.ext ?_)
    match a with
    | ⟨0, _⟩ => show win5_3.index t (0 : Fin 2) * 128 + 1 * k.val = k.val; omega
    | ⟨1, _⟩ => show win5_3.index t (1 : Fin 2) * 128 + 1 * j.val = j.val; omega
  have hwr : ∀ (k j : Fin 128), iblk5 V c 4 t (ix2 k j) = V c main_arg21 (ix2 k j) := by
    intro k j
    show V c main_arg21 (((cfg5.win 4).blk t).view.emb (ix2 k j)) = _
    refine congrArg (V c main_arg21) (funext fun a => Fin.ext ?_)
    match a with
    | ⟨0, _⟩ => show win5_4.index t (0 : Fin 2) * 128 + 1 * k.val = k.val; omega
    | ⟨1, _⟩ => show win5_4.index t (1 : Fin 2) * 128 + 1 * j.val = j.val; omega
  have hbias : ∀ j : Fin 128, iblk5 V c 5 t (ix2 (0 : Fin 1) j) = b j := by
    intro j
    refine Eq.trans ?_ (hb j)
    show V c main_v73 (((cfg5.win 5).blk t).view.emb (ix2 (0 : Fin 1) j)) = _
    refine congrArg (V c main_v73) (funext fun a => Fin.ext ?_)
    match a with
    | ⟨0, _⟩ => show win5_5.index t (0 : Fin 2) * 1 + 1 * 0 = 0; omega
    | ⟨1, _⟩ => show win5_5.index t (1 : Fin 2) * 128 + 1 * j.val = j.val; omega
  rw [hout]
  exact comb2_row (mat (iblk5 V c 0 t)) (fun r => iblk5 V c 1 t (ix2 r (0 : Fin 1))) (mat (iblk5 V c 2 t))
    (mat (iblk5 V c 3 t)) (mat (iblk5 V c 4 t)) (fun c' => iblk5 V c 5 t (ix2 (0 : Fin 1) c'))
    (mat (V c main_v68)) invc (mat (V c main_v46)) (mat (V c main_arg19)) (mat (V c main_arg21)) b p row
    hagg hcnt hown hwl hwr hbias q

/-- An index of the array is in point t's block iff each coordinate is in the block's range on its axis. -/
theorem mem_blk5 (t : Fin cfg5.N) (i : S100000x128.Idx) :
    i ∈ ((cfg5.win 6).blk t).view.set ↔ ∀ a : Fin 2, win5_6.index t a * S4000x128.size a ≤ (i a).val ∧ (i a).val < win5_6.index t a * S4000x128.size a + S4000x128.size a := by
  show i ∈ ((View.whole main_v74).slice (win5_6.rect t)).set ↔ _
  rw [View.set_slice_whole, Rect.mem_set_unit]
  exact Iff.rfl

/-- The row blocks tile the array: row r is in the block of point r / 4000, and every point writes back. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, htv⟩ : ∃ t : Fin cfg5.N, t.val = (i 0).val / 4000 := ⟨⟨(i 0).val / 4000, by show _ < 25; omega⟩, rfl⟩
  obtain ⟨-, -, -, -, -, -, -, -, -, -, -, -, e60, e61⟩ := index_facts5 t
  refine ⟨t, flush5_6 t, ?_⟩
  rw [mem_blk5]
  intro a
  match a with
  | ⟨0, _⟩ => show win5_6.index t (0 : Fin 2) * 4000 ≤ (i 0).val ∧ (i 0).val < win5_6.index t (0 : Fin 2) * 4000 + 4000; omega
  | ⟨1, _⟩ => show win5_6.index t (1 : Fin 2) * 128 ≤ (i 1).val ∧ (i 1).val < win5_6.index t (1 : Fin 2) * 128 + 128; omega

/-- The region's output array after the region, entry by entry: the combine of the arrays it finds. -/
theorem comb5_value (V : (c : Dev nD) → (b : Ref sig .tc) → Buf (Elt Ideal) ((c : Thread nD τ).loc b)) (c : Dev nD)
    (invc : Fin 100000 → EReal) (b : Fin 128 → EReal)
    (hinv : ∀ i : Fin 100000, V c main_v72 (ix2 i (0 : Fin 1)) = invc i)
    (hb : ∀ j : Fin 128, V c main_v73 (ix2 (0 : Fin 1) j) = b j) (i : Fin 100000) (j : Fin 128) :
    (dat5 (F := Ideal) V c).arrAt 6 cfg5.N (ix2 i j)
      = comb2 (mat (V c main_v68)) invc (mat (V c main_v46)) (mat (V c main_arg19)) (mat (V c main_arg21)) b i j :=
  congrFun ((dat5 (F := Ideal) V c).arrAt_eq_of_cover 6
    (combArr2 (V c main_v68) invc (V c main_v46) (V c main_arg19) (V c main_arg21) b)
    (fun t _ => flushed5_eq V c invc b hinv hb t) cover5) (ix2 i j)

end Cert.KernelIdeal.CombWide

end
-- ==== Proof.RefStage.lean ====
/-
  The plain formulation's dense stages, read at an entry, are the specification's matrix functions.

  Each stage of the plain formulation is a chain of elementwise, broadcast, contraction and row-sum operations.
  Reading the chain at entry (i, j), outermost operation first, gives a closed expression in the operands'
  entries; identifying the composed index maps with the coordinate constructors turns it into the
  specification's formula.
-/
import proofs.«118754_j70248485094040_2_alg».proof.Proof.StageSpec
import proofs.«118754_j70248485094040_2_alg».proof.Proof.Gen.ReferenceIdeal.Read

noncomputable section

namespace Cert.ReferenceIdeal.StageValue

open Cert.ReferenceIdeal Cert.ReferenceIdeal.Read Idealize.ShloMosaic Idealize.ShloMosaic.ValueIdx Cert.StageSpec

/-- The target-side input projection: a contraction over the inner axis plus the bias broadcast along rows. -/
theorem ref_h_t (x0 : (⟨S100000x128, .f32⟩ : BufTy).Contents (Elt Ideal)) (x6 : (⟨S128x128, .f32⟩ : BufTy).Contents (Elt Ideal)) (x7 : (⟨S128, .f32⟩ : BufTy).Contents (Elt Ideal))
    (i : Fin 100000) (j : Fin 128) :
    val_main_v18 (F := Ideal) x0 x6 x7 (ix2 i j) = lin (mat x0) (mat x6) (vec x7) i j := by
  have el : ∀ k : Fin 128, lidx_main_v15 (ix2 i j) k = ix2 i k := fun k => funext fun a => Fin.ext (by match a with | ⟨0, _⟩ => rfl | ⟨1, _⟩ => rfl)
  have er : ∀ k : Fin 128, ridx_main_v15 (ix2 i j) k = ix2 k j := fun k => funext fun a => Fin.ext (by match a with | ⟨0, _⟩ => rfl | ⟨1, _⟩ => rfl)
  have eb : idx_main_v16 (idx_main_v17 (ix2 i j)) = ix1 j := funext fun a => Fin.ext (by match a with | ⟨0, _⟩ => rfl)
  rw [val_main_v18_apply, val_main_v15_apply, val_main_v17_apply, val_main_v16_apply]
  simp only [el, er, eb, Ideal.addf_def]
  rfl

/-- The source-side input projection, with inner extent 64. -/
theorem ref_h_p (x1 : (⟨S20000x64, .f32⟩ : BufTy).Contents (Elt Ideal)) (x8 : (⟨S64x128, .f32⟩ : BufTy).Contents (Elt Ideal)) (x9 : (⟨S128, .f32⟩ : BufTy).Contents (Elt Ideal))
    (i : Fin 20000) (j : Fin 128) :
    val_main_v22 (F := Ideal) x1 x8 x9 (ix2 i j) = lin (mat x1) (mat x8) (vec x9) i j := by
  have el : ∀ k : Fin 64, lidx_main_v19 (ix2 i j) k = ix2 i k := fun k => funext fun a => Fin.ext (by match a with | ⟨0, _⟩ => rfl | ⟨1, _⟩ => rfl)
  have er : ∀ k : Fin 64, ridx_main_v19 (ix2 i j) k = ix2 k j := fun k => funext fun a => Fin.ext (by match a with | ⟨0, _⟩ => rfl | ⟨1, _⟩ => rfl)
  have eb : idx_main_v20 (idx_main_v21 (ix2 i j)) = ix1 j := funext fun a => Fin.ext (by match a with | ⟨0, _⟩ => rfl)
  rw [val_main_v22_apply, val_main_v19_apply, val_main_v21_apply, val_main_v20_apply]
  simp only [el, er, eb, Ideal.addf_def]
  rfl

/-- The scaled neighbour sum at an entry: the sum's entry times the row's reciprocal count. -/
theorem ref_o_p_scaled (x0 : (⟨S100000x128, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (i : Fin 20000) (k : Fin 128) :
    val_main_v35 (F := Ideal) x0 x2 x3 x6 x7 (ix2 i k) = val_main_v32 (F := Ideal) x0 x2 x3 x6 x7 (ix2 i k) * val_main_v7 (F := Ideal) x3 (ix1 i) := by
  have ec : idx_main_v33 (idx_main_v34 (ix2 i k)) = ix1 i := funext fun a => Fin.ext (by match a with | ⟨0, _⟩ => rfl)
  rw [val_main_v35_apply, val_main_v34_apply, val_main_v33_apply, ec]
  rfl

/-- The scaled neighbour sum through its weight matrix, at an entry. -/
theorem ref_o_p_left (x0 : (⟨S100000x128, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x10 : (⟨S128x128, .f32⟩ : BufTy).Contents (Elt Ideal)) (i : Fin 20000) (j : Fin 128) :
    val_main_v49 (F := Ideal) x0 x2 x3 x6 x7 x10 (ix2 i j)
      = ∑ k : Fin 128, (val_main_v32 (F := Ideal) x0 x2 x3 x6 x7 (ix2 i k) * val_main_v7 (F := Ideal) x3 (ix1 i)) * x10 (ix2 k j) := by
  rw [val_main_v49_apply]
  refine Finset.sum_congr rfl fun k _ => ?_
  have el : lidx_main_v49 (ix2 i j) k = ix2 i k := funext fun a => Fin.ext (by match a with | ⟨0, _⟩ => rfl | ⟨1, _⟩ => rfl)
  have er : ridx_main_v49 (ix2 i j) k = ix2 k j := funext fun a => Fin.ext (by match a with | ⟨0, _⟩ => rfl | ⟨1, _⟩ => rfl)
  rw [el, er, ref_o_p_scaled]

/-- The node's own row through its weight matrix, at an entry. -/
theorem ref_o_p_right (x1 : (⟨S20000x64, .f32⟩ : BufTy).Contents (Elt Ideal)) (x8 : (⟨S64x128, .f32⟩ : BufTy).Contents (Elt Ideal)) (x9 : (⟨S128, .f32⟩ : BufTy).Contents (Elt Ideal)) (x12 : (⟨S128x128, .f32⟩ : BufTy).Contents (Elt Ideal)) (i : Fin 20000) (j : Fin 128) :
    val_main_v53 (F := Ideal) x1 x8 x9 x12 (ix2 i j) = ∑ k : Fin 128, val_main_v22 (F := Ideal) x1 x8 x9 (ix2 i k) * x12 (ix2 k j) := by
  rw [val_main_v53_apply]
  refine Finset.sum_congr rfl fun k _ => ?_
  have el : lidx_main_v53 (ix2 i j) k = ix2 i k := funext fun a => Fin.ext (by match a with | ⟨0, _⟩ => rfl | ⟨1, _⟩ => rfl)
  have er : ridx_main_v53 (ix2 i j) k = ix2 k j := funext fun a => Fin.ext (by match a with | ⟨0, _⟩ => rfl | ⟨1, _⟩ => rfl)
  rw [el, er]

/-- The bias broadcast along rows, at an entry. -/
theorem ref_o_p_bias (x11 : (⟨S128, .f32⟩ : BufTy).Contents (Elt Ideal)) (i : Fin 20000) (j : Fin 128) :
    val_main_v51 (F := Ideal) x11 (ix2 i j) = x11 (ix1 j) := by
  have eb : idx_main_v50 (idx_main_v51 (ix2 i j)) = ix1 j := funext fun a => Fin.ext (by match a with | ⟨0, _⟩ => rfl)
  rw [val_main_v51_apply, val_main_v50_apply, eb]

/-- The entry before normalisation; the bias is added before the second product there, after it in the
    specification: addition is commutative and associative. -/
theorem ref_o_p_pre (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (i : Fin 20000) (j : Fin 128) :
    val_main_v54 (F := Ideal) x0 x1 x2 x3 x6 x7 x8 x9 x10 x11 x12 (ix2 i j)
      = pre (mat (val_main_v32 (F := Ideal) x0 x2 x3 x6 x7)) (vec (val_main_v7 (F := Ideal) x3)) (mat (val_main_v22 (F := Ideal) x1 x8 x9)) (mat x10) (mat x12) (vec x11) i j := by
  rw [pre_eq_bias_first, val_main_v54_apply, val_main_v52_apply, ref_o_p_left, ref_o_p_bias, ref_o_p_right]
  rfl

/-- The row's sum of squares, at a row. -/
theorem ref_o_p_sumsq (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (i : Fin 20000) (r : (S20000).Idx) (hr : r = ix1 i) :
    val_main_v56 (F := Ideal) x0 x1 x2 x3 x6 x7 x8 x9 x10 x11 x12 r
      = ∑ k : Fin 128, val_main_v54 (F := Ideal) x0 x1 x2 x3 x6 x7 x8 x9 x10 x11 x12 (ix2 i k) * val_main_v54 (F := Ideal) x0 x1 x2 x3 x6 x7 x8 x9 x10 x11 x12 (ix2 i k) := by
  subst hr
  rw [val_main_v56_apply, val_main_cst_11_apply, Ideal.ofBits_def, Ideal.ofBits_zero_f32, zero_add]
  refine Finset.sum_congr rfl fun k _ => ?_
  have es : idx_main_v56 (ix1 i) k = ix2 i k := funext fun a => Fin.ext (by match a with | ⟨0, _⟩ => rfl | ⟨1, _⟩ => rfl)
  rw [es, val_main_v55_apply]
  rfl

/-- The source-side first-layer combine: scaled neighbour sum and own row through their weights, bias, row normalisation, clamp at zero. -/
theorem ref_o_p (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal))
    (i : Fin 20000) (j : Fin 128) :
    val_main_v63 (F := Ideal) x0 x1 x2 x3 x6 x7 x8 x9 x10 x11 x12 (ix2 i j)
      = comb1 (mat (val_main_v32 (F := Ideal) x0 x2 x3 x6 x7)) (vec (val_main_v7 (F := Ideal) x3)) (mat (val_main_v22 (F := Ideal) x1 x8 x9)) (mat x10) (mat x12) (vec x11) i j := by
  have er : idx_main_v57 (idx_main_v61 (ix2 i j)) = ix1 i := funext fun a => Fin.ext (by match a with | ⟨0, _⟩ => rfl)
  rw [val_main_v63_apply, val_main_v62_apply, val_main_v61_apply, val_main_v60_apply, val_main_v58_apply,
    val_main_v57_apply, ref_o_p_sumsq x0 x1 x2 x3 x6 x7 x8 x9 x10 x11 x12 i _ er, val_main_v59_apply, val_main_cst_12_apply, val_main_call0_v0_apply, val_main_call0_cst_apply]
  simp only [ref_o_p_pre, Ideal.ofBits_def, Ideal.ofBits_zero_f32, Ideal.maximumf_def, Ideal.hostDivf_def,
    Ideal.hostUnary_sqrt_def, comb1, relu, l2n]

/-- The scaled neighbour sum at an entry: the sum's entry times the row's reciprocal count. -/
theorem ref_o_t_scaled (x1 : (⟨S20000x64, .f32⟩ : BufTy).Contents (Elt Ideal)) (x2 : (⟨S2000000, .i32⟩ : BufTy).Contents (Elt Ideal)) (x3 : (⟨S2000000, .i32⟩ : BufTy).Contents (Elt Ideal)) (x8 : (⟨S64x128, .f32⟩ : BufTy).Contents (Elt Ideal)) (x9 : (⟨S128, .f32⟩ : BufTy).Contents (Elt Ideal)) (i : Fin 100000) (k : Fin 128) :
    val_main_v48 (F := Ideal) x1 x2 x3 x8 x9 (ix2 i k) = val_main_v45 (F := Ideal) x1 x2 x3 x8 x9 (ix2 i k) * val_main_v14 (F := Ideal) x2 (ix1 i) := by
  have ec : idx_main_v46 (idx_main_v47 (ix2 i k)) = ix1 i := funext fun a => Fin.ext (by match a with | ⟨0, _⟩ => rfl)
  rw [val_main_v48_apply, val_main_v47_apply, val_main_v46_apply, ec]
  rfl

/-- The scaled neighbour sum through its weight matrix, at an entry. -/
theorem ref_o_t_left (x1 : (⟨S20000x64, .f32⟩ : BufTy).Contents (Elt Ideal)) (x2 : (⟨S2000000, .i32⟩ : BufTy).Contents (Elt Ideal)) (x3 : (⟨S2000000, .i32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (i : Fin 100000) (j : Fin 128) :
    val_main_v64 (F := Ideal) x1 x2 x3 x8 x9 x13 (ix2 i j)
      = ∑ k : Fin 128, (val_main_v45 (F := Ideal) x1 x2 x3 x8 x9 (ix2 i k) * val_main_v14 (F := Ideal) x2 (ix1 i)) * x13 (ix2 k j) := by
  rw [val_main_v64_apply]
  refine Finset.sum_congr rfl fun k _ => ?_
  have el : lidx_main_v64 (ix2 i j) k = ix2 i k := funext fun a => Fin.ext (by match a with | ⟨0, _⟩ => rfl | ⟨1, _⟩ => rfl)
  have er : ridx_main_v64 (ix2 i j) k = ix2 k j := funext fun a => Fin.ext (by match a with | ⟨0, _⟩ => rfl | ⟨1, _⟩ => rfl)
  rw [el, er, ref_o_t_scaled]

/-- The node's own row through its weight matrix, at an entry. -/
theorem ref_o_t_right (x0 : (⟨S100000x128, .f32⟩ : BufTy).Contents (Elt Ideal)) (x6 : (⟨S128x128, .f32⟩ : BufTy).Contents (Elt Ideal)) (x7 : (⟨S128, .f32⟩ : BufTy).Contents (Elt Ideal)) (x15 : (⟨S128x128, .f32⟩ : BufTy).Contents (Elt Ideal)) (i : Fin 100000) (j : Fin 128) :
    val_main_v68 (F := Ideal) x0 x6 x7 x15 (ix2 i j) = ∑ k : Fin 128, val_main_v18 (F := Ideal) x0 x6 x7 (ix2 i k) * x15 (ix2 k j) := by
  rw [val_main_v68_apply]
  refine Finset.sum_congr rfl fun k _ => ?_
  have el : lidx_main_v68 (ix2 i j) k = ix2 i k := funext fun a => Fin.ext (by match a with | ⟨0, _⟩ => rfl | ⟨1, _⟩ => rfl)
  have er : ridx_main_v68 (ix2 i j) k = ix2 k j := funext fun a => Fin.ext (by match a with | ⟨0, _⟩ => rfl | ⟨1, _⟩ => rfl)
  rw [el, er]

/-- The bias broadcast along rows, at an entry. -/
theorem ref_o_t_bias (x14 : (⟨S128, .f32⟩ : BufTy).Contents (Elt Ideal)) (i : Fin 100000) (j : Fin 128) :
    val_main_v66 (F := Ideal) x14 (ix2 i j) = x14 (ix1 j) := by
  have eb : idx_main_v65 (idx_main_v66 (ix2 i j)) = ix1 j := funext fun a => Fin.ext (by match a with | ⟨0, _⟩ => rfl)
  rw [val_main_v66_apply, val_main_v65_apply, eb]

/-- The entry before normalisation; the bias is added before the second product there, after it in the
    specification: addition is commutative and associative. -/
theorem ref_o_t_pre (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (i : Fin 100000) (j : Fin 128) :
    val_main_v69 (F := Ideal) x0 x1 x2 x3 x6 x7 x8 x9 x13 x14 x15 (ix2 i j)
      = pre (mat (val_main_v45 (F := Ideal) x1 x2 x3 x8 x9)) (vec (val_main_v14 (F := Ideal) x2)) (mat (val_main_v18 (F := Ideal) x0 x6 x7)) (mat x13) (mat x15) (vec x14) i j := by
  rw [pre_eq_bias_first, val_main_v69_apply, val_main_v67_apply, ref_o_t_left, ref_o_t_bias, ref_o_t_right]
  rfl

/-- The row's sum of squares, at a row. -/
theorem ref_o_t_sumsq (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (i : Fin 100000) (r : (S100000).Idx) (hr : r = ix1 i) :
    val_main_v71 (F := Ideal) x0 x1 x2 x3 x6 x7 x8 x9 x13 x14 x15 r
      = ∑ k : Fin 128, val_main_v69 (F := Ideal) x0 x1 x2 x3 x6 x7 x8 x9 x13 x14 x15 (ix2 i k) * val_main_v69 (F := Ideal) x0 x1 x2 x3 x6 x7 x8 x9 x13 x14 x15 (ix2 i k) := by
  subst hr
  rw [val_main_v71_apply, val_main_cst_13_apply, Ideal.ofBits_def, Ideal.ofBits_zero_f32, zero_add]
  refine Finset.sum_congr rfl fun k _ => ?_
  have es : idx_main_v71 (ix1 i) k = ix2 i k := funext fun a => Fin.ext (by match a with | ⟨0, _⟩ => rfl | ⟨1, _⟩ => rfl)
  rw [es, val_main_v70_apply]
  rfl

/-- The target-side first-layer combine: the same chain with the other side's neighbour sum, count and weights. -/
theorem ref_o_t (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal))
    (i : Fin 100000) (j : Fin 128) :
    val_main_v78 (F := Ideal) x0 x1 x2 x3 x6 x7 x8 x9 x13 x14 x15 (ix2 i j)
      = comb1 (mat (val_main_v45 (F := Ideal) x1 x2 x3 x8 x9)) (vec (val_main_v14 (F := Ideal) x2)) (mat (val_main_v18 (F := Ideal) x0 x6 x7)) (mat x13) (mat x15) (vec x14) i j := by
  have er : idx_main_v72 (idx_main_v76 (ix2 i j)) = ix1 i := funext fun a => Fin.ext (by match a with | ⟨0, _⟩ => rfl)
  rw [val_main_v78_apply, val_main_v77_apply, val_main_v76_apply, val_main_v75_apply, val_main_v73_apply,
    val_main_v72_apply, ref_o_t_sumsq x0 x1 x2 x3 x6 x7 x8 x9 x13 x14 x15 i _ er, val_main_v74_apply, val_main_cst_14_apply, val_main_call1_v0_apply, val_main_call1_cst_apply]
  simp only [ref_o_t_pre, Ideal.ofBits_def, Ideal.ofBits_zero_f32, Ideal.maximumf_def, Ideal.hostDivf_def,
    Ideal.hostUnary_sqrt_def, comb1, relu, l2n]

/-- The scaled neighbour sum at an entry: the sum's entry times the row's reciprocal count. -/
theorem ref_z_p_scaled (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (i : Fin 20000) (k : Fin 128) :
    val_main_v91 (F := Ideal) x0 x1 x2 x3 x6 x7 x8 x9 x13 x14 x15 (ix2 i k) = val_main_v88 (F := Ideal) x0 x1 x2 x3 x6 x7 x8 x9 x13 x14 x15 (ix2 i k) * val_main_v7 (F := Ideal) x3 (ix1 i) := by
  have ec : idx_main_v89 (idx_main_v90 (ix2 i k)) = ix1 i := funext fun a => Fin.ext (by match a with | ⟨0, _⟩ => rfl)
  rw [val_main_v91_apply, val_main_v90_apply, val_main_v89_apply, ec]
  rfl

/-- The scaled neighbour sum through its weight matrix, at an entry. -/
theorem ref_z_p_left (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128x128, .f32⟩ : BufTy).Contents (Elt Ideal)) (i : Fin 20000) (j : Fin 128) :
    val_main_v105 (F := Ideal) x0 x1 x2 x3 x6 x7 x8 x9 x13 x14 x15 x16 (ix2 i j)
      = ∑ k : Fin 128, (val_main_v88 (F := Ideal) x0 x1 x2 x3 x6 x7 x8 x9 x13 x14 x15 (ix2 i k) * val_main_v7 (F := Ideal) x3 (ix1 i)) * x16 (ix2 k j) := by
  rw [val_main_v105_apply]
  refine Finset.sum_congr rfl fun k _ => ?_
  have el : lidx_main_v105 (ix2 i j) k = ix2 i k := funext fun a => Fin.ext (by match a with | ⟨0, _⟩ => rfl | ⟨1, _⟩ => rfl)
  have er : ridx_main_v105 (ix2 i j) k = ix2 k j := funext fun a => Fin.ext (by match a with | ⟨0, _⟩ => rfl | ⟨1, _⟩ => rfl)
  rw [el, er, ref_z_p_scaled]

/-- The node's own row through its weight matrix, at an entry. -/
theorem ref_z_p_right (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x18 : (⟨S128x128, .f32⟩ : BufTy).Contents (Elt Ideal)) (i : Fin 20000) (j : Fin 128) :
    val_main_v109 (F := Ideal) x0 x1 x2 x3 x6 x7 x8 x9 x10 x11 x12 x18 (ix2 i j) = ∑ k : Fin 128, val_main_v63 (F := Ideal) x0 x1 x2 x3 x6 x7 x8 x9 x10 x11 x12 (ix2 i k) * x18 (ix2 k j) := by
  rw [val_main_v109_apply]
  refine Finset.sum_congr rfl fun k _ => ?_
  have el : lidx_main_v109 (ix2 i j) k = ix2 i k := funext fun a => Fin.ext (by match a with | ⟨0, _⟩ => rfl | ⟨1, _⟩ => rfl)
  have er : ridx_main_v109 (ix2 i j) k = ix2 k j := funext fun a => Fin.ext (by match a with | ⟨0, _⟩ => rfl | ⟨1, _⟩ => rfl)
  rw [el, er]

/-- The bias broadcast along rows, at an entry. -/
theorem ref_z_p_bias (x17 : (⟨S128, .f32⟩ : BufTy).Contents (Elt Ideal)) (i : Fin 20000) (j : Fin 128) :
    val_main_v107 (F := Ideal) x17 (ix2 i j) = x17 (ix1 j) := by
  have eb : idx_main_v106 (idx_main_v107 (ix2 i j)) = ix1 j := funext fun a => Fin.ext (by match a with | ⟨0, _⟩ => rfl)
  rw [val_main_v107_apply, val_main_v106_apply, eb]

/-- The entry before normalisation; the bias is added before the second product there, after it in the
    specification: addition is commutative and associative. -/
theorem ref_z_p_pre (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (i : Fin 20000) (j : Fin 128) :
    val_main_v110 (F := Ideal) x0 x1 x2 x3 x6 x7 x8 x9 x10 x11 x12 x13 x14 x15 x16 x17 x18 (ix2 i j)
      = pre (mat (val_main_v88 (F := Ideal) x0 x1 x2 x3 x6 x7 x8 x9 x13 x14 x15)) (vec (val_main_v7 (F := Ideal) x3)) (mat (val_main_v63 (F := Ideal) x0 x1 x2 x3 x6 x7 x8 x9 x10 x11 x12)) (mat x16) (mat x18) (vec x17) i j := by
  rw [pre_eq_bias_first, val_main_v110_apply, val_main_v108_apply, ref_z_p_left, ref_z_p_bias, ref_z_p_right]
  rfl

/-- The row's sum of squares, at a row. -/
theorem ref_z_p_sumsq (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (i : Fin 20000) (r : (S20000).Idx) (hr : r = ix1 i) :
    val_main_v112 (F := Ideal) x0 x1 x2 x3 x6 x7 x8 x9 x10 x11 x12 x13 x14 x15 x16 x17 x18 r
      = ∑ k : Fin 128, val_main_v110 (F := Ideal) x0 x1 x2 x3 x6 x7 x8 x9 x10 x11 x12 x13 x14 x15 x16 x17 x18 (ix2 i k) * val_main_v110 (F := Ideal) x0 x1 x2 x3 x6 x7 x8 x9 x10 x11 x12 x13 x14 x15 x16 x17 x18 (ix2 i k) := by
  subst hr
  rw [val_main_v112_apply, val_main_cst_21_apply, Ideal.ofBits_def, Ideal.ofBits_zero_f32, zero_add]
  refine Finset.sum_congr rfl fun k _ => ?_
  have es : idx_main_v112 (ix1 i) k = ix2 i k := funext fun a => Fin.ext (by match a with | ⟨0, _⟩ => rfl | ⟨1, _⟩ => rfl)
  rw [es, val_main_v111_apply]
  rfl

/-- The source-side second-layer combine: the same chain over the first layer's outputs, without the clamp. -/
theorem ref_z_p (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal))
    (i : Fin 20000) (j : Fin 128) :
    val_main_v118 (F := Ideal) x0 x1 x2 x3 x6 x7 x8 x9 x10 x11 x12 x13 x14 x15 x16 x17 x18 (ix2 i j)
      = comb2 (mat (val_main_v88 (F := Ideal) x0 x1 x2 x3 x6 x7 x8 x9 x13 x14 x15)) (vec (val_main_v7 (F := Ideal) x3)) (mat (val_main_v63 (F := Ideal) x0 x1 x2 x3 x6 x7 x8 x9 x10 x11 x12)) (mat x16) (mat x18) (vec x17) i j := by
  have er : idx_main_v113 (idx_main_v117 (ix2 i j)) = ix1 i := funext fun a => Fin.ext (by match a with | ⟨0, _⟩ => rfl)
  rw [val_main_v118_apply, val_main_v117_apply, val_main_v116_apply, val_main_v114_apply,
    val_main_v113_apply, ref_z_p_sumsq x0 x1 x2 x3 x6 x7 x8 x9 x10 x11 x12 x13 x14 x15 x16 x17 x18 i _ er, val_main_v115_apply, val_main_cst_22_apply]
  simp only [ref_z_p_pre, Ideal.ofBits_def, Ideal.ofBits_zero_f32, Ideal.maximumf_def, Ideal.hostDivf_def,
    Ideal.hostUnary_sqrt_def, comb2, l2n]

/-- The scaled neighbour sum at an entry: the sum's entry times the row's reciprocal count. -/
theorem ref_z_t_scaled (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (i : Fin 100000) (k : Fin 128) :
    val_main_v104 (F := Ideal) x0 x1 x2 x3 x6 x7 x8 x9 x10 x11 x12 (ix2 i k) = val_main_v101 (F := Ideal) x0 x1 x2 x3 x6 x7 x8 x9 x10 x11 x12 (ix2 i k) * val_main_v14 (F := Ideal) x2 (ix1 i) := by
  have ec : idx_main_v102 (idx_main_v103 (ix2 i k)) = ix1 i := funext fun a => Fin.ext (by match a with | ⟨0, _⟩ => rfl)
  rw [val_main_v104_apply, val_main_v103_apply, val_main_v102_apply, ec]
  rfl

/-- The scaled neighbour sum through its weight matrix, at an entry. -/
theorem ref_z_t_left (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x19 : (⟨S128x128, .f32⟩ : BufTy).Contents (Elt Ideal)) (i : Fin 100000) (j : Fin 128) :
    val_main_v119 (F := Ideal) x0 x1 x2 x3 x6 x7 x8 x9 x10 x11 x12 x19 (ix2 i j)
      = ∑ k : Fin 128, (val_main_v101 (F := Ideal) x0 x1 x2 x3 x6 x7 x8 x9 x10 x11 x12 (ix2 i k) * val_main_v14 (F := Ideal) x2 (ix1 i)) * x19 (ix2 k j) := by
  rw [val_main_v119_apply]
  refine Finset.sum_congr rfl fun k _ => ?_
  have el : lidx_main_v119 (ix2 i j) k = ix2 i k := funext fun a => Fin.ext (by match a with | ⟨0, _⟩ => rfl | ⟨1, _⟩ => rfl)
  have er : ridx_main_v119 (ix2 i j) k = ix2 k j := funext fun a => Fin.ext (by match a with | ⟨0, _⟩ => rfl | ⟨1, _⟩ => rfl)
  rw [el, er, ref_z_t_scaled]

/-- The node's own row through its weight matrix, at an entry. -/
theorem ref_z_t_right (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x21 : (⟨S128x128, .f32⟩ : BufTy).Contents (Elt Ideal)) (i : Fin 100000) (j : Fin 128) :
    val_main_v123 (F := Ideal) x0 x1 x2 x3 x6 x7 x8 x9 x13 x14 x15 x21 (ix2 i j) = ∑ k : Fin 128, val_main_v78 (F := Ideal) x0 x1 x2 x3 x6 x7 x8 x9 x13 x14 x15 (ix2 i k) * x21 (ix2 k j) := by
  rw [val_main_v123_apply]
  refine Finset.sum_congr rfl fun k _ => ?_
  have el : lidx_main_v123 (ix2 i j) k = ix2 i k := funext fun a => Fin.ext (by match a with | ⟨0, _⟩ => rfl | ⟨1, _⟩ => rfl)
  have er : ridx_main_v123 (ix2 i j) k = ix2 k j := funext fun a => Fin.ext (by match a with | ⟨0, _⟩ => rfl | ⟨1, _⟩ => rfl)
  rw [el, er]

/-- The bias broadcast along rows, at an entry. -/
theorem ref_z_t_bias (x20 : (⟨S128, .f32⟩ : BufTy).Contents (Elt Ideal)) (i : Fin 100000) (j : Fin 128) :
    val_main_v121 (F := Ideal) x20 (ix2 i j) = x20 (ix1 j) := by
  have eb : idx_main_v120 (idx_main_v121 (ix2 i j)) = ix1 j := funext fun a => Fin.ext (by match a with | ⟨0, _⟩ => rfl)
  rw [val_main_v121_apply, val_main_v120_apply, eb]

/-- The entry before normalisation; the bias is added before the second product there, after it in the
    specification: addition is commutative and associative. -/
theorem ref_z_t_pre (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (i : Fin 100000) (j : Fin 128) :
    val_main_v124 (F := Ideal) x0 x1 x2 x3 x6 x7 x8 x9 x10 x11 x12 x13 x14 x15 x19 x20 x21 (ix2 i j)
      = pre (mat (val_main_v101 (F := Ideal) x0 x1 x2 x3 x6 x7 x8 x9 x10 x11 x12)) (vec (val_main_v14 (F := Ideal) x2)) (mat (val_main_v78 (F := Ideal) x0 x1 x2 x3 x6 x7 x8 x9 x13 x14 x15)) (mat x19) (mat x21) (vec x20) i j := by
  rw [pre_eq_bias_first, val_main_v124_apply, val_main_v122_apply, ref_z_t_left, ref_z_t_bias, ref_z_t_right]
  rfl

/-- The row's sum of squares, at a row. -/
theorem ref_z_t_sumsq (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (i : Fin 100000) (r : (S100000).Idx) (hr : r = ix1 i) :
    val_main_v126 (F := Ideal) x0 x1 x2 x3 x6 x7 x8 x9 x10 x11 x12 x13 x14 x15 x19 x20 x21 r
      = ∑ k : Fin 128, val_main_v124 (F := Ideal) x0 x1 x2 x3 x6 x7 x8 x9 x10 x11 x12 x13 x14 x15 x19 x20 x21 (ix2 i k) * val_main_v124 (F := Ideal) x0 x1 x2 x3 x6 x7 x8 x9 x10 x11 x12 x13 x14 x15 x19 x20 x21 (ix2 i k) := by
  subst hr
  rw [val_main_v126_apply, val_main_cst_23_apply, Ideal.ofBits_def, Ideal.ofBits_zero_f32, zero_add]
  refine Finset.sum_congr rfl fun k _ => ?_
  have es : idx_main_v126 (ix1 i) k = ix2 i k := funext fun a => Fin.ext (by match a with | ⟨0, _⟩ => rfl | ⟨1, _⟩ => rfl)
  rw [es, val_main_v125_apply]
  rfl

/-- The target-side second-layer combine, without the clamp. -/
theorem ref_z_t (x0 : (⟨S100000x128, .f32⟩ : BufTy).Contents (Elt Ideal)) (x1 : (⟨S20000x64, .f32⟩ : BufTy).Contents (Elt Ideal)) (x2 : (⟨S2000000, .i32⟩ : BufTy).Contents (Elt Ideal)) (x3 : (⟨S2000000, .i32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal))
    (i : Fin 100000) (j : Fin 128) :
    val_main_v132 (F := Ideal) x0 x1 x2 x3 x6 x7 x8 x9 x10 x11 x12 x13 x14 x15 x19 x20 x21 (ix2 i j)
      = comb2 (mat (val_main_v101 (F := Ideal) x0 x1 x2 x3 x6 x7 x8 x9 x10 x11 x12)) (vec (val_main_v14 (F := Ideal) x2)) (mat (val_main_v78 (F := Ideal) x0 x1 x2 x3 x6 x7 x8 x9 x13 x14 x15)) (mat x19) (mat x21) (vec x20) i j := by
  have er : idx_main_v127 (idx_main_v131 (ix2 i j)) = ix1 i := funext fun a => Fin.ext (by match a with | ⟨0, _⟩ => rfl)
  rw [val_main_v132_apply, val_main_v131_apply, val_main_v130_apply, val_main_v128_apply,
    val_main_v127_apply, ref_z_t_sumsq x0 x1 x2 x3 x6 x7 x8 x9 x10 x11 x12 x13 x14 x15 x19 x20 x21 i _ er, val_main_v129_apply, val_main_cst_24_apply]
  simp only [ref_z_t_pre, Ideal.ofBits_def, Ideal.ofBits_zero_f32, Ideal.maximumf_def, Ideal.hostDivf_def,
    Ideal.hostUnary_sqrt_def, comb2, l2n]

end Cert.ReferenceIdeal.StageValue

end
-- ==== Proof.StageChain.lean ====
/-
  The kernel program's result, stage by stage, is the plain formulation's own term of the arguments.

  Each launch region's output array at its exit boundary equals the plain formulation's corresponding dense stage:
  the region's array is the specification's function of the arrays it entered with (the per-region modules), those
  arrays are the plain formulation's terms by the stages before (the host-stretch module), and the plain
  formulation's stage is the same specification function of the same operands (the reference-stage module).
  Six steps — two projections, two first-layer combines, two second-layer combines — and the final host tail give
  the score array.
-/
import proofs.«118754_j70248485094040_2_alg».proof.Proof.KernelCarry
import proofs.«118754_j70248485094040_2_alg».proof.Proof.Gen.ReferenceIdeal.Read
import proofs.«118754_j70248485094040_2_alg».proof.Proof.LibColumnCast
import proofs.«118754_j70248485094040_2_alg».proof.Proof.KernelHost
import proofs.«118754_j70248485094040_2_alg».proof.Proof.StageSpec
import proofs.«118754_j70248485094040_2_alg».proof.Proof.LinRegion
import proofs.«118754_j70248485094040_2_alg».proof.Proof.CombRegionNarrow
import proofs.«118754_j70248485094040_2_alg».proof.Proof.CombRegionWide
import proofs.«118754_j70248485094040_2_alg».proof.Proof.RefStage
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.StageChain

open Cert.KernelIdeal Cert.KernelIdeal.Gen
open Idealize.ShloMosaic Idealize.ShloMosaic.TcCoe Idealize.SL.Sem Idealize.ShloMosaic.ValueIdx Idealize.ShloMosaic.StableHlo

open Cert.ReferenceIdeal.Read (val_main_v7 val_main_v14 val_main_v18 val_main_v22 val_main_v32 val_main_v45 val_main_v63 val_main_v78 val_main_v88 val_main_v101 val_main_v118 val_main_v132 val_main_v148)

variable (m : (ℓ : Loc nD τ sig) → Buf (Elt Ideal) ℓ) (ρ : Dev nD → PrngReg) (c : Dev nD)

open Cert.StageSpec
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)
abbrev a18 := m ((c : Thread nD τ).loc main_arg18)
abbrev a19 := m ((c : Thread nD τ).loc main_arg19)
abbrev a20 := m ((c : Thread nD τ).loc main_arg20)
abbrev a21 := m ((c : Thread nD τ).loc main_arg21)

/-- The 100000-node projection. -/
theorem stage0 : W2 m ρ c (Proc.devRef .tc main_v16) = val_main_v18 (F := Ideal) (a0 m c) (a6 m c) (a7 m c) := by
  rw [Carry.outR0]
  funext idx
  obtain ⟨i, j, rfl⟩ : ∃ (i : Fin 100000) (j : Fin 128), idx = ix2 i j := ⟨idx 0, idx 1, eq_ix2 idx⟩
  rw [Cert.KernelIdeal.LinRegion.lin0_value (V1 m ρ) c (vec (a7 m c)) (HostValue.bias_r0 m ρ c) i j,
      Cert.ReferenceIdeal.StageValue.ref_h_t _ _ _ i j, HostValue.arg0_at1, HostValue.arg6_at1]

/-- The 20000-node projection. -/
theorem stage1 : W4 m ρ c (Proc.devRef .tc main_v18) = val_main_v22 (F := Ideal) (a1 m c) (a8 m c) (a9 m c) := by
  rw [Carry.outR1]
  funext idx
  obtain ⟨i, j, rfl⟩ : ∃ (i : Fin 20000) (j : Fin 128), idx = ix2 i j := ⟨idx 0, idx 1, eq_ix2 idx⟩
  rw [Cert.KernelIdeal.LinRegion.lin1_value (V3 m ρ) c (vec (a9 m c)) (HostValue.bias_r1 m ρ c) i j,
      Cert.ReferenceIdeal.StageValue.ref_h_p _ _ _ i j, HostValue.arg1_at3, HostValue.arg8_at3]

/-- The first-layer output on the 20000 nodes. -/
theorem stage2 : W6 m ρ c (Proc.devRef .tc main_v43) = val_main_v63 (F := Ideal) (a0 m c) (a1 m c) (a2 m c) (a3 m c) (a6 m c) (a7 m c) (a8 m c) (a9 m c) (a10 m c) (a11 m c) (a12 m c) := by
  rw [Carry.outR2]
  funext idx
  obtain ⟨i, j, rfl⟩ : ∃ (i : Fin 20000) (j : Fin 128), idx = ix2 i j := ⟨idx 0, idx 1, eq_ix2 idx⟩
  rw [Cert.KernelIdeal.StageValue.comb2_value (V5 m ρ) c (vec (val_main_v7 (F := Ideal) (a3 m c))) (vec (a11 m c)) (HostValue.inv_r2 m ρ c) (HostValue.bias_r2 m ρ c) i j,
      Cert.ReferenceIdeal.StageValue.ref_o_p _ _ _ _ _ _ _ _ _ _ _ i j,
      HostValue.agg_p1 m ρ c (stage0 m ρ c), HostValue.own_r2 m ρ c (stage1 m ρ c), HostValue.arg10_at5, HostValue.arg12_at5]

/-- The first-layer output on the 100000 nodes. -/
theorem stage3 : W8 m ρ c (Proc.devRef .tc main_v46) = val_main_v78 (F := Ideal) (a0 m c) (a1 m c) (a2 m c) (a3 m c) (a6 m c) (a7 m c) (a8 m c) (a9 m c) (a13 m c) (a14 m c) (a15 m c) := by
  rw [Carry.outR3]
  funext idx
  obtain ⟨i, j, rfl⟩ : ∃ (i : Fin 100000) (j : Fin 128), idx = ix2 i j := ⟨idx 0, idx 1, eq_ix2 idx⟩
  rw [Cert.KernelIdeal.CombWide.comb3_value (V7 m ρ) c (vec (val_main_v14 (F := Ideal) (a2 m c))) (vec (a14 m c)) (HostValue.inv_r3 m ρ c) (HostValue.bias_r3 m ρ c) i j,
      Cert.ReferenceIdeal.StageValue.ref_o_t _ _ _ _ _ _ _ _ _ _ _ i j,
      HostValue.agg_r3 m ρ c (stage1 m ρ c), HostValue.own_r3 m ρ c (stage0 m ρ c), HostValue.arg13_at7, HostValue.arg15_at7]

/-- The second-layer output on the 20000 nodes. -/
theorem stage4 : W10 m ρ c (Proc.devRef .tc main_v71) = val_main_v118 (F := Ideal) (a0 m c) (a1 m c) (a2 m c) (a3 m c) (a6 m c) (a7 m c) (a8 m c) (a9 m c) (a10 m c) (a11 m c) (a12 m c) (a13 m c) (a14 m c) (a15 m c) (a16 m c) (a17 m c) (a18 m c) := by
  rw [Carry.outR4]
  funext idx
  obtain ⟨i, j, rfl⟩ : ∃ (i : Fin 20000) (j : Fin 128), idx = ix2 i j := ⟨idx 0, idx 1, eq_ix2 idx⟩
  rw [Cert.KernelIdeal.StageValue.comb4_value (V9 m ρ) c (vec (val_main_v7 (F := Ideal) (a3 m c))) (vec (a17 m c)) (HostValue.inv_r4 m ρ c) (HostValue.bias_r4 m ρ c) i j,
      Cert.ReferenceIdeal.StageValue.ref_z_p _ _ _ _ _ _ _ _ _ _ _ _ _ _ _ _ _ i j,
      HostValue.agg_p2 m ρ c (stage3 m ρ c), HostValue.own_r4 m ρ c (stage2 m ρ c), HostValue.arg16_at9, HostValue.arg18_at9]

/-- The second-layer output on the 100000 nodes. -/
theorem stage5 : W12 m ρ c (Proc.devRef .tc main_v74) = val_main_v132 (F := Ideal) (a0 m c) (a1 m c) (a2 m c) (a3 m c) (a6 m c) (a7 m c) (a8 m c) (a9 m c) (a10 m c) (a11 m c) (a12 m c) (a13 m c) (a14 m c) (a15 m c) (a19 m c) (a20 m c) (a21 m c) := by
  rw [Carry.outR5]
  funext idx
  obtain ⟨i, j, rfl⟩ : ∃ (i : Fin 100000) (j : Fin 128), idx = ix2 i j := ⟨idx 0, idx 1, eq_ix2 idx⟩
  rw [Cert.KernelIdeal.CombWide.comb5_value (V11 m ρ) c (vec (val_main_v14 (F := Ideal) (a2 m c))) (vec (a20 m c)) (HostValue.inv_r5 m ρ c) (HostValue.bias_r5 m ρ c) i j,
      Cert.ReferenceIdeal.StageValue.ref_z_t _ _ _ _ _ _ _ _ _ _ _ _ _ _ _ _ _ i j,
      HostValue.agg_r5 m ρ c (stage2 m ρ c), HostValue.own_r5 m ρ c (stage3 m ρ c), HostValue.arg19_at11, HostValue.arg21_at11]

/-- The score array the kernel program returns is the plain formulation's term of the launch arguments. -/
theorem score_value : W13 m ρ c (Proc.devRef .tc main_v92) = val_main_v148 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) :=
  HostValue.score m ρ c (stage4 m ρ c) (stage5 m ρ c)

end Cert.KernelIdeal.StageChain

end
-- ==== Proof.lean ====
/-
  The certificate of a two-layer message-passing network on a bipartite graph (100000 nodes on one side, 20000 on
  the other, two million edges), scored on 500000 labelled pairs: the kernel formulation against the plain one.

  Both programs compute, from the same arguments: the clamped reciprocal of each node's neighbour count; a linear
  projection of each side's features to 128 columns; twice, for each side, the sum of the OTHER side's rows along
  the edges, scaled by the reciprocal count, times one weight matrix, plus the node's own row times a second one,
  plus a bias, each row then divided by the larger of its Euclidean norm and 1e-12 (and, in the first layer,
  clamped below at zero); and last, for each labelled pair, the inner product of the two second-layer rows.

  The kernel formulation runs the six dense stages as launch regions over blocks of 4000 rows, storing their
  outputs in a narrower float format, scales by the reciprocal count inside the combine stage, and adds the
  bias after the second product; the plain formulation scales on the host and adds the bias before it. On
  extended reals a change of float format is the identity, a block-wise matrix product with the whole inner
  dimension in every block is the whole product, and addition is commutative and associative, so the two are one
  function: no argument has to be finite for that, and the precondition is never opened.

  The frames of the two kernel programs are the generated ones; the plain formulation's frame is its generated
  run with the result dropped; the idealization rewrote no operation, so `preserves` is `True`. For `algebraic`,
  the kernel program's run is read with its result buffer named (KernelRun), that buffer's contents are walked
  back through the program's segments to the plain formulation's own term of the arguments (StageChain, over
  KernelCarry, KernelHost and the per-stage modules), and the plain formulation's run ends at that same term.
-/
import proofs.«118754_j70248485094040_2_alg».proof.Defs
import proofs.«118754_j70248485094040_2_alg».proof.Proof.Gen.Kernel
import proofs.«118754_j70248485094040_2_alg».proof.Proof.Gen.Kernel.Skeleton
import proofs.«118754_j70248485094040_2_alg».proof.Proof.Gen.Kernel.Launch
import proofs.«118754_j70248485094040_2_alg».proof.Proof.Gen.Kernel.Points
import proofs.«118754_j70248485094040_2_alg».proof.Proof.Gen.Kernel.Frame
import proofs.«118754_j70248485094040_2_alg».proof.Proof.Gen.KernelIdeal
import proofs.«118754_j70248485094040_2_alg».proof.Proof.Gen.KernelIdeal.Skeleton
import proofs.«118754_j70248485094040_2_alg».proof.Proof.Gen.KernelIdeal.Launch
import proofs.«118754_j70248485094040_2_alg».proof.Proof.Gen.KernelIdeal.Points
import proofs.«118754_j70248485094040_2_alg».proof.Proof.Gen.KernelIdeal.Frame
import proofs.«118754_j70248485094040_2_alg».proof.Proof.Gen.ReferenceIdeal
import proofs.«118754_j70248485094040_2_alg».proof.Proof.Gen.Pre_finite_inputs
import proofs.«118754_j70248485094040_2_alg».proof.Proof.Gen.ReferenceIdeal.Run
import proofs.«118754_j70248485094040_2_alg».proof.Proof.Gen.ReferenceIdeal.Read
import proofs.«118754_j70248485094040_2_alg».proof.Proof.KernelRun
import proofs.«118754_j70248485094040_2_alg».proof.Proof.StageChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain formulation's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the score array at the plain formulation's term of the (agreeing) arguments. -/
theorem algebraic : Cert.algebraic_KernelIdeal_ReferenceIdeal := by
  intro m ρ m' ρ' _ hagree
  refine ⟨fun c => Cert.ReferenceIdeal.Read.val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.StageChain.score_value m ρ c), (h c).2⟩)
      (Cert.KernelIdeal.ValueRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    rw [(h c).1, Cert.ReferenceIdeal.Read.val_main_v148_eq, e0, e1, e2, e3, e4, e5, e6, e7, e8, e9, e10, e11, e12, e13, e14, e15, e16, e17, e18, e19, e20, e21]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
